-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S128x128 : Shape := ⟨2, ![128, 128]⟩
abbrev S32x32 : Shape := ⟨2, ![32, 32]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S128 .f32) (main_arg8 : FVec F S32x32 .f32) (main_arg9 : FVec F S32x32 .f32) (main_arg10 : FVec F S32 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S32 .f32) (main_arg5 : FVec F S128x128 .f32) (main_arg6 : FVec F S128x128 .f32) (main_arg7 : FVec F S128 .f32) (main_arg8 : FVec F S32x32 .f32) (main_arg9 : FVec F S32x32 .f32) (main_arg10 : FVec F S32 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x256 .f32) (main_arg1 : FVec F S128x256 .f32) (main_arg2 : FVec F S128 .f32) (main_arg3 : FVec F S32x128 .f32) (main_arg4 : FVec F S32 .f32) (main_arg5 : FVec F S128x128 .f32) (main_arg6 : FVec F S128x128 .f32) (main_arg7 : FVec F S128 .f32) (main_arg8 : FVec F S32x32 .f32) (main_arg9 : FVec F S32x32 .f32) (main_arg10 : FVec F S32 .f32) (main_arg11 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_arg9 main_arg10 main_v13 main_v16
-- ==== Kernel.lean ====
abbrev S100000x256 : Shape := ⟨2, ![100000, 256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S128x128 : Shape := ⟨2, ![128, 128]⟩
abbrev S32x32 : Shape := ⟨2, ![32, 32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x128 : Shape := ⟨2, ![256, 128]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S128x32 : Shape := ⟨2, ![128, 32]⟩
abbrev S1x32 : Shape := ⟨2, ![1, 32]⟩
abbrev S100000x32 : Shape := ⟨2, ![100000, 32]⟩
abbrev S5000x32 : Shape := ⟨2, ![5000, 32]⟩
abbrev S1700000x32 : Shape := ⟨2, ![1700000, 32]⟩
abbrev S5000 : Shape := ⟨1, ![5000]⟩
abbrev S5000x1 : Shape := ⟨2, ![5000, 1]⟩

abbrev nBuf : Space → Nat
  | .hbm => 133
  | .vmem => 44
  | .smem => 0
  | _ => 0

abbrev hbmTy0_0 (i : Nat) : BufTy := match i % 128 with
  | 0 => ⟨S100000x256, .f32⟩
  | 1 => ⟨S128x256, .f32⟩
  | 2 => ⟨S128, .f32⟩
  | 3 => ⟨S32x128, .f32⟩
  | 4 => ⟨S32, .f32⟩
  | 5 => ⟨S128x128, .f32⟩
  | 6 => ⟨S128x128, .f32⟩
  | 7 => ⟨S128, .f32⟩
  | 8 => ⟨S32x32, .f32⟩
  | 9 => ⟨S32x32, .f32⟩
  | 10 => ⟨S32, .f32⟩
  | 11 => ⟨S2x1600000, .i32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S256x128, .f32⟩
  | 53 => ⟨S1x128, .f32⟩
  | 54 => ⟨S100000x128, .f32⟩
  | 55 => ⟨S128x128, .f32⟩
  | 56 => ⟨S128x128, .f32⟩
  | 57 => ⟨S128x128, .i32⟩
  | 58 => ⟨S128x128, .i32⟩
  | 59 => ⟨S_, .i32⟩
  | 60 => ⟨S128x128, .i32⟩
  | 61 => ⟨S128x128, .i32⟩
  | 62 => ⟨S128x128, .i1⟩
  | 63 => ⟨S128x128, .f32⟩
  | 64 => ⟨S_, .f32⟩
  | 65 => ⟨S128x128, .f32⟩
  | 66 => ⟨S128x128, .f32⟩
  | 67 => ⟨S128x128, .f32⟩
  | 68 => ⟨S_, .f32⟩
  | 69 => ⟨S128, .f32⟩
  | 70 => ⟨S128x128, .f32⟩
  | 71 => ⟨S1x128, .f32⟩
  | 72 => ⟨S100000x128, .f32⟩
  | 73 => ⟨S1700000x1, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S128x128, .f32⟩
  | 90 => ⟨S1x128, .f32⟩
  | 91 => ⟨S100000x128, .f32⟩
  | 92 => ⟨S128x32, .f32⟩
  | 93 => ⟨S1x32, .f32⟩
  | 94 => ⟨S100000x32, .f32⟩
  | 95 => ⟨S32x32, .f32⟩
  | 96 => ⟨S32x32, .f32⟩
  | 97 => ⟨S32x32, .i32⟩
  | 98 => ⟨S32x32, .i32⟩
  | 99 => ⟨S_, .i32⟩
  | 100 => ⟨S32x32, .i32⟩
  | 101 => ⟨S32x32, .i32⟩
  | 102 => ⟨S32x32, .i1⟩
  | 103 => ⟨S32x32, .f32⟩
  | 104 => ⟨S_, .f32⟩
  | 105 => ⟨S32x32, .f32⟩
  | 106 => ⟨S32x32, .f32⟩
  | 107 => ⟨S32x32, .f32⟩
  | 108 => ⟨S_, .f32⟩
  | 109 => ⟨S32, .f32⟩
  | 110 => ⟨S32x32, .f32⟩
  | 111 => ⟨S1x32, .f32⟩
  | 112 => ⟨S100000x32, .f32⟩
  | 113 => ⟨S1700000x1, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x32, .f32⟩
  | 123 => ⟨S1700000x32, .f32⟩
  | 124 => ⟨S1700000x32, .f32⟩
  | 125 => ⟨S_, .f32⟩
  | 126 => ⟨S100000x32, .f32⟩
  | 127 => ⟨S1700000x1, .i32⟩
  | _ => ⟨S100000x256, .f32⟩

abbrev hbmTy0_1 (i : Nat) : BufTy := match i % 128 with
  | 0 => ⟨S100000x32, .f32⟩
  | 1 => ⟨S32x32, .f32⟩
  | 2 => ⟨S1x32, .f32⟩
  | 3 => ⟨S100000x32, .f32⟩
  | 4 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x32, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S32x32, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S32x32, .f32⟩
  | .local _ .vmem, ⟨37, _⟩ => ⟨S1x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S128x128_S128x128_1_0 : S128x128.Transposes [1, 0] S128x128
  bcast_S_S128x128 : S_.BroadcastsInDim S128x128 (![] : Fin 0 → Fin S128x128.rank)
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S32x128_S128x32_1_0 : S32x128.Transposes [1, 0] S128x32
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  transposes_S32x32_S32x32_1_0 : S32x32.Transposes [1, 0] S32x32
  bcast_S_S32x32 : S_.BroadcastsInDim S32x32 (![] : Fin 0 → Fin S32x32.rank)
  bcast_S_S32 : S_.BroadcastsInDim S32 (![] : Fin 0 → Fin S32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  reduces_S5000x32_S5000 : S5000x32.Reduces [1] S5000
  shapeCasts_S5000_S5000x1 : S5000.ShapeCasts S5000x1
  broadcasts_S5000x1_S5000x32 : S5000x1.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x32.size a ≤ S128x32.size a
  hwx3_1 : ∀ i : grid3.Coords, EltTy.bits .f32 = 32 ∨ (Rect.block (s := S128x32) S128x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x32.size a ≤ S100000x32.size a
  hwx6_1 : ∀ i : grid6.Coords, EltTy.bits .f32 = 32 ∨ (Rect.block (s := S100000x32) S5000x32.size (cc6_transform_1 i) (hinb6_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S128x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v97) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S5000x32.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x256 : Shape := ⟨2, ![100000, 256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S128x128 : Shape := ⟨2, ![128, 128]⟩
abbrev S32x32 : Shape := ⟨2, ![32, 32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x128 : Shape := ⟨2, ![256, 128]⟩
abbrev S100000x128 : Shape := ⟨2, ![100000, 128]⟩
abbrev S1x128 : Shape := ⟨2, ![1, 128]⟩
abbrev S1700000x128 : Shape := ⟨2, ![1700000, 128]⟩
abbrev S128x32 : Shape := ⟨2, ![128, 32]⟩
abbrev S100000x32 : Shape := ⟨2, ![100000, 32]⟩
abbrev S1x32 : Shape := ⟨2, ![1, 32]⟩
abbrev S1700000x32 : Shape := ⟨2, ![1700000, 32]⟩
abbrev S100000x1 : Shape := ⟨2, ![100000, 1]⟩

abbrev nBuf : Space → Nat
  | .hbm => 164
  | .vmem => 0
  | .smem => 0
  | _ => 0

abbrev hbmTy0_0 (i : Nat) : BufTy := match i % 128 with
  | 0 => ⟨S100000x256, .f32⟩
  | 1 => ⟨S128x256, .f32⟩
  | 2 => ⟨S128, .f32⟩
  | 3 => ⟨S32x128, .f32⟩
  | 4 => ⟨S32, .f32⟩
  | 5 => ⟨S128x128, .f32⟩
  | 6 => ⟨S128x128, .f32⟩
  | 7 => ⟨S128, .f32⟩
  | 8 => ⟨S32x32, .f32⟩
  | 9 => ⟨S32x32, .f32⟩
  | 10 => ⟨S32, .f32⟩
  | 11 => ⟨S2x1600000, .i32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S256x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S128x128, .f32⟩
  | 61 => ⟨S128x128, .f32⟩
  | 62 => ⟨S128x128, .i32⟩
  | 63 => ⟨S128x128, .i32⟩
  | 64 => ⟨S_, .i32⟩
  | 65 => ⟨S128x128, .i32⟩
  | 66 => ⟨S128x128, .i32⟩
  | 67 => ⟨S128x128, .i1⟩
  | 68 => ⟨S128x128, .f32⟩
  | 69 => ⟨S_, .f32⟩
  | 70 => ⟨S128x128, .f32⟩
  | 71 => ⟨S128x128, .f32⟩
  | 72 => ⟨S128x128, .f32⟩
  | 73 => ⟨S128x128, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S128x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S128x32, .f32⟩
  | 103 => ⟨S100000x32, .f32⟩
  | 104 => ⟨S1x32, .f32⟩
  | 105 => ⟨S100000x32, .f32⟩
  | 106 => ⟨S100000x32, .f32⟩
  | 107 => ⟨S32x32, .f32⟩
  | 108 => ⟨S32x32, .f32⟩
  | 109 => ⟨S32x32, .i32⟩
  | 110 => ⟨S32x32, .i32⟩
  | 111 => ⟨S_, .i32⟩
  | 112 => ⟨S32x32, .i32⟩
  | 113 => ⟨S32x32, .i32⟩
  | 114 => ⟨S32x32, .i1⟩
  | 115 => ⟨S32x32, .f32⟩
  | 116 => ⟨S_, .f32⟩
  | 117 => ⟨S32x32, .f32⟩
  | 118 => ⟨S32x32, .f32⟩
  | 119 => ⟨S32x32, .f32⟩
  | 120 => ⟨S32x32, .f32⟩
  | 121 => ⟨S100000x32, .f32⟩
  | 122 => ⟨S1700000x1, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x256, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x32, .f32⟩
  | 4 => ⟨S1700000x32, .f32⟩
  | 5 => ⟨S1700000x32, .f32⟩
  | 6 => ⟨S_, .f32⟩
  | 7 => ⟨S100000x32, .f32⟩
  | 8 => ⟨S1700000x1, .i32⟩
  | 9 => ⟨S100000x32, .f32⟩
  | 10 => ⟨S32x32, .f32⟩
  | 11 => ⟨S100000x32, .f32⟩
  | 12 => ⟨S100000x32, .f32⟩
  | 13 => ⟨S1x32, .f32⟩
  | 14 => ⟨S100000x32, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S_, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x32, .f32⟩
  | 28 => ⟨S100000x32, .f32⟩
  | 29 => ⟨S100000x32, .f32⟩
  | 30 => ⟨S_, .f32⟩
  | 31 => ⟨S100000, .f32⟩
  | 32 => ⟨S100000x1, .f32⟩
  | 33 => ⟨S100000x1, .f32⟩
  | 34 => ⟨S100000x32, .f32⟩
  | 35 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_14 : Ref sig .tc := ⟨.hbm, 123, rfl⟩
abbrev main_v91 : Ref sig .tc := ⟨.hbm, 124, rfl⟩
abbrev main_v92 : Ref sig .tc := ⟨.hbm, 125, rfl⟩
abbrev main_c_15 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call2_cst : Ref sig .tc := ⟨.hbm, 149, rfl⟩
abbrev main_call2_v0 : Ref sig .tc := ⟨.hbm, 150, rfl⟩
abbrev main_call2_cst_0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_cst_1 : Ref sig .tc := ⟨.hbm, 158, rfl⟩
abbrev main_call2_v7 : Ref sig .tc := ⟨.hbm, 159, rfl⟩
abbrev main_call2_v8 : Ref sig .tc := ⟨.hbm, 160, rfl⟩
abbrev main_call2_v9 : Ref sig .tc := ⟨.hbm, 161, rfl⟩
abbrev main_call2_v10 : Ref sig .tc := ⟨.hbm, 162, rfl⟩
abbrev main_v113 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S128x128 : S_.BroadcastsInDim S128x128 (![] : Fin 0 → Fin S128x128.rank)
  bcast_S1700000x1_S1700000x128_0_1 : S1700000x1.BroadcastsInDim S1700000x128 (![0, 1] : Fin 2 → Fin S1700000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S32x32_S32x32_1_0 : S32x32.Transposes [1, 0] S32x32
  bcast_S_S32x32 : S_.BroadcastsInDim S32x32 (![] : Fin 0 → Fin S32x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibDenseRows.lean ====
/-
  A dense layer read one row at a time, at the ideal values.

  A matrix of R rows is R rows: `row X p` is row p of X as a function of the column, `mat W` a weight matrix as a
  function of (input, output), `vec b` a bias vector as a function of the output. One row through a layer:
    mm h W    = h · W                 (the plain matrix product's row)
    lin h W b = h · W + b             (affine)
    relu h    = max h 0               (the maximum with the float zero, entry by entry)
  and the facts here say that the two programs' spellings of a layer compute exactly that, row by row, in the
  extended reals, with no finiteness asked:
    * a kernel's layer — `tpu.matmul` into the zero accumulator, the weights and a 1×N bias row re-cast to their own
      shapes, the row copied to every row, an addition; then a maximum with a splat zero and a change of float format;
    * a host's layer — `dot_general`, the length-N bias broadcast to 1×N and then to R×N, an addition; then a
      maximum with a rank-0 zero broadcast to R×N.
  The dimension record of each product may be any record equal to the plain one (for a printed record, `rfl`).
-/
import Idealize.ShloMosaic.PureOps.Ideal.Laws
import Idealize.ShloMosaic.Lib.Pipeline.Value
import Idealize.ShloMosaic.Lib.ValueIdx
import proofs.«138381_j4320737100478_1_alg».proof.Proof.LibPlainDot
import proofs.«138381_j4320737100478_1_alg».proof.Proof.LibRowVector
import proofs.«138381_j4320737100478_1_alg».proof.Proof.LibRowInDim

noncomputable section

open scoped BigOperators

namespace Cert.DenseRows

open Idealize.ShloMosaic Idealize.ShloMosaic.ValueIdx

/-! ## Rows, and one row through a layer -/

/-- Row p of a matrix, as a function of the column. -/
def row {α : Type} {R K : Nat} (X : (⟨2, ![R, K]⟩ : Shape).Idx → α) (p : Fin R) : Fin K → α := fun k => X (ix2 p k)

/-- A matrix as a function of (row, column). -/
def mat {α : Type} {K N : Nat} (W : (⟨2, ![K, N]⟩ : Shape).Idx → α) : Fin K → Fin N → α := fun k c => W (ix2 k c)

/-- A vector as a function of its coordinate. -/
def vec {α : Type} {N : Nat} (b : (⟨1, ![N]⟩ : Shape).Idx → α) : Fin N → α := fun c => b (ix1 c)

/-- One row through a matrix: h · W. -/
def mm {K N : Nat} (h : Fin K → EReal) (W : Fin K → Fin N → EReal) : Fin N → EReal :=
  fun c => ∑ k : Fin K, h k * W k c

/-- One row through an affine layer: h · W + b. -/
def lin {K N : Nat} (h : Fin K → EReal) (W : Fin K → Fin N → EReal) (b : Fin N → EReal) : Fin N → EReal :=
  fun c => (∑ k : Fin K, h k * W k c) + b c

/-- The maximum with the float zero, entry by entry. -/
def relu {N : Nat} (h : Fin N → EReal) : Fin N → EReal :=
  fun c => max (h c) (Ideal.ofBits .f32 0x00000000#32)

variable {R K N : Nat} {φ₁ φ₂ : FTy}

/-! ## A kernel's spelling -/

/-- A `tpu.matmul` into the zero accumulator, the right operand re-cast to its own shape: row p is (row p of X) · W. -/
theorem row_matmul (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (hW : (⟨2, ![K, N]⟩ : Shape).ShapeCasts ⟨2, ![K, N]⟩) (p : Fin R) :
    row (matmul D prec X (shapeCast ⟨2, ![K, N]⟩ W hW) (constant (F := Ideal) ⟨2, ![R, N]⟩ .f32 0x00000000#32)) p
      = mm (row X p) (mat W) := by
  funext c
  rw [shapeCast_self]
  exact PlainDot.matmul_zero_apply D hD prec X W p c

/-- The same with a 1×N bias row added to every row: row p is (row p of X) · W + b. -/
theorem row_matmul_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![R, N]⟩) (p : Fin R) :
    row (addf (matmul D prec X (shapeCast ⟨2, ![K, N]⟩ W hW) (constant (F := Ideal) ⟨2, ![R, N]⟩ .f32 0x00000000#32))
        (broadcastTo ⟨2, ![R, N]⟩ (shapeCast ⟨2, ![1, N]⟩ b hb) hbc)) p
      = lin (row X p) (mat W) (row b 0) := by
  funext c
  show matmul D prec X (shapeCast ⟨2, ![K, N]⟩ W hW) (constant (F := Ideal) ⟨2, ![R, N]⟩ .f32 0x00000000#32) (ix2 p c)
      + broadcastTo ⟨2, ![R, N]⟩ (shapeCast ⟨2, ![1, N]⟩ b hb) hbc (ix2 p c) = _
  rw [shapeCast_self, shapeCast_self, RowVector.broadcastTo_row hN]
  exact congrArg (· + b (ix2 0 c)) (PlainDot.matmul_zero_apply D hD prec X W p c)

/-- A maximum with the splat zero, then a change of float format: row p is relu of row p. -/
theorem row_relu_trunc {ψ : FTy} (Y : FVec Ideal ⟨2, ![R, N]⟩ .f32) (h : ψ.bits < FTy.f32.bits) (p : Fin R) :
    row (truncf ψ (maximumf Y (broadcast ⟨2, ![R, N]⟩ (Scalar.ofBits (F := Ideal) .f32 0x00000000#32))) h) p
      = relu (row Y p) := rfl

/-- A change of float format keeps every row. -/
theorem row_trunc {ψ : FTy} (Y : FVec Ideal ⟨2, ![R, N]⟩ .f32) (h : ψ.bits < FTy.f32.bits) (p : Fin R) :
    row (truncf ψ Y h) p = row Y p := rfl

/-! ## A host's spelling -/

/-- A `dot_general` with the bias, a length-N vector, broadcast to 1×N and then to every row, added:
    row r is (row r of X) · W + b. -/
theorem row_dot_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) :
    row (addf (Host.dotGeneral D prec X W)
        (broadcastInDim ⟨2, ![R, N]⟩ ![0, 1] h2 (broadcastInDim ⟨2, ![1, N]⟩ ![1] h1 b))) r
      = lin (row X r) (mat W) (vec b) := by
  funext c
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD]
  refine congrArg (_ + ·) ?_
  exact broadcastInDim_apply _ h1 b (ix2 0 c) (ix1 c) (fun a => match a with
    | ⟨0, _⟩ => by
      show c.val = if N = 1 then 0 else c.val
      rw [if_neg hN])

/-- A `dot_general` alone: row r is (row r of X) · W. -/
theorem row_dot (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂) (r : Fin R) :
    row (Host.dotGeneral D prec X W) r = mm (row X r) (mat W) :=
  funext fun c => PlainDot.dotGeneral_apply D hD prec .single X W r c

/-- A maximum with the rank-0 zero broadcast to every entry: row r is relu of row r. -/
theorem row_relu_host (Y : FVec Ideal ⟨2, ![R, N]⟩ .f32)
    (h0 : (⟨0, ![]⟩ : Shape).BroadcastsInDim ⟨2, ![R, N]⟩ (![] : Fin 0 → Fin 2)) (r : Fin R) :
    row (maximumf Y (broadcastInDim ⟨2, ![R, N]⟩ ![] h0 (constant (F := Ideal) ⟨0, ![]⟩ .f32 0x00000000#32))) r
      = relu (row Y r) := by
  funext c
  show max (Y (ix2 r c)) (broadcastInDim ⟨2, ![R, N]⟩ ![] h0 (constant (F := Ideal) ⟨0, ![]⟩ .f32 0x00000000#32) (ix2 r c)) = _
  rw [broadcastInDim_apply _ h0 _ (ix2 r c) ix0 (fun a => a.elim0)]
  rfl

end Cert.DenseRows

end
-- ==== Proof.LibSage.lean ====
/-
  A graph layer with mean aggregation, one node at a time, in the extended reals.

  For a node with summed neighbour features s, own features x and neighbour count d (taken at least one), the layer is
    relu ((s / d) · Wl + b + x · Wr).
  A program may instead carry the reciprocal 1 / d and add the bias last:
    relu (((s · (1 / d)) · Wl + x · Wr) + b).
  For d ≠ 0 the two are the same function: a quotient by d is the product with the inverse of d, and a sum may be
  regrouped (no finiteness is asked: the extended reals are a commutative monoid under +).

  After the layers a node's row goes through three affine maps with relu between them and a log-softmax
    a ↦ (a − M) − log (Σ exp (a − M)),   M the largest entry of a.
-/
import proofs.«138381_j4320737100478_1_alg».proof.Proof.LibDenseRows
import Idealize.ShloMosaic.Lib.IdealHost

noncomputable section

open scoped BigOperators

namespace Cert.Sage

open Idealize.ShloMosaic Idealize.ShloMosaic.ValueIdx Cert.DenseRows

variable {K N : Nat}

/-- The layer on one node, dividing the summed features by the count. -/
def sageRow (s x : Fin K → EReal) (d : EReal) (Wl Wr : Fin K → Fin N → EReal) (b : Fin N → EReal) : Fin N → EReal :=
  relu (fun c => lin (fun k => Ideal.div (s k) d) Wl b c + mm x Wr c)

/-- The layer on one node, multiplying the summed features by a given reciprocal and adding the bias last. -/
def sageRowK (s x : Fin K → EReal) (dinv : EReal) (Wl Wr : Fin K → Fin N → EReal) (b : Fin N → EReal) : Fin N → EReal :=
  relu (fun c => (mm (fun k => s k * dinv) Wl c + mm x Wr c) + b c)

/-- A product with the reciprocal of a nonzero d is the quotient by d, at the infinities too. -/
theorem mul_recip (s d : EReal) (hd : d ≠ 0) : s * Ideal.div 1 d = Ideal.div s d := by
  rw [Ideal.div, if_neg hd, Ideal.div, if_neg hd, one_mul]

/-- With the reciprocal of a nonzero count the two spellings of the layer agree. -/
theorem sageRowK_eq (s x : Fin K → EReal) (d : EReal) (hd : d ≠ 0) (Wl Wr : Fin K → Fin N → EReal) (b : Fin N → EReal) :
    sageRowK s x (Ideal.div 1 d) Wl Wr b = sageRow s x d Wl Wr b := by
  funext c
  unfold sageRowK sageRow relu lin mm
  simp only [mul_recip _ _ hd]
  rw [add_right_comm]

/-- A count taken at least the float one is not zero. -/
theorem max_one_ne_zero (d : EReal) : max d (Ideal.ofBits .f32 0x3F800000#32) ≠ 0 := by
  rw [Ideal.ofBits_one_f32]
  exact ne_of_gt (lt_of_lt_of_le zero_lt_one (le_max_right d 1))

/-- The largest entry of a row (the fold of max from the float −∞). -/
def rowMax (a : Fin N → EReal) : EReal :=
  (Finset.univ : Finset (Fin N)).fold max (Ideal.ofBits .f32 0xFF800000#32) a

/-- The log-softmax of one row. -/
def lsmRow (a : Fin N → EReal) : Fin N → EReal :=
  fun c => (a c - rowMax a) - Ideal.log (∑ j : Fin N, Ideal.exp (a j - rowMax a))

/-- The head on one node: three affine maps, relu after the first two, then the log-softmax. -/
def headRow {K1 K2 K3 : Nat} (h : Fin K → EReal) (W1 : Fin K → Fin K1 → EReal) (b1 : Fin K1 → EReal)
    (W2 : Fin K1 → Fin K2 → EReal) (b2 : Fin K2 → EReal) (W3 : Fin K2 → Fin K3 → EReal) (b3 : Fin K3 → EReal) :
    Fin K3 → EReal :=
  lsmRow (lin (relu (lin (relu (lin h W1 b1)) W2 b2)) W3 b3)

/-- An array of R rows given row by row. -/
def ofRows {R : Nat} (f : Fin R → Fin N → EReal) : (⟨2, ![R, N]⟩ : Shape).Idx → EReal :=
  fun i => f (i 0) (i 1)

theorem ofRows_apply {R : Nat} (f : Fin R → Fin N → EReal) (p : Fin R) (c : Fin N) : ofRows f (ix2 p c) = f p c := rfl

theorem row_ofRows {R : Nat} (f : Fin R → Fin N → EReal) (p : Fin R) : row (ofRows f) p = f p := rfl

/-- An array is its rows. -/
theorem eq_ofRows {R : Nat} (X : (⟨2, ![R, N]⟩ : Shape).Idx → EReal) : X = ofRows (fun p => row X p) := by
  funext i
  exact congrArg X (eq_ix2 i)

end Cert.Sage

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibSageRows.lean ====
/-
  A kernel body read one row at a time, in the extended reals.

  The bodies here work on a block of R rows at once, but every operation in them acts inside a row: a matrix
  product's row is the row times the matrix, a bias row is copied to every row, a per-row scalar is copied along its
  row, a maximum or a sum over the lanes of a row stays in the row. So the block's row p is a function of the operand
  rows p alone, and that function is LibSage.lean's: the graph layer (with a reciprocal count), the affine maps with relu,
  and the log-softmax.
-/
import proofs.«138381_j4320737100478_1_alg».proof.Proof.LibSage
import proofs.«138381_j4320737100478_1_alg».proof.Proof.LibRowOps
import proofs.«138381_j4320737100478_1_alg».proof.Proof.LibKeepdims

noncomputable section

open scoped BigOperators

namespace Cert.RowCalc

open Idealize.ShloMosaic Idealize.ShloMosaic.ValueIdx Cert.DenseRows Cert.Sage

variable {R K N : Nat} {φ₁ φ₂ : FTy}

/-- A matrix product into the zero accumulator plus any addend: row p is (row p) · W plus the addend's row. -/
theorem row_matmul_add (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (B : FVec Ideal ⟨2, ![R, N]⟩ .f32) (p : Fin R) :
    row (addf (matmul D prec X W (constant (F := Ideal) ⟨2, ![R, N]⟩ .f32 0x00000000#32)) B) p
      = fun c => mm (row X p) (mat W) c + B (ix2 p c) := by
  funext c
  exact congrArg (· + B (ix2 p c)) (PlainDot.matmul_zero_apply D hD prec X W p c)

/-- The same with a 1×N bias row copied to every row: an affine map of the row. -/
theorem row_matmul_biasrow (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32) (hb : (⟨2, ![1, N]⟩ : Shape).ShapeCasts ⟨2, ![1, N]⟩)
    (hbc : (⟨2, ![1, N]⟩ : Shape).Broadcasts ⟨2, ![R, N]⟩) (p : Fin R) :
    row (addf (matmul D prec X W (constant (F := Ideal) ⟨2, ![R, N]⟩ .f32 0x00000000#32))
        (broadcastTo ⟨2, ![R, N]⟩ (shapeCast ⟨2, ![1, N]⟩ b hb) hbc)) p
      = lin (row X p) (mat W) (row b 0) := by
  rw [row_matmul_add D hD]
  funext c
  show _ + broadcastTo ⟨2, ![R, N]⟩ (shapeCast ⟨2, ![1, N]⟩ b hb) hbc (ix2 p c) = _
  rw [shapeCast_self, RowVector.broadcastTo_row hN]
  rfl

/-- A maximum with the splat zero: relu of the row. -/
theorem row_relu (Y : FVec Ideal ⟨2, ![R, N]⟩ .f32) (p : Fin R) :
    row (maximumf Y (broadcast ⟨2, ![R, N]⟩ (Scalar.ofBits (F := Ideal) .f32 0x00000000#32))) p = relu (row Y p) := rfl

/-- A change of float format keeps every row. -/
theorem row_truncf {ψ : FTy} (Y : FVec Ideal ⟨2, ![R, N]⟩ .f32) (h : ψ.bits < FTy.f32.bits) (p : Fin R) :
    row (truncf ψ Y h) p = row Y p := rfl

/-- A change of float format keeps a matrix. -/
theorem mat_truncf {ψ : FTy} (W : FVec Ideal ⟨2, ![K, N]⟩ .f32) (h : ψ.bits < FTy.f32.bits) :
    mat (truncf ψ W h) = mat W := rfl

/-- The graph layer's body: summed features scaled by a per-row factor, two matrix products, a bias row, relu. -/
theorem row_sage (D : DotDims ⟨2, ![R, K]⟩ ⟨2, ![K, N]⟩ ⟨2, ![R, N]⟩) (hD : D = DotDims.plain R K N) (hN : N ≠ 1)
    (s x : FVec Ideal ⟨2, ![R, K]⟩ .f32) (d : FVec Ideal ⟨2, ![R, 1]⟩ .f32)
    (Wl Wr : FVec Ideal ⟨2, ![K, N]⟩ .f32) (b : FVec Ideal ⟨2, ![1, N]⟩ .f32)
    (hd : (⟨2, ![R, 1]⟩ : Shape).ShapeCasts ⟨2, ![R, 1]⟩) (hdb : (⟨2, ![R, 1]⟩ : Shape).Broadcasts ⟨2, ![R, K]⟩)
    (hb : (⟨2, ![1, N]⟩ : Shape).ShapeCasts ⟨2, ![1, N]⟩) (hbc : (⟨2, ![1, N]⟩ : Shape).Broadcasts ⟨2, ![R, N]⟩)
    (ht : FTy.bf16.bits < FTy.f32.bits) (p : Fin R) :
    row (maximumf (addf (addf
          (matmul D none (truncf .bf16 (mulf s (broadcastTo ⟨2, ![R, K]⟩ (shapeCast ⟨2, ![R, 1]⟩ d hd) hdb)) ht)
            (truncf .bf16 Wl ht) (constant (F := Ideal) ⟨2, ![R, N]⟩ .f32 0x00000000#32))
          (matmul D none (truncf .bf16 x ht) (truncf .bf16 Wr ht) (constant (F := Ideal) ⟨2, ![R, N]⟩ .f32 0x00000000#32)))
          (broadcastTo ⟨2, ![R, N]⟩ (shapeCast ⟨2, ![1, N]⟩ b hb) hbc))
        (broadcast ⟨2, ![R, N]⟩ (Scalar.ofBits (F := Ideal) .f32 0x00000000#32))) p
      = sageRowK (row s p) (row x p) (d (ix2 p 0)) (mat Wl) (mat Wr) (row b 0) := by
  funext c
  show max ((FloatOps.matmul D none (truncf .bf16 (mulf s (broadcastTo ⟨2, ![R, K]⟩ (shapeCast ⟨2, ![R, 1]⟩ d hd) hdb)) ht)
            (truncf .bf16 Wl ht) (constant (F := Ideal) ⟨2, ![R, N]⟩ .f32 0x00000000#32) (ix2 p c)
          + FloatOps.matmul D none (truncf .bf16 x ht) (truncf .bf16 Wr ht)
            (constant (F := Ideal) ⟨2, ![R, N]⟩ .f32 0x00000000#32) (ix2 p c))
        + broadcastTo ⟨2, ![R, N]⟩ (shapeCast ⟨2, ![1, N]⟩ b hb) hbc (ix2 p c)) (Ideal.ofBits .f32 0x00000000#32) = _
  rw [PlainDot.matmul_zero_apply D hD, PlainDot.matmul_zero_apply D hD]
  simp only [shapeCast_self]
  rw [RowVector.broadcastTo_row hN]
  have e : ∀ k : Fin K, truncf .bf16 (mulf s (broadcastTo ⟨2, ![R, K]⟩ d hdb)) ht (ix2 p k)
      = s (ix2 p k) * d (ix2 p 0) := fun k => by
    show s (ix2 p k) * broadcastTo ⟨2, ![R, K]⟩ d hdb (ix2 p k) = _
    rw [RowOps.broadcastTo_a1_ab_apply]
  simp only [e]
  rfl

/-- The log-softmax's body: the row maximum kept as a column and subtracted, then the log of the row sum of
    exponentials kept as a column and subtracted. -/
theorem row_lsm (a : FVec Ideal ⟨2, ![R, N]⟩ .f32) (hred : (⟨2, ![R, N]⟩ : Shape).Reduces [1] (⟨1, ![R]⟩ : Shape))
    (hφ : FKind.Formats .f32) (hm : (0xFF800000#32 : BitVec 32) = FKind.maximumf.neutral .f32 hφ)
    (hs : (0x00000000#32 : BitVec 32) = FKind.add.neutral .f32 hφ)
    (hc : (⟨1, ![R]⟩ : Shape).ShapeCasts ⟨2, ![R, 1]⟩) (hbc : (⟨2, ![R, 1]⟩ : Shape).Broadcasts ⟨2, ![R, N]⟩) (p : Fin R) :
    row (subf (subf a (broadcastTo ⟨2, ![R, N]⟩ (shapeCast ⟨2, ![R, 1]⟩
            (multiReduction .maximumf [1] ⟨1, ![R]⟩ a 0xFF800000#32 hred hφ hm) hc) hbc))
          (broadcastTo ⟨2, ![R, N]⟩ (log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc)) hbc)) p
      = lsmRow (row a p) := by
  have eM : ∀ k : Fin N, broadcastTo ⟨2, ![R, N]⟩ (shapeCast ⟨2, ![R, 1]⟩
        (multiReduction .maximumf [1] ⟨1, ![R]⟩ a 0xFF800000#32 hred hφ hm) hc) hbc (ix2 p k) = rowMax (row a p) := fun k => by
    rw [Keepdims.column_apply, RowOps.rowMax_apply]
    rfl
  funext c
  show (a (ix2 p c) - broadcastTo ⟨2, ![R, N]⟩ (shapeCast ⟨2, ![R, 1]⟩
        (multiReduction .maximumf [1] ⟨1, ![R]⟩ a 0xFF800000#32 hred hφ hm) hc) hbc (ix2 p c))
      - broadcastTo ⟨2, ![R, N]⟩ (log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc)) hbc (ix2 p c) = _
  rw [eM c, RowOps.broadcastTo_a1_ab_apply]
  show (a (ix2 p c) - rowMax (row a p)) - Ideal.log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc (ix2 p 0)) = _
  rw [RowOps.shapeCast_a_a1_apply, RowOps.rowSum_apply]
  have eS : ∀ k : Fin N, exp (subf a (broadcastTo ⟨2, ![R, N]⟩ (shapeCast ⟨2, ![R, 1]⟩
        (multiReduction .maximumf [1] ⟨1, ![R]⟩ a 0xFF800000#32 hred hφ hm) hc) hbc)) (ix2 p k)
      = Ideal.exp (row a p k - rowMax (row a p)) := fun k => by
    show Ideal.exp (a (ix2 p k) - _) = _
    rw [eM k]
    rfl
  simp only [eS]
  rfl

end Cert.RowCalc

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.LibSageHostRows.lean ====
/-
  The host program's spelling of the graph layer and of the log-softmax, read one row at a time.

  The host works on all R rows at once with whole-array operations: a quotient by the per-node count broadcast along
  the lanes, `dot_general`, a bias broadcast to every row, a maximum with a zero broadcast; for the log-softmax a
  reduction over the lanes with a maximum body from −∞ (and once more a maximum with −∞), kept as a column, and a sum
  of exponentials kept as a column. Each acts inside a row, so row p of the result is LibSage.lean's function of the
  operand rows p.
-/
import proofs.«138381_j4320737100478_1_alg».proof.Proof.LibSage
import proofs.«138381_j4320737100478_1_alg».proof.Proof.LibColumnInDim
import proofs.«138381_j4320737100478_1_alg».proof.Proof.LibKeepdims
import proofs.«138381_j4320737100478_1_alg».proof.Proof.LibHostRowSum
import Idealize.ShloMosaic.PureOps.Reduce

noncomputable section

open scoped BigOperators

namespace Cert.HostRows

open Idealize.ShloMosaic Idealize.ShloMosaic.ValueIdx Cert.DenseRows Cert.Sage

variable {R K N : Nat}

/-- The graph layer in the host's spelling: row p is the layer of the operand rows p and node p's count. -/
theorem row_sage_host (D : DotDims ⟨2, ![R, K]⟩ ⟨2, ![K, N]⟩ ⟨2, ![R, N]⟩) (hD : D = DotDims.plain R K N) (hN : N ≠ 1)
    (S X : FVec Ideal ⟨2, ![R, K]⟩ .f32) (dm : FVec Ideal ⟨1, ![R]⟩ .f32) (Wl Wr : FVec Ideal ⟨2, ![K, N]⟩ .f32)
    (b : FVec Ideal ⟨1, ![N]⟩ .f32)
    (h0 : (⟨1, ![R]⟩ : Shape).BroadcastsInDim ⟨2, ![R, 1]⟩ (![0] : Fin 1 → Fin 2))
    (h1 : (⟨2, ![R, 1]⟩ : Shape).BroadcastsInDim ⟨2, ![R, K]⟩ (![0, 1] : Fin 2 → Fin 2))
    (h2 : (⟨1, ![N]⟩ : Shape).BroadcastsInDim ⟨2, ![1, N]⟩ (![1] : Fin 1 → Fin 2))
    (h3 : (⟨2, ![1, N]⟩ : Shape).BroadcastsInDim ⟨2, ![R, N]⟩ (![0, 1] : Fin 2 → Fin 2))
    (h4 : (⟨0, ![]⟩ : Shape).BroadcastsInDim ⟨2, ![R, N]⟩ (![] : Fin 0 → Fin 2)) (p : Fin R) :
    row (maximumf (addf (addf
          (Host.dotGeneral D none (Host.divf S (broadcastInDim ⟨2, ![R, K]⟩ ![0, 1] h1 (broadcastInDim ⟨2, ![R, 1]⟩ ![0] h0 dm))) Wl)
          (broadcastInDim ⟨2, ![R, N]⟩ ![0, 1] h3 (broadcastInDim ⟨2, ![1, N]⟩ ![1] h2 b)))
          (Host.dotGeneral D none X Wr))
        (broadcastInDim ⟨2, ![R, N]⟩ ![] h4 (constant (F := Ideal) ⟨0, ![]⟩ .f32 0x00000000#32))) p
      = sageRow (row S p) (row X p) (dm (ix1 p)) (mat Wl) (mat Wr) (vec b) := by
  rw [row_relu_host]
  unfold sageRow
  refine congrArg relu ?_
  funext c
  have e1 := congrFun (row_dot_bias D hD hN none
    (Host.divf S (broadcastInDim ⟨2, ![R, K]⟩ ![0, 1] h1 (broadcastInDim ⟨2, ![R, 1]⟩ ![0] h0 dm))) Wl b h2 h3 p) c
  have e2 := congrFun (row_dot D hD none X Wr p) c
  have e3 : row (Host.divf S (broadcastInDim ⟨2, ![R, K]⟩ ![0, 1] h1 (broadcastInDim ⟨2, ![R, 1]⟩ ![0] h0 dm))) p
      = fun k => Ideal.div (row S p k) (dm (ix1 p)) := by
    funext k
    show Ideal.div (S (ix2 p k)) (broadcastInDim ⟨2, ![R, K]⟩ ![0, 1] h1 (broadcastInDim ⟨2, ![R, 1]⟩ ![0] h0 dm) (ix2 p k)) = _
    rw [ColumnInDim.broadcastInDim_lanes, ColumnInDim.broadcastInDim_column]
    rfl
  rw [e3] at e1
  exact (congrArg₂ (· + ·) e1 e2)

/-- An affine map then relu in the host's spelling: row p. -/
theorem row_affine_relu_host (D : DotDims ⟨2, ![R, K]⟩ ⟨2, ![K, N]⟩ ⟨2, ![R, N]⟩) (hD : D = DotDims.plain R K N) (hN : N ≠ 1)
    (X : FVec Ideal ⟨2, ![R, K]⟩ .f32) (W : FVec Ideal ⟨2, ![K, N]⟩ .f32) (b : FVec Ideal ⟨1, ![N]⟩ .f32)
    (h2 : (⟨1, ![N]⟩ : Shape).BroadcastsInDim ⟨2, ![1, N]⟩ (![1] : Fin 1 → Fin 2))
    (h3 : (⟨2, ![1, N]⟩ : Shape).BroadcastsInDim ⟨2, ![R, N]⟩ (![0, 1] : Fin 2 → Fin 2))
    (h4 : (⟨0, ![]⟩ : Shape).BroadcastsInDim ⟨2, ![R, N]⟩ (![] : Fin 0 → Fin 2)) (p : Fin R) :
    row (maximumf (addf (Host.dotGeneral D none X W)
          (broadcastInDim ⟨2, ![R, N]⟩ ![0, 1] h3 (broadcastInDim ⟨2, ![1, N]⟩ ![1] h2 b)))
        (broadcastInDim ⟨2, ![R, N]⟩ ![] h4 (constant (F := Ideal) ⟨0, ![]⟩ .f32 0x00000000#32))) p
      = relu (lin (row X p) (mat W) (vec b)) := by
  rw [row_relu_host, row_dot_bias D hD hN]

/-- The host's maximum over the lanes from −∞, at row p: the row's largest entry. -/
theorem hostRowMax_apply (a : FVec Ideal ⟨2, ![R, N]⟩ .f32) (h' : (⟨2, ![R, N]⟩ : Shape).ReducesTo [1] (⟨1, ![R]⟩ : Shape))
    (hu : 0 < (⟨0, ![]⟩ : Shape).numel) (p : Fin R) :
    Host.reduce FloatOps.maximumf a (constant (F := Ideal) ⟨0, ![]⟩ .f32 0xFF800000#32) h' hu (ix1 p) = rowMax (row a p) := by
  rw [Host.reduce_eq_fold_single FloatOps.maximumf a _ h' (HostRowSum.reduces_of_reducesTo h') hu]
  have e : (a ∘ (HostRowSum.reduces_of_reducesTo h').lift (ix1 p)) = fun k : Fin N => a (ix2 p k) := by
    funext k
    exact congrArg a (HostRowSum.lift_row (HostRowSum.reduces_of_reducesTo h') p k)
  rw [e]
  rfl

/-- The log-softmax in the host's spelling: row p is the log-softmax of row p. -/
theorem row_lsm_host (a : FVec Ideal ⟨2, ![R, N]⟩ .f32) (h' : (⟨2, ![R, N]⟩ : Shape).ReducesTo [1] (⟨1, ![R]⟩ : Shape))
    (hu : 0 < (⟨0, ![]⟩ : Shape).numel)
    (hb : (⟨0, ![]⟩ : Shape).BroadcastsInDim ⟨1, ![R]⟩ (![] : Fin 0 → Fin 1))
    (h0 : (⟨1, ![R]⟩ : Shape).BroadcastsInDim ⟨2, ![R, 1]⟩ (![0] : Fin 1 → Fin 2))
    (h1 : (⟨2, ![R, 1]⟩ : Shape).BroadcastsInDim ⟨2, ![R, N]⟩ (![0, 1] : Fin 2 → Fin 2)) (p : Fin R) :
    row (subf (subf a (broadcastInDim ⟨2, ![R, N]⟩ ![0, 1] h1 (broadcastInDim ⟨2, ![R, 1]⟩ ![0] h0
            (maximumf (broadcastInDim ⟨1, ![R]⟩ ![] hb (constant (F := Ideal) ⟨0, ![]⟩ .f32 0xFF800000#32))
              (Host.reduce FloatOps.maximumf a (constant (F := Ideal) ⟨0, ![]⟩ .f32 0xFF800000#32) h' hu)))))
          (broadcastInDim ⟨2, ![R, N]⟩ ![0, 1] h1 (Host.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu))))) p
      = lsmRow (row a p) := by
  have eM : ∀ k : Fin N, broadcastInDim ⟨2, ![R, N]⟩ ![0, 1] h1 (broadcastInDim ⟨2, ![R, 1]⟩ ![0] h0
        (maximumf (broadcastInDim ⟨1, ![R]⟩ ![] hb (constant (F := Ideal) ⟨0, ![]⟩ .f32 0xFF800000#32))
          (Host.reduce FloatOps.maximumf a (constant (F := Ideal) ⟨0, ![]⟩ .f32 0xFF800000#32) h' hu))) (ix2 p k)
      = rowMax (row a p) := fun k => by
    rw [ColumnInDim.broadcastInDim_lanes, ColumnInDim.broadcastInDim_column]
    show max (broadcastInDim ⟨1, ![R]⟩ ![] hb (constant (F := Ideal) ⟨0, ![]⟩ .f32 0xFF800000#32) (ix1 p))
      (Host.reduce FloatOps.maximumf a (constant (F := Ideal) ⟨0, ![]⟩ .f32 0xFF800000#32) h' hu (ix1 p)) = _
    rw [hostRowMax_apply, broadcastInDim_apply _ hb _ (ix1 p) ix0 (fun ax => ax.elim0)]
    exact Keepdims.max_fold_max_self _ _ _
  funext c
  show (a (ix2 p c) - broadcastInDim ⟨2, ![R, N]⟩ ![0, 1] h1 (broadcastInDim ⟨2, ![R, 1]⟩ ![0] h0
        (maximumf (broadcastInDim ⟨1, ![R]⟩ ![] hb (constant (F := Ideal) ⟨0, ![]⟩ .f32 0xFF800000#32))
          (Host.reduce FloatOps.maximumf a (constant (F := Ideal) ⟨0, ![]⟩ .f32 0xFF800000#32) h' hu))) (ix2 p c))
      - broadcastInDim ⟨2, ![R, N]⟩ ![0, 1] h1 (Host.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu))) (ix2 p c) = _
  rw [eM c, ColumnInDim.broadcastInDim_lanes]
  show (a (ix2 p c) - rowMax (row a p)) - Ideal.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu) (ix2 p 0)) = _
  rw [ColumnInDim.broadcastInDim_column]
  show (a (ix2 p c) - rowMax (row a p)) - Ideal.log (Ideal.hostReduceAdd h'
      (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
      (Ideal.ofBits .f32 0x00000000#32) (ix1 p)) = _
  rw [HostRowSum.hostRowSum_zero_apply]
  have eS : ∀ k : Fin N, Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))) (ix2 p k)
      = Ideal.exp (row a p k - rowMax (row a p)) := fun k => by
    show Ideal.exp (a (ix2 p k) - _) = _
    rw [eM k]
    rfl
  simp only [eS]
  rfl

end Cert.HostRows

end
-- ==== Proof.Net.lean ====
/-
  The layers of the network as whole arrays over the extended reals, entry by entry, for any number of rows.

  For a matrix X of R rows, a weight matrix W, a 1×N row b, a second matrix G of the shape of X and a square matrix A:

      affine X W b (i, j)     = (∑ c, X(i, c) · W(c, j)) + b(0, j)
      affineRelu X W b (i, j) = max (affine X W b (i, j)) 0
      product X W (i, j)      = ∑ c, X(i, c) · W(c, j)
      combine X G A b (i, j)  = X(i, j) + ε · tanh (((∑ c, X(i, c) · A(c, j)) + G(i, j)) + b(0, j))
      logSoftmax X (i, j)     = (X(i, j) − M_i) − log (∑ l, exp (X(i, l) − M_i)),   M_i the largest entry of row i

  with ε the float nearest one tenth and 0 the float zero, both kept as their patterns. Every entry of a result's
  row i reads row i of X (and of G) only: that is why an array computed block of rows by block of rows is the
  layer of the whole array.
-/
import Idealize.ShloMosaic.PureOps.Ideal.Laws
import Idealize.ShloMosaic.Lib.Pipeline.Value
import Idealize.ShloMosaic.Lib.ValueIdx
import proofs.«138381_j4320737100478_1_alg».proof.Proof.LibPlainDot
import proofs.«138381_j4320737100478_1_alg».proof.Proof.LibRowVector
import proofs.«138381_j4320737100478_1_alg».proof.Proof.LibRowInDim
import proofs.«138381_j4320737100478_1_alg».proof.Proof.LibRowOfVector
import proofs.«138381_j4320737100478_1_alg».proof.Proof.LibSageRows
import proofs.«138381_j4320737100478_1_alg».proof.Proof.LibSageHostRows

noncomputable section

open scoped BigOperators

namespace Cert.Net

open Idealize.ShloMosaic Idealize.ShloMosaic.ValueIdx

variable {R K N : Nat}

/-- An a×b array of extended reals. -/
abbrev Mat (a b : Nat) : Type := (⟨2, ![a, b]⟩ : Shape).Idx → EReal

/-- X · W + b, the 1×N row b added to every row. -/
def affine (X : Mat R K) (W : Mat K N) (b : Mat 1 N) : Mat R N :=
  fun i => (∑ c : Fin K, X (ix2 (i 0) c) * W (ix2 c (i 1))) + b (ix2 0 (i 1))

/-- max (X · W + b) 0. -/
def affineRelu (X : Mat R K) (W : Mat K N) (b : Mat 1 N) : Mat R N :=
  fun i => max (affine X W b i) (Ideal.ofBits .f32 0x00000000#32)

/-- X · W. -/
def product (X : Mat R K) (W : Mat K N) : Mat R N :=
  fun i => ∑ c : Fin K, X (ix2 (i 0) c) * W (ix2 c (i 1))

/-- X + ε · tanh ((X · A + G) + b). -/
def combine (X G : Mat R N) (A : Mat N N) (b : Mat 1 N) : Mat R N :=
  fun i => X i + Ideal.ofBits .f32 0x3DCCCCCD#32
    * Ideal.tanh (((∑ c : Fin N, X (ix2 (i 0) c) * A (ix2 c (i 1))) + G i) + b (ix2 0 (i 1)))

/-- The log-softmax of every row. -/
def logSoftmax (X : Mat R N) : Mat R N :=
  fun i => Sage.lsmRow (DenseRows.row X (i 0)) (i 1)

theorem affine_apply (X : Mat R K) (W : Mat K N) (b : Mat 1 N) (p : Fin R) (q : Fin N) :
    affine X W b (ix2 p q) = (∑ c : Fin K, X (ix2 p c) * W (ix2 c q)) + b (ix2 0 q) := rfl

theorem affineRelu_apply (X : Mat R K) (W : Mat K N) (b : Mat 1 N) (p : Fin R) (q : Fin N) :
    affineRelu X W b (ix2 p q)
      = max ((∑ c : Fin K, X (ix2 p c) * W (ix2 c q)) + b (ix2 0 q)) (Ideal.ofBits .f32 0x00000000#32) := rfl

theorem product_apply (X : Mat R K) (W : Mat K N) (p : Fin R) (q : Fin N) :
    product X W (ix2 p q) = ∑ c : Fin K, X (ix2 p c) * W (ix2 c q) := rfl

theorem combine_apply (X G : Mat R N) (A : Mat N N) (b : Mat 1 N) (p : Fin R) (q : Fin N) :
    combine X G A b (ix2 p q) = X (ix2 p q) + Ideal.ofBits .f32 0x3DCCCCCD#32
      * Ideal.tanh (((∑ c : Fin N, X (ix2 p c) * A (ix2 c q)) + G (ix2 p q)) + b (ix2 0 q)) := rfl

theorem logSoftmax_apply (X : Mat R N) (p : Fin R) (q : Fin N) :
    logSoftmax X (ix2 p q) = Sage.lsmRow (DenseRows.row X p) q := rfl

/-- Adding the row of float zeros changes nothing: the affine layer with that row is the product. -/
theorem affine_zero_row (X : Mat R K) (W : Mat K N) (b : Mat 1 N)
    (hb : ∀ q : Fin N, b (ix2 0 q) = Ideal.ofBits .f32 0x00000000#32) : affine X W b = product X W := by
  funext i
  obtain ⟨p, q, rfl⟩ : ∃ (p : Fin R) (q : Fin N), i = ix2 p q := ⟨i 0, i 1, eq_ix2 i⟩
  rw [affine_apply, product_apply, hb q, Ideal.ofBits_zero_f32, add_zero]

end Cert.Net

end
-- ==== Proof.Spec.lean ====
/-
  The network both programs compute, as one function of the twelve arguments over the extended reals.

  From the 2×1600000 edge list e: the source and the target lists with a self-loop per node appended (rows, cols); the
  degree of every node, a float count of the edges that land on it (deg); its inverse square root where the degree
  is positive, else zero (dinv); an index list with negative entries wrapped around by the node count (wrap), as
  jnp indexing does; every edge's weight dinv(source) · dinv(target) (norm). For a weight matrix W of a
  convolution its antisymmetric part less γ times the identity, W − Wᵀ − γ·I (antisym), and for a feature map XW
  its aggregation: rows gathered by source, scaled by the edge's weight, scatter-added by target into zeros (agg).
  The layers themselves are Net's: h1 = max (x · lin1_wᵀ + lin1_b) 0, then an antisymmetric convolution, a dense
  layer, a second antisymmetric convolution and the log-softmax of every row.

  The gathers, the scatter-adds and the index arithmetic are spelt with the reference program's own operations and
  dimension records; a program whose host operations are these, applied to these arrays, computes these values by
  definition.
-/
import proofs.«138381_j4320737100478_1_alg».proof.Proof.Gen.ReferenceIdeal
import proofs.«138381_j4320737100478_1_alg».proof.Proof.Net

noncomputable section

namespace Cert.ReferenceIdeal.Spec

open Cert.ReferenceIdeal Cert.ReferenceIdeal.Facts₀ Cert.ReferenceIdeal.Facts Idealize.ShloMosaic

/-- The source list with the self-loops appended. -/
def rows (e : (⟨S2x1600000, .i32⟩ : BufTy).Contents (Elt Ideal)) : (⟨S1700000, .i32⟩ : BufTy).Contents (Elt Ideal) :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The target list with the self-loops appended. -/
def cols (e : (⟨S2x1600000, .i32⟩ : BufTy).Contents (Elt Ideal)) : (⟨S1700000, .i32⟩ : BufTy).Contents (Elt Ideal) :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- Every node's degree: ones scatter-added by target into zeros. -/
def deg (e : (⟨S2x1600000, .i32⟩ : BufTy).Contents (Elt Ideal)) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (cols e))
    (broadcastInDim S1700000 ![] bcast_S_S1700000 (constant (F := Ideal) S_ .f32 0x3F800000#32))

/-- The inverse square root of every degree. -/
def rsq (e : (⟨S2x1600000, .i32⟩ : BufTy).Contents (Elt Ideal)) : FVec Ideal S100000 .f32 := Host.rsqrt (deg e)

/-- rsqrt of the degree where it is positive, else zero. -/
def dinv (e : (⟨S2x1600000, .i32⟩ : BufTy).Contents (Elt Ideal)) : FVec Ideal S100000 .f32 :=
  select (cmpf .ogt (deg e) (broadcastInDim S100000 ![] bcast_S_S100000 (constant (F := Ideal) S_ .f32 0x00000000#32)))
    (rsq e)
    (broadcastInDim S100000 ![] bcast_S_S100000 (constant (F := Ideal) S_ .f32 0x00000000#32))

/-- jnp's index normalisation: a negative index takes the node count added. -/
def wrap (v : (⟨S1700000, .i32⟩ : BufTy).Contents (Elt Ideal)) : (⟨S1700000, .i32⟩ : BufTy).Contents (Elt Ideal) :=
  select (cmpi .slt v (broadcastInDim S1700000 ![] bcast_S_S1700000 (constantI S_ 32 0#32)))
    (addi v (broadcastInDim S1700000 ![] bcast_S_S1700000 (constantI S_ 32 100000#32))) v

/-- A per-node value d read at every entry of an index list (wrapped around as jnp does). -/
def dinvAt (d : FVec Ideal S100000 .f32) (v : (⟨S1700000, .i32⟩ : BufTy).Contents (Elt Ideal)) : FVec Ideal S1700000 .f32 :=
  Host.gather gather_S100000_S1700000x1_S1700000_n_0_n_n_0_1_1 d
    (broadcastInDim S1700000x1 ![0] bcast_S1700000_S1700000x1_0 (wrap v))

/-- Every edge's weight d(source) · d(target), from the per-node value and the two index lists. -/
def normOf (d : FVec Ideal S100000 .f32) (r cl : (⟨S1700000, .i32⟩ : BufTy).Contents (Elt Ideal)) : FVec Ideal S1700000 .f32 := mulf (dinvAt d r) (dinvAt d cl)

/-- Every edge's weight dinv(source) · dinv(target). -/
def norm (e : (⟨S2x1600000, .i32⟩ : BufTy).Contents (Elt Ideal)) : FVec Ideal S1700000 .f32 := normOf (dinv e) (rows e) (cols e)

/-- W − Wᵀ − γ·I for a 128×128 weight. -/
def antisym128 (w : FVec Ideal S128x128 .f32) : FVec Ideal S128x128 .f32 :=
  subf (F := Ideal) (subf (F := Ideal) w (transpose S128x128 [1, 0] w transposes_S128x128_S128x128_1_0))
    (mulf (F := Ideal) (broadcastInDim S128x128 ![] bcast_S_S128x128 (constant (F := Ideal) S_ .f32 0x3DCCCCCD#32))
      (uitofp .f32 (cmpi .eq (addi (iotaInDim S128x128 32 0)
        (broadcastInDim S128x128 ![] bcast_S_S128x128 (constantI S_ 32 0#32))) (iotaInDim S128x128 32 1))))

/-- W − Wᵀ − γ·I for a 32×32 weight. -/
def antisym32 (w : FVec Ideal S32x32 .f32) : FVec Ideal S32x32 .f32 :=
  subf (F := Ideal) (subf (F := Ideal) w (transpose S32x32 [1, 0] w transposes_S32x32_S32x32_1_0))
    (mulf (F := Ideal) (broadcastInDim S32x32 ![] bcast_S_S32x32 (constant (F := Ideal) S_ .f32 0x3DCCCCCD#32))
      (uitofp .f32 (cmpi .eq (addi (iotaInDim S32x32 32 0)
        (broadcastInDim S32x32 ![] bcast_S_S32x32 (constantI S_ 32 0#32))) (iotaInDim S32x32 32 1))))

/-- A 128-lane feature map's rows gathered by a source list. -/
def gath128 (xw : FVec Ideal S100000x128 .f32) (r : (⟨S1700000, .i32⟩ : BufTy).Contents (Elt Ideal)) : FVec Ideal S1700000x128 .f32 :=
  Host.gather gather_S100000x128_S1700000x1_S1700000x128_1_0_n_n_0_1_1128 xw
    (broadcastInDim S1700000x1 ![0] bcast_S1700000_S1700000x1_0 (wrap r))

/-- … scaled by the edges' weights. -/
def msgs128 (xw : FVec Ideal S100000x128 .f32) (nrm : FVec Ideal S1700000 .f32) (r : (⟨S1700000, .i32⟩ : BufTy).Contents (Elt Ideal)) : FVec Ideal S1700000x128 .f32 :=
  mulf (broadcastInDim S1700000x128 ![0, 1] bcast_S1700000x1_S1700000x128_0_1
      (broadcastInDim S1700000x1 ![0] bcast_S1700000_S1700000x1_0 nrm)) (gath128 xw r)

/-- … and scatter-added by a target list into zeros. -/
def aggOf128 (xw : FVec Ideal S100000x128 .f32) (nrm : FVec Ideal S1700000 .f32) (r cl : (⟨S1700000, .i32⟩ : BufTy).Contents (Elt Ideal)) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 cl) (msgs128 xw nrm r)

/-- A 128-lane feature map aggregated over the edges of the graph. -/
def agg128 (xw : FVec Ideal S100000x128 .f32) (e : (⟨S2x1600000, .i32⟩ : BufTy).Contents (Elt Ideal)) : FVec Ideal S100000x128 .f32 :=
  aggOf128 xw (norm e) (rows e) (cols e)

/-- A 32-lane feature map's rows gathered by a source list. -/
def gath32 (xw : FVec Ideal S100000x32 .f32) (r : (⟨S1700000, .i32⟩ : BufTy).Contents (Elt Ideal)) : FVec Ideal S1700000x32 .f32 :=
  Host.gather gather_S100000x32_S1700000x1_S1700000x32_1_0_n_n_0_1_132 xw
    (broadcastInDim S1700000x1 ![0] bcast_S1700000_S1700000x1_0 (wrap r))

/-- … scaled by the edges' weights. -/
def msgs32 (xw : FVec Ideal S100000x32 .f32) (nrm : FVec Ideal S1700000 .f32) (r : (⟨S1700000, .i32⟩ : BufTy).Contents (Elt Ideal)) : FVec Ideal S1700000x32 .f32 :=
  mulf (broadcastInDim S1700000x32 ![0, 1] bcast_S1700000x1_S1700000x32_0_1
      (broadcastInDim S1700000x1 ![0] bcast_S1700000_S1700000x1_0 nrm)) (gath32 xw r)

/-- … and scatter-added by a target list into zeros. -/
def aggOf32 (xw : FVec Ideal S100000x32 .f32) (nrm : FVec Ideal S1700000 .f32) (r cl : (⟨S1700000, .i32⟩ : BufTy).Contents (Elt Ideal)) : FVec Ideal S100000x32 .f32 :=
  Host.scatterAdd scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 cl) (msgs32 xw nrm r)

/-- A 32-lane feature map aggregated over the edges of the graph. -/
def agg32 (xw : FVec Ideal S100000x32 .f32) (e : (⟨S2x1600000, .i32⟩ : BufTy).Contents (Elt Ideal)) : FVec Ideal S100000x32 .f32 :=
  aggOf32 xw (norm e) (rows e) (cols e)

variable (x0 : FVec Ideal S100000x256 .f32) (x1 : FVec Ideal S128x256 .f32) (x2 : FVec Ideal S128 .f32)
  (x3 : FVec Ideal S32x128 .f32) (x4 : FVec Ideal S32 .f32) (x5 x6 : FVec Ideal S128x128 .f32) (x7 : FVec Ideal S128 .f32)
  (x8 x9 : FVec Ideal S32x32 .f32) (x10 : FVec Ideal S32 .f32) (e : (⟨S2x1600000, .i32⟩ : BufTy).Contents (Elt Ideal))

/-- A length-128 vector as a 1×128 row. -/
def rowOf128 (b : FVec Ideal S128 .f32) : FVec Ideal S1x128 .f32 := broadcastInDim S1x128 ![1] bcast_S128_S1x128_1 b

/-- A length-32 vector as a 1×32 row. -/
def rowOf32 (b : FVec Ideal S32 .f32) : FVec Ideal S1x32 .f32 := broadcastInDim S1x32 ![1] bcast_S32_S1x32_1 b

/-- max (x · lin1_wᵀ + lin1_b) 0. -/
def h1 : FVec Ideal S100000x128 .f32 :=
  Net.affineRelu (R := 100000) (K := 256) (N := 128) x0 (transpose S256x128 [1, 0] x1 transposes_S128x256_S256x128_1_0) (rowOf128 x2)

/-- h1 · phi1_wᵀ. -/
def xw1 : FVec Ideal S100000x128 .f32 :=
  Net.product (R := 100000) (K := 128) (N := 128) (h1 x0 x1 x2) (transpose S128x128 [1, 0] x6 transposes_S128x128_S128x128_1_0)

/-- The first antisymmetric convolution. -/
def h2 : FVec Ideal S100000x128 .f32 :=
  Net.combine (R := 100000) (N := 128) (h1 x0 x1 x2) (agg128 (xw1 x0 x1 x2 x6) e)
    (transpose S128x128 [1, 0] (antisym128 x5) transposes_S128x128_S128x128_1_0) (rowOf128 x7)

/-- h2 · lin2_wᵀ + lin2_b. -/
def h3 : FVec Ideal S100000x32 .f32 :=
  Net.affine (R := 100000) (K := 128) (N := 32) (h2 x0 x1 x2 x5 x6 x7 e) (transpose S128x32 [1, 0] x3 transposes_S32x128_S128x32_1_0) (rowOf32 x4)

/-- h3 · phi2_wᵀ. -/
def xw2 : FVec Ideal S100000x32 .f32 :=
  Net.product (R := 100000) (K := 32) (N := 32) (h3 x0 x1 x2 x3 x4 x5 x6 x7 e) (transpose S32x32 [1, 0] x9 transposes_S32x32_S32x32_1_0)

/-- The second antisymmetric convolution. -/
def h4 : FVec Ideal S100000x32 .f32 :=
  Net.combine (R := 100000) (N := 32) (h3 x0 x1 x2 x3 x4 x5 x6 x7 e) (agg32 (xw2 x0 x1 x2 x3 x4 x5 x6 x7 x9 e) e)
    (transpose S32x32 [1, 0] (antisym32 x8) transposes_S32x32_S32x32_1_0) (rowOf32 x10)

/-- The network's output: the log-softmax of every row. -/
def out : FVec Ideal S100000x32 .f32 :=
  Net.logSoftmax (R := 100000) (N := 32) (h4 x0 x1 x2 x3 x4 x5 x6 x7 x8 x9 x10 e)

end Cert.ReferenceIdeal.Spec

end
-- ==== Proof.HostLayers.lean ====
/-
  The host's spellings of the layers are the layers.

  A reference program spells a dense layer as a general dot product with the plain dimension numbers plus a 1×N
  row broadcast to every row, a clamp at zero as a maximum with the broadcast float zero, the combine step of an
  antisymmetric convolution as X + ε · tanh ((X · A + G) + row) with ε broadcast from a scalar, and the log-softmax
  as the row maximum (taken once more against −∞) and the row sum of exponentials kept as columns. Read at an entry
  each is the layer's entry: the contraction index of the dot product renamed by its one coordinate, every broadcast
  read at its source, nothing else. No finiteness is asked.
-/
import proofs.«138381_j4320737100478_1_alg».proof.Proof.Net

noncomputable section

open scoped BigOperators

namespace Cert.Net

open Idealize.ShloMosaic Idealize.ShloMosaic.ValueIdx

variable {R K N : Nat}

/-- The float zero broadcast from a scalar, at any entry. -/
theorem scalar_bcast_apply (bits : BitVec 32)
    (h0 : (⟨0, ![]⟩ : Shape).BroadcastsInDim ⟨2, ![R, N]⟩ (![] : Fin 0 → Fin 2)) (p : Fin R) (q : Fin N) :
    broadcastInDim ⟨2, ![R, N]⟩ ![] h0 (constant (F := Ideal) ⟨0, ![]⟩ .f32 bits) (ix2 p q) = Ideal.ofBits .f32 bits := by
  rw [broadcastInDim_apply _ h0 _ (ix2 p q) ix0 (fun ax => ax.elim0)]
  rfl

/-- dot_general plus a broadcast row is the affine layer. -/
theorem host_affine (D : DotDims ⟨2, ![R, K]⟩ ⟨2, ![K, N]⟩ ⟨2, ![R, N]⟩) (hD : D = DotDims.plain R K N) (hN : N ≠ 1)
    (X : FVec Ideal ⟨2, ![R, K]⟩ .f32) (W : FVec Ideal ⟨2, ![K, N]⟩ .f32) (B : FVec Ideal ⟨2, ![1, N]⟩ .f32)
    (h2 : (⟨2, ![1, N]⟩ : Shape).BroadcastsInDim ⟨2, ![R, N]⟩ (![0, 1] : Fin 2 → Fin 2)) :
    addf (Host.dotGeneral D none X W) (broadcastInDim ⟨2, ![R, N]⟩ ![0, 1] h2 B) = affine X W B := by
  funext j
  obtain ⟨r, c, rfl⟩ : ∃ (r : Fin R) (c : Fin N), j = ix2 r c := ⟨j 0, j 1, eq_ix2 j⟩
  show FloatOps.dotGeneral D none .single X W (ix2 r c) + broadcastInDim ⟨2, ![R, N]⟩ ![0, 1] h2 B (ix2 r c) = _
  rw [RowInDim.broadcastInDim_rows hN, PlainDot.dotGeneral_apply D hD, affine_apply]

/-- … clamped below at the broadcast float zero: the affine layer with relu. -/
theorem host_affineRelu (D : DotDims ⟨2, ![R, K]⟩ ⟨2, ![K, N]⟩ ⟨2, ![R, N]⟩) (hD : D = DotDims.plain R K N) (hN : N ≠ 1)
    (X : FVec Ideal ⟨2, ![R, K]⟩ .f32) (W : FVec Ideal ⟨2, ![K, N]⟩ .f32) (B : FVec Ideal ⟨2, ![1, N]⟩ .f32)
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf (addf (Host.dotGeneral D none X W) (broadcastInDim ⟨2, ![R, N]⟩ ![0, 1] h2 B))
        (broadcastInDim ⟨2, ![R, N]⟩ ![] h0 (constant (F := Ideal) ⟨0, ![]⟩ .f32 0x00000000#32))
      = affineRelu X W B := by
  rw [host_affine D hD hN]
  funext j
  obtain ⟨r, c, rfl⟩ : ∃ (r : Fin R) (c : Fin N), j = ix2 r c := ⟨j 0, j 1, eq_ix2 j⟩
  show max (affine X W B (ix2 r c))
    (broadcastInDim ⟨2, ![R, N]⟩ ![] h0 (constant (F := Ideal) ⟨0, ![]⟩ .f32 0x00000000#32) (ix2 r c)) = _
  rw [scalar_bcast_apply]
  rfl

/-- dot_general with the plain dimension numbers is the product. -/
theorem host_product (D : DotDims ⟨2, ![R, K]⟩ ⟨2, ![K, N]⟩ ⟨2, ![R, N]⟩) (hD : D = DotDims.plain R K N)
    (X : FVec Ideal ⟨2, ![R, K]⟩ .f32) (W : FVec Ideal ⟨2, ![K, N]⟩ .f32) :
    Host.dotGeneral D none X W = product X W := by
  funext j
  obtain ⟨r, c, rfl⟩ : ∃ (r : Fin R) (c : Fin N), j = ix2 r c := ⟨j 0, j 1, eq_ix2 j⟩
  show FloatOps.dotGeneral D none .single X W (ix2 r c) = _
  rw [PlainDot.dotGeneral_apply D hD, product_apply]

/-- X + ε · tanh ((X · A + G) + row), ε broadcast from a scalar: the combine step. -/
theorem host_combine (D : DotDims ⟨2, ![R, N]⟩ ⟨2, ![N, N]⟩ ⟨2, ![R, N]⟩) (hD : D = DotDims.plain R N N) (hN : N ≠ 1)
    (X G : FVec Ideal ⟨2, ![R, N]⟩ .f32) (A : FVec Ideal ⟨2, ![N, N]⟩ .f32) (B : FVec Ideal ⟨2, ![1, N]⟩ .f32)
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    addf X (mulf (broadcastInDim ⟨2, ![R, N]⟩ ![] h0 (constant (F := Ideal) ⟨0, ![]⟩ .f32 0x3DCCCCCD#32))
        (Host.tanh (addf (addf (Host.dotGeneral D none X A) G) (broadcastInDim ⟨2, ![R, N]⟩ ![0, 1] h2 B))))
      = combine X G A B := by
  funext j
  obtain ⟨r, c, rfl⟩ : ∃ (r : Fin R) (c : Fin N), j = ix2 r c := ⟨j 0, j 1, eq_ix2 j⟩
  show X (ix2 r c) + broadcastInDim ⟨2, ![R, N]⟩ ![] h0 (constant (F := Ideal) ⟨0, ![]⟩ .f32 0x3DCCCCCD#32) (ix2 r c)
      * Ideal.tanh ((FloatOps.dotGeneral D none .single X A (ix2 r c) + G (ix2 r c))
          + broadcastInDim ⟨2, ![R, N]⟩ ![0, 1] h2 B (ix2 r c)) = _
  rw [scalar_bcast_apply, RowInDim.broadcastInDim_rows hN, PlainDot.dotGeneral_apply D hD, combine_apply]

/-- jax.nn.log_softmax's lowering is the log-softmax of every row. -/
theorem host_logSoftmax (a : FVec Ideal ⟨2, ![R, N]⟩ .f32) (h' : (⟨2, ![R, N]⟩ : Shape).ReducesTo [1] (⟨1, ![R]⟩ : Shape))
    (hu : 0 < (⟨0, ![]⟩ : Shape).numel)
    (hb : (⟨0, ![]⟩ : Shape).BroadcastsInDim ⟨1, ![R]⟩ (![] : Fin 0 → Fin 1))
    (h0 : (⟨1, ![R]⟩ : Shape).BroadcastsInDim ⟨2, ![R, 1]⟩ (![0] : Fin 1 → Fin 2))
    (h1 : (⟨2, ![R, 1]⟩ : Shape).BroadcastsInDim ⟨2, ![R, N]⟩ (![0, 1] : Fin 2 → Fin 2)) :
    subf (subf a (broadcastInDim ⟨2, ![R, N]⟩ ![0, 1] h1 (broadcastInDim ⟨2, ![R, 1]⟩ ![0] h0
            (maximumf (broadcastInDim ⟨1, ![R]⟩ ![] hb (constant (F := Ideal) ⟨0, ![]⟩ .f32 0xFF800000#32))
              (Host.reduce FloatOps.maximumf a (constant (F := Ideal) ⟨0, ![]⟩ .f32 0xFF800000#32) h' hu)))))
          (broadcastInDim ⟨2, ![R, N]⟩ ![0, 1] h1 (Host.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu))))
      = logSoftmax a := by
  funext j
  obtain ⟨p, q, rfl⟩ : ∃ (p : Fin R) (q : Fin N), j = ix2 p q := ⟨j 0, j 1, eq_ix2 j⟩
  exact congrFun (HostRows.row_lsm_host a h' hu hb h0 h1 p) q

/-- A length-N vector of float zeros laid out as a 1×N row is a row of float zeros. -/
theorem zero_row (hb : (⟨0, ![]⟩ : Shape).BroadcastsInDim ⟨1, ![N]⟩ (![] : Fin 0 → Fin 1))
    (hc : (⟨1, ![N]⟩ : Shape).ShapeCasts ⟨2, ![1, N]⟩) (q : Fin N) :
    shapeCast ⟨2, ![1, N]⟩ (broadcastInDim ⟨1, ![N]⟩ ![] hb (constant (F := Ideal) ⟨0, ![]⟩ .f32 0x00000000#32)) hc (ix2 0 q)
      = Ideal.ofBits .f32 0x00000000#32 := by
  rw [RowVector.shapeCast_row, broadcastInDim_apply _ hb _ (ix1 q) ix0 (fun ax => ax.elim0)]
  rfl

end Cert.Net

end
-- ==== Proof.RefFold.lean ====
/-
  The reference program's fold, read stretch by stretch.

  Its run ends with every buffer at the fold of its 152 host operations over the launch contents. The operations are
  cut into seventeen consecutive stretches — the edge lists and degrees; the outlined where; the edge weights; the
  first dense layer and its outlined relu; each convolution's weights and feature map, its messages, its combine
  step; the second dense layer; the outlined log-softmax — and each stretch is read over ANY contents U it may start
  from: the few values later stretches use, as the network's operations (Spec, Net) of U at the buffers the stretch
  reads, and every buffer the stretch does not write left as it was. Composed from the launch contents, the result
  buffer holds the network's output of the arguments.
-/
import proofs.«138381_j4320737100478_1_alg».proof.Proof.RunP
import proofs.«138381_j4320737100478_1_alg».proof.Proof.Spec
import proofs.«138381_j4320737100478_1_alg».proof.Proof.HostLayers
import Idealize.ShloMosaic.Lib.StableHlo.Run

set_option maxRecDepth 16384

noncomputable section

namespace Cert.ReferenceIdeal.Fold

open Cert.ReferenceIdeal Cert.ReferenceIdeal.ValueP Cert.ReferenceIdeal.Facts₀ Cert.ReferenceIdeal.Facts
open Idealize.ShloMosaic Idealize.ShloMosaic.TcCoe Idealize.SL.Sem Idealize.ShloMosaic.StableHlo

/-- Running two lists one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The n operations from position a on. -/
abbrev seg (a n : Nat) : List (HloOp τ sig (Elt Ideal)) := ((ops (F := Ideal)).drop a).take n

abbrev s1a : List (HloOp τ sig (Elt Ideal)) := seg 0 18
abbrev s1b : List (HloOp τ sig (Elt Ideal)) := seg 18 3
abbrev s1c : List (HloOp τ sig (Elt Ideal)) := seg 21 19
abbrev s2a : List (HloOp τ sig (Elt Ideal)) := seg 40 5
abbrev s2b : List (HloOp τ sig (Elt Ideal)) := seg 45 3
abbrev s3 : List (HloOp τ sig (Elt Ideal)) := seg 48 15
abbrev s4 : List (HloOp τ sig (Elt Ideal)) := seg 63 16
abbrev s5 : List (HloOp τ sig (Elt Ideal)) := seg 79 11
abbrev s6 : List (HloOp τ sig (Elt Ideal)) := seg 90 5
abbrev s7 : List (HloOp τ sig (Elt Ideal)) := seg 95 15
abbrev s8 : List (HloOp τ sig (Elt Ideal)) := seg 110 16
abbrev s9 : List (HloOp τ sig (Elt Ideal)) := seg 126 11
abbrev s10a : List (HloOp τ sig (Elt Ideal)) := seg 137 2
abbrev s10b : List (HloOp τ sig (Elt Ideal)) := seg 139 3
abbrev s10c : List (HloOp τ sig (Elt Ideal)) := seg 142 3
abbrev s10d : List (HloOp τ sig (Elt Ideal)) := seg 145 3
abbrev s10e : List (HloOp τ sig (Elt Ideal)) := seg 148 4

/-- The program is the seventeen stretches in order. -/
theorem ops_split : ops (F := Ideal) = s1a ++ (s1b ++ (s1c ++ (s2a ++ (s2b ++ (s3 ++ (s4 ++ (s5 ++ (s6 ++ (s7 ++ (s8 ++ (s9 ++ (s10a ++ (s10b ++ (s10c ++ (s10d ++ (s10e)))))))))))))))) := rfl

/-! ## What each stretch writes, and so what it leaves -/

abbrev s1a_W : List (Ref sig .tc) := [main_v0, main_v1, main_v2, main_v3, main_v4, main_v5, main_v6, main_cst, main_v7, main_cst_0, main_v8, main_v9, main_v10, main_cst_1, main_v11, main_v12, main_v13, main_cst_2]
theorem s1a_writes : (s1a).Forall fun op => op.writes ⊆ ((s1a_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s1a_keeps (U : Valuation τ sig (Elt Ideal)) (r : Ref sig .tc) (h : r ∉ s1a_W) :
    after s1a U (Proc.devRef .tc r) = U (Proc.devRef .tc r) :=
  after_of_writes_sub s1a U s1a_writes h

abbrev s1b_W : List (Ref sig .tc) := [main_call0_v0, main_call0_v1, main_v14]
theorem s1b_writes : (s1b).Forall fun op => op.writes ⊆ ((s1b_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s1b_keeps (U : Valuation τ sig (Elt Ideal)) (r : Ref sig .tc) (h : r ∉ s1b_W) :
    after s1b U (Proc.devRef .tc r) = U (Proc.devRef .tc r) :=
  after_of_writes_sub s1b U s1b_writes h

abbrev s1c_W : List (Ref sig .tc) := [main_c, main_v15, main_v16, main_c_3, main_v17, main_v18, main_v19, main_v20, main_v21, main_c_4, main_v22, main_v23, main_c_5, main_v24, main_v25, main_v26, main_v27, main_v28, main_v29]
theorem s1c_writes : (s1c).Forall fun op => op.writes ⊆ ((s1c_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s1c_keeps (U : Valuation τ sig (Elt Ideal)) (r : Ref sig .tc) (h : r ∉ s1c_W) :
    after s1c U (Proc.devRef .tc r) = U (Proc.devRef .tc r) :=
  after_of_writes_sub s1c U s1c_writes h

abbrev s2a_W : List (Ref sig .tc) := [main_v30, main_v31, main_v32, main_v33, main_v34]
theorem s2a_writes : (s2a).Forall fun op => op.writes ⊆ ((s2a_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s2a_keeps (U : Valuation τ sig (Elt Ideal)) (r : Ref sig .tc) (h : r ∉ s2a_W) :
    after s2a U (Proc.devRef .tc r) = U (Proc.devRef .tc r) :=
  after_of_writes_sub s2a U s2a_writes h

abbrev s2b_W : List (Ref sig .tc) := [main_call1_cst, main_call1_v0, main_v35]
theorem s2b_writes : (s2b).Forall fun op => op.writes ⊆ ((s2b_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s2b_keeps (U : Valuation τ sig (Elt Ideal)) (r : Ref sig .tc) (h : r ∉ s2b_W) :
    after s2b U (Proc.devRef .tc r) = U (Proc.devRef .tc r) :=
  after_of_writes_sub s2b U s2b_writes h

abbrev s3_W : List (Ref sig .tc) := [main_v36, main_v37, main_v38, main_v39, main_c_6, main_v40, main_v41, main_v42, main_v43, main_cst_7, main_v44, main_v45, main_v46, main_v47, main_v48]
theorem s3_writes : (s3).Forall fun op => op.writes ⊆ ((s3_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s3_keeps (U : Valuation τ sig (Elt Ideal)) (r : Ref sig .tc) (h : r ∉ s3_W) :
    after s3 U (Proc.devRef .tc r) = U (Proc.devRef .tc r) :=
  after_of_writes_sub s3 U s3_writes h

abbrev s4_W : List (Ref sig .tc) := [main_v49, main_c_8, main_v50, main_v51, main_c_9, main_v52, main_v53, main_v54, main_v55, main_v56, main_v57, main_v58, main_cst_10, main_v59, main_v60, main_v61]
theorem s4_writes : (s4).Forall fun op => op.writes ⊆ ((s4_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s4_keeps (U : Valuation τ sig (Elt Ideal)) (r : Ref sig .tc) (h : r ∉ s4_W) :
    after s4 U (Proc.devRef .tc r) = U (Proc.devRef .tc r) :=
  after_of_writes_sub s4 U s4_writes h

abbrev s5_W : List (Ref sig .tc) := [main_v62, main_v63, main_v64, main_v65, main_v66, main_v67, main_v68, main_cst_11, main_v69, main_v70, main_v71]
theorem s5_writes : (s5).Forall fun op => op.writes ⊆ ((s5_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s5_keeps (U : Valuation τ sig (Elt Ideal)) (r : Ref sig .tc) (h : r ∉ s5_W) :
    after s5 U (Proc.devRef .tc r) = U (Proc.devRef .tc r) :=
  after_of_writes_sub s5 U s5_writes h

abbrev s6_W : List (Ref sig .tc) := [main_v72, main_v73, main_v74, main_v75, main_v76]
theorem s6_writes : (s6).Forall fun op => op.writes ⊆ ((s6_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s6_keeps (U : Valuation τ sig (Elt Ideal)) (r : Ref sig .tc) (h : r ∉ s6_W) :
    after s6 U (Proc.devRef .tc r) = U (Proc.devRef .tc r) :=
  after_of_writes_sub s6 U s6_writes h

abbrev s7_W : List (Ref sig .tc) := [main_v77, main_v78, main_v79, main_v80, main_c_12, main_v81, main_v82, main_v83, main_v84, main_cst_13, main_v85, main_v86, main_v87, main_v88, main_v89]
theorem s7_writes : (s7).Forall fun op => op.writes ⊆ ((s7_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s7_keeps (U : Valuation τ sig (Elt Ideal)) (r : Ref sig .tc) (h : r ∉ s7_W) :
    after s7 U (Proc.devRef .tc r) = U (Proc.devRef .tc r) :=
  after_of_writes_sub s7 U s7_writes h

abbrev s8_W : List (Ref sig .tc) := [main_v90, main_c_14, main_v91, main_v92, main_c_15, main_v93, main_v94, main_v95, main_v96, main_v97, main_v98, main_v99, main_cst_16, main_v100, main_v101, main_v102]
theorem s8_writes : (s8).Forall fun op => op.writes ⊆ ((s8_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s8_keeps (U : Valuation τ sig (Elt Ideal)) (r : Ref sig .tc) (h : r ∉ s8_W) :
    after s8 U (Proc.devRef .tc r) = U (Proc.devRef .tc r) :=
  after_of_writes_sub s8 U s8_writes h

abbrev s9_W : List (Ref sig .tc) := [main_v103, main_v104, main_v105, main_v106, main_v107, main_v108, main_v109, main_cst_17, main_v110, main_v111, main_v112]
theorem s9_writes : (s9).Forall fun op => op.writes ⊆ ((s9_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s9_keeps (U : Valuation τ sig (Elt Ideal)) (r : Ref sig .tc) (h : r ∉ s9_W) :
    after s9 U (Proc.devRef .tc r) = U (Proc.devRef .tc r) :=
  after_of_writes_sub s9 U s9_writes h

abbrev s10a_W : List (Ref sig .tc) := [main_call2_cst, main_call2_v0]
theorem s10a_writes : (s10a).Forall fun op => op.writes ⊆ ((s10a_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s10a_keeps (U : Valuation τ sig (Elt Ideal)) (r : Ref sig .tc) (h : r ∉ s10a_W) :
    after s10a U (Proc.devRef .tc r) = U (Proc.devRef .tc r) :=
  after_of_writes_sub s10a U s10a_writes h

abbrev s10b_W : List (Ref sig .tc) := [main_call2_cst_0, main_call2_v1, main_call2_v2]
theorem s10b_writes : (s10b).Forall fun op => op.writes ⊆ ((s10b_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s10b_keeps (U : Valuation τ sig (Elt Ideal)) (r : Ref sig .tc) (h : r ∉ s10b_W) :
    after s10b U (Proc.devRef .tc r) = U (Proc.devRef .tc r) :=
  after_of_writes_sub s10b U s10b_writes h

abbrev s10c_W : List (Ref sig .tc) := [main_call2_v3, main_call2_v4, main_call2_v5]
theorem s10c_writes : (s10c).Forall fun op => op.writes ⊆ ((s10c_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s10c_keeps (U : Valuation τ sig (Elt Ideal)) (r : Ref sig .tc) (h : r ∉ s10c_W) :
    after s10c U (Proc.devRef .tc r) = U (Proc.devRef .tc r) :=
  after_of_writes_sub s10c U s10c_writes h

abbrev s10d_W : List (Ref sig .tc) := [main_call2_v6, main_call2_cst_1, main_call2_v7]
theorem s10d_writes : (s10d).Forall fun op => op.writes ⊆ ((s10d_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s10d_keeps (U : Valuation τ sig (Elt Ideal)) (r : Ref sig .tc) (h : r ∉ s10d_W) :
    after s10d U (Proc.devRef .tc r) = U (Proc.devRef .tc r) :=
  after_of_writes_sub s10d U s10d_writes h

abbrev s10e_W : List (Ref sig .tc) := [main_call2_v8, main_call2_v9, main_call2_v10, main_v113]
theorem s10e_writes : (s10e).Forall fun op => op.writes ⊆ ((s10e_W).map (Proc.devRef (τ := τ) .tc)).toFinset := by
  simp only [s1a, s1b, s1c, s2a, s2b, s3, s4, s5, s6, s7, s8, s9, s10a, s10b, s10c, s10d, s10e, seg, ops, List.drop_zero, List.drop_succ_cons, List.take_succ_cons, List.take_zero, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem s10e_keeps (U : Valuation τ sig (Elt Ideal)) (r : Ref sig .tc) (h : r ∉ s10e_W) :
    after s10e U (Proc.devRef .tc r) = U (Proc.devRef .tc r) :=
  after_of_writes_sub s10e U s10e_writes h

/-! ## What each stretch computes, from the values it reads -/

/-- The source list with its self-loops. -/
theorem s1a_v3 (U : Valuation τ sig (Elt Ideal)) (e : (⟨S2x1600000, .i32⟩ : BufTy).Contents (Elt Ideal))
    (h_e : U (Proc.devRef .tc main_arg11) = e) :
    after s1a U (Proc.devRef .tc main_v3)
      = Spec.rows e := by
  simp only [s1a, s1b, s1c, s2a, s2b, s3, s4, s5, s6, s7, s8, s9, s10a, s10b, s10c, s10d, s10e, seg, ops, List.drop_zero, List.drop_succ_cons, List.take_succ_cons, List.take_zero]
  after_results
  rw [h_e] <;> rfl

/-- The target list with its self-loops. -/
theorem s1a_v6 (U : Valuation τ sig (Elt Ideal)) (e : (⟨S2x1600000, .i32⟩ : BufTy).Contents (Elt Ideal))
    (h_e : U (Proc.devRef .tc main_arg11) = e) :
    after s1a U (Proc.devRef .tc main_v6)
      = Spec.cols e := by
  simp only [s1a, s1b, s1c, s2a, s2b, s3, s4, s5, s6, s7, s8, s9, s10a, s10b, s10c, s10d, s10e, seg, ops, List.drop_zero, List.drop_succ_cons, List.take_succ_cons, List.take_zero]
  after_results
  rw [h_e] <;> rfl

/-- Which nodes have a positive degree. -/
theorem s1a_v12 (U : Valuation τ sig (Elt Ideal)) (e : (⟨S2x1600000, .i32⟩ : BufTy).Contents (Elt Ideal))
    (h_e : U (Proc.devRef .tc main_arg11) = e) :
    after s1a U (Proc.devRef .tc main_v12)
      = cmpf .ogt (Spec.deg e) (broadcastInDim S100000 ![] bcast_S_S100000 (constant (F := Ideal) S_ .f32 0x00000000#32)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_e] <;> rfl

/-- The inverse square root of every degree. -/
theorem s1a_v13 (U : Valuation τ sig (Elt Ideal)) (e : (⟨S2x1600000, .i32⟩ : BufTy).Contents (Elt Ideal))
    (h_e : U (Proc.devRef .tc main_arg11) = e) :
    after s1a U (Proc.devRef .tc main_v13)
      = Spec.rsq e := by
  simp only [s1a, s1b, s1c, s2a, s2b, s3, s4, s5, s6, s7, s8, s9, s10a, s10b, s10c, s10d, s10e, seg, ops, List.drop_zero, List.drop_succ_cons, List.take_succ_cons, List.take_zero]
  after_results
  rw [h_e] <;> rfl

/-- The scalar zero the where falls back to. -/
theorem s1a_cst2 (U : Valuation τ sig (Elt Ideal))
     :
    after s1a U (Proc.devRef .tc main_cst_2)
      = constant (F := Ideal) S_ .f32 0x00000000#32 := by
  simp only [s1a, s1b, s1c, s2a, s2b, s3, s4, s5, s6, s7, s8, s9, s10a, s10b, s10c, s10d, s10e, seg, ops, List.drop_zero, List.drop_succ_cons, List.take_succ_cons, List.take_zero]
  after_results <;> rfl

/-- The outlined where: a select between its two operands and the broadcast scalar. -/
theorem s1b_v14 (U : Valuation τ sig (Elt Ideal)) (p : (⟨S100000, .i1⟩ : BufTy).Contents (Elt Ideal)) (a : FVec Ideal S100000 .f32) (z : FVec Ideal S_ .f32)
    (h_p : U (Proc.devRef .tc main_v12) = p) (h_a : U (Proc.devRef .tc main_v13) = a) (h_z : U (Proc.devRef .tc main_cst_2) = z) :
    after s1b U (Proc.devRef .tc main_v14)
      = select p a (broadcastInDim S100000 ![] bcast_S_S100000 z) := by
  simp only [s1a, s1b, s1c, s2a, s2b, s3, s4, s5, s6, s7, s8, s9, s10a, s10b, s10c, s10d, s10e, seg, ops, List.drop_zero, List.drop_succ_cons, List.take_succ_cons, List.take_zero]
  after_results
  rw [h_p, h_a, h_z] <;> rfl

/-- Every edge's weight. -/
theorem s1c_v29 (U : Valuation τ sig (Elt Ideal)) (d : FVec Ideal S100000 .f32) (r : (⟨S1700000, .i32⟩ : BufTy).Contents (Elt Ideal)) (cl : (⟨S1700000, .i32⟩ : BufTy).Contents (Elt Ideal))
    (h_d : U (Proc.devRef .tc main_v14) = d) (h_r : U (Proc.devRef .tc main_v3) = r) (h_cl : U (Proc.devRef .tc main_v6) = cl) :
    after s1c U (Proc.devRef .tc main_v29)
      = Spec.normOf d r cl := by
  simp only [s1a, s1b, s1c, s2a, s2b, s3, s4, s5, s6, s7, s8, s9, s10a, s10b, s10c, s10d, s10e, seg, ops, List.drop_zero, List.drop_succ_cons, List.take_succ_cons, List.take_zero]
  after_results_simp
  rw [h_d, h_r, h_cl] <;> rfl

/-- x · lin1_wᵀ + lin1_b. -/
theorem s2a_v34 (U : Valuation τ sig (Elt Ideal)) (x : FVec Ideal S100000x256 .f32) (w : FVec Ideal S128x256 .f32) (b : FVec Ideal S128 .f32)
    (h_x : U (Proc.devRef .tc main_arg0) = x) (h_w : U (Proc.devRef .tc main_arg1) = w) (h_b : U (Proc.devRef .tc main_arg2) = b) :
    after s2a U (Proc.devRef .tc main_v34)
      = addf (Host.dotGeneral (F := Ideal) dot_S100000x256_S256x128_S100000x128_1_0_0_1_n_n none x (transpose S256x128 [1, 0] w transposes_S128x256_S256x128_1_0)) (broadcastInDim S100000x128 ![0, 1] bcast_S1x128_S100000x128_0_1 (Spec.rowOf128 b)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_x, h_w, h_b] <;> rfl

/-- The outlined relu: a maximum with the broadcast float zero. -/
theorem s2b_v35 (U : Valuation τ sig (Elt Ideal)) (y : FVec Ideal S100000x128 .f32)
    (h_y : U (Proc.devRef .tc main_v34) = y) :
    after s2b U (Proc.devRef .tc main_v35)
      = maximumf y (broadcastInDim S100000x128 ![] bcast_S_S100000x128 (constant (F := Ideal) S_ .f32 0x00000000#32)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_y] <;> rfl

/-- The first convolution's antisymmetric weight. -/
theorem s3_v46 (U : Valuation τ sig (Elt Ideal)) (w : FVec Ideal S128x128 .f32)
    (h_w : U (Proc.devRef .tc main_arg5) = w) :
    after s3 U (Proc.devRef .tc main_v46)
      = Spec.antisym128 w := by
  simp only [s1a, s1b, s1c, s2a, s2b, s3, s4, s5, s6, s7, s8, s9, s10a, s10b, s10c, s10d, s10e, seg, ops, List.drop_zero, List.drop_succ_cons, List.take_succ_cons, List.take_zero]
  after_results
  rw [h_w] <;> rfl

/-- The first feature map. -/
theorem s3_v48 (U : Valuation τ sig (Elt Ideal)) (h : FVec Ideal S100000x128 .f32) (w : FVec Ideal S128x128 .f32)
    (h_h : U (Proc.devRef .tc main_v35) = h) (h_w : U (Proc.devRef .tc main_arg6) = w) :
    after s3 U (Proc.devRef .tc main_v48)
      = (Host.dotGeneral (F := Ideal) dot_S100000x128_S128x128_S100000x128_1_0_0_1_n_n none h (transpose S128x128 [1, 0] w transposes_S128x128_S128x128_1_0)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_h, h_w] <;> rfl

/-- The first convolution's messages, scatter-added by target. -/
theorem s4_v61 (U : Valuation τ sig (Elt Ideal)) (xw : FVec Ideal S100000x128 .f32) (nrm : FVec Ideal S1700000 .f32) (r : (⟨S1700000, .i32⟩ : BufTy).Contents (Elt Ideal)) (cl : (⟨S1700000, .i32⟩ : BufTy).Contents (Elt Ideal))
    (h_xw : U (Proc.devRef .tc main_v48) = xw) (h_nrm : U (Proc.devRef .tc main_v29) = nrm) (h_r : U (Proc.devRef .tc main_v3) = r) (h_cl : U (Proc.devRef .tc main_v6) = cl) :
    after s4 U (Proc.devRef .tc main_v61)
      = Spec.aggOf128 xw nrm r cl := by
  simp only [s1a, s1b, s1c, s2a, s2b, s3, s4, s5, s6, s7, s8, s9, s10a, s10b, s10c, s10d, s10e, seg, ops, List.drop_zero, List.drop_succ_cons, List.take_succ_cons, List.take_zero]
  after_results_simp
  rw [h_xw, h_nrm, h_r, h_cl] <;> rfl

/-- The first convolution's combine step. -/
theorem s5_v71 (U : Valuation τ sig (Elt Ideal)) (h : FVec Ideal S100000x128 .f32) (aw : FVec Ideal S128x128 .f32) (g : FVec Ideal S100000x128 .f32) (b : FVec Ideal S128 .f32)
    (h_h : U (Proc.devRef .tc main_v35) = h) (h_aw : U (Proc.devRef .tc main_v46) = aw) (h_g : U (Proc.devRef .tc main_v61) = g) (h_b : U (Proc.devRef .tc main_arg7) = b) :
    after s5 U (Proc.devRef .tc main_v71)
      = addf h (mulf (broadcastInDim S100000x128 ![] bcast_S_S100000x128 (constant (F := Ideal) S_ .f32 0x3DCCCCCD#32)) (Host.tanh (F := Ideal) (addf (addf (Host.dotGeneral (F := Ideal) dot_S100000x128_S128x128_S100000x128_1_0_0_1_n_n none h (transpose S128x128 [1, 0] aw transposes_S128x128_S128x128_1_0)) g) (broadcastInDim S100000x128 ![0, 1] bcast_S1x128_S100000x128_0_1 (Spec.rowOf128 b))))) := by
  simp only [s1a, s1b, s1c, s2a, s2b, s3, s4, s5, s6, s7, s8, s9, s10a, s10b, s10c, s10d, s10e, seg, ops, List.drop_zero, List.drop_succ_cons, List.take_succ_cons, List.take_zero]
  after_results
  rw [h_h, h_aw, h_g, h_b] <;> rfl

/-- h · lin2_wᵀ + lin2_b. -/
theorem s6_v76 (U : Valuation τ sig (Elt Ideal)) (h : FVec Ideal S100000x128 .f32) (w : FVec Ideal S32x128 .f32) (b : FVec Ideal S32 .f32)
    (h_h : U (Proc.devRef .tc main_v71) = h) (h_w : U (Proc.devRef .tc main_arg3) = w) (h_b : U (Proc.devRef .tc main_arg4) = b) :
    after s6 U (Proc.devRef .tc main_v76)
      = addf (Host.dotGeneral (F := Ideal) dot_S100000x128_S128x32_S100000x32_1_0_0_1_n_n none h (transpose S128x32 [1, 0] w transposes_S32x128_S128x32_1_0)) (broadcastInDim S100000x32 ![0, 1] bcast_S1x32_S100000x32_0_1 (Spec.rowOf32 b)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_h, h_w, h_b] <;> rfl

/-- The second convolution's antisymmetric weight. -/
theorem s7_v87 (U : Valuation τ sig (Elt Ideal)) (w : FVec Ideal S32x32 .f32)
    (h_w : U (Proc.devRef .tc main_arg8) = w) :
    after s7 U (Proc.devRef .tc main_v87)
      = Spec.antisym32 w := by
  simp only [s1a, s1b, s1c, s2a, s2b, s3, s4, s5, s6, s7, s8, s9, s10a, s10b, s10c, s10d, s10e, seg, ops, List.drop_zero, List.drop_succ_cons, List.take_succ_cons, List.take_zero]
  after_results
  rw [h_w] <;> rfl

/-- The second feature map. -/
theorem s7_v89 (U : Valuation τ sig (Elt Ideal)) (h : FVec Ideal S100000x32 .f32) (w : FVec Ideal S32x32 .f32)
    (h_h : U (Proc.devRef .tc main_v76) = h) (h_w : U (Proc.devRef .tc main_arg9) = w) :
    after s7 U (Proc.devRef .tc main_v89)
      = (Host.dotGeneral (F := Ideal) dot_S100000x32_S32x32_S100000x32_1_0_0_1_n_n none h (transpose S32x32 [1, 0] w transposes_S32x32_S32x32_1_0)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_h, h_w] <;> rfl

/-- The second convolution's messages, scatter-added by target. -/
theorem s8_v102 (U : Valuation τ sig (Elt Ideal)) (xw : FVec Ideal S100000x32 .f32) (nrm : FVec Ideal S1700000 .f32) (r : (⟨S1700000, .i32⟩ : BufTy).Contents (Elt Ideal)) (cl : (⟨S1700000, .i32⟩ : BufTy).Contents (Elt Ideal))
    (h_xw : U (Proc.devRef .tc main_v89) = xw) (h_nrm : U (Proc.devRef .tc main_v29) = nrm) (h_r : U (Proc.devRef .tc main_v3) = r) (h_cl : U (Proc.devRef .tc main_v6) = cl) :
    after s8 U (Proc.devRef .tc main_v102)
      = Spec.aggOf32 xw nrm r cl := by
  simp only [s1a, s1b, s1c, s2a, s2b, s3, s4, s5, s6, s7, s8, s9, s10a, s10b, s10c, s10d, s10e, seg, ops, List.drop_zero, List.drop_succ_cons, List.take_succ_cons, List.take_zero]
  after_results_simp
  rw [h_xw, h_nrm, h_r, h_cl] <;> rfl

/-- The second convolution's combine step. -/
theorem s9_v112 (U : Valuation τ sig (Elt Ideal)) (h : FVec Ideal S100000x32 .f32) (aw : FVec Ideal S32x32 .f32) (g : FVec Ideal S100000x32 .f32) (b : FVec Ideal S32 .f32)
    (h_h : U (Proc.devRef .tc main_v76) = h) (h_aw : U (Proc.devRef .tc main_v87) = aw) (h_g : U (Proc.devRef .tc main_v102) = g) (h_b : U (Proc.devRef .tc main_arg10) = b) :
    after s9 U (Proc.devRef .tc main_v112)
      = addf h (mulf (broadcastInDim S100000x32 ![] bcast_S_S100000x32 (constant (F := Ideal) S_ .f32 0x3DCCCCCD#32)) (Host.tanh (F := Ideal) (addf (addf (Host.dotGeneral (F := Ideal) dot_S100000x32_S32x32_S100000x32_1_0_0_1_n_n none h (transpose S32x32 [1, 0] aw transposes_S32x32_S32x32_1_0)) g) (broadcastInDim S100000x32 ![0, 1] bcast_S1x32_S100000x32_0_1 (Spec.rowOf32 b))))) := by
  simp only [s1a, s1b, s1c, s2a, s2b, s3, s4, s5, s6, s7, s8, s9, s10a, s10b, s10c, s10d, s10e, seg, ops, List.drop_zero, List.drop_succ_cons, List.take_succ_cons, List.take_zero]
  after_results
  rw [h_h, h_aw, h_g, h_b] <;> rfl

/-- The outlined log-softmax, first step: every row's maximum from −∞. The fold over the row is kept as one opaque
    function of the two operands while the transports along the buffers' types are removed. -/
theorem s10a_rowmax (U : Valuation τ sig (Elt Ideal)) (a : FVec Ideal S100000x32 .f32)
    (h_a : U (Proc.devRef .tc main_v112) = a) :
    after s10a U (Proc.devRef .tc main_call2_v0)
      = Host.reduce FloatOps.maximumf a (constant (F := Ideal) S_ .f32 0xFF800000#32) reducesTo_S100000x32_S100000_d1 h_S_ := by
  simp only [s1a, s1b, s1c, s2a, s2b, s3, s4, s5, s6, s7, s8, s9, s10a, s10b, s10c, s10d, s10e, seg, ops, List.drop_zero, List.drop_succ_cons, List.take_succ_cons, List.take_zero]
  after_results
  rw [h_a]
  generalize hg : (fun (x : FVec Ideal S100000x32 .f32) (v : FVec Ideal S_ .f32) =>
    Host.reduce (t := S100000) FloatOps.maximumf x v reducesTo_S100000x32_S100000_d1 h_S_) = g
  have e : Host.reduce FloatOps.maximumf a (constant (F := Ideal) S_ .f32 0xFF800000#32) reducesTo_S100000x32_S100000_d1 h_S_ = g a (constant (F := Ideal) S_ .f32 0xFF800000#32) := by
    rw [← hg]
  rw [e]
  rfl

/-- … taken once more against −∞. -/
theorem s10b_max (U : Valuation τ sig (Elt Ideal)) (r : FVec Ideal S100000 .f32)
    (h_r : U (Proc.devRef .tc main_call2_v0) = r) :
    after s10b U (Proc.devRef .tc main_call2_v2)
      = maximumf (broadcastInDim S100000 ![] bcast_S_S100000 (constant (F := Ideal) S_ .f32 0xFF800000#32)) r := by
  simp only [s1a, s1b, s1c, s2a, s2b, s3, s4, s5, s6, s7, s8, s9, s10a, s10b, s10c, s10d, s10e, seg, ops, List.drop_zero, List.drop_succ_cons, List.take_succ_cons, List.take_zero]
  after_results
  rw [h_r] <;> rfl

/-- … the rows shifted by their maxima. -/
theorem s10c_shift (U : Valuation τ sig (Elt Ideal)) (a : FVec Ideal S100000x32 .f32) (mx : FVec Ideal S100000 .f32)
    (h_a : U (Proc.devRef .tc main_v112) = a) (h_mx : U (Proc.devRef .tc main_call2_v2) = mx) :
    after s10c U (Proc.devRef .tc main_call2_v5)
      = subf a (broadcastInDim S100000x32 ![0, 1] bcast_S100000x1_S100000x32_0_1 (broadcastInDim S100000x1 ![0] bcast_S100000_S100000x1_0 mx)) := by
  simp only [s1a, s1b, s1c, s2a, s2b, s3, s4, s5, s6, s7, s8, s9, s10a, s10b, s10c, s10d, s10e, seg, ops, List.drop_zero, List.drop_succ_cons, List.take_succ_cons, List.take_zero]
  after_results
  rw [h_a, h_mx] <;> rfl

/-- … every shifted row's sum of exponentials. -/
theorem s10d_sum (U : Valuation τ sig (Elt Ideal)) (z : FVec Ideal S100000x32 .f32)
    (h_z : U (Proc.devRef .tc main_call2_v5) = z) :
    after s10d U (Proc.devRef .tc main_call2_v7)
      = Host.reduceAdd (F := Ideal) (Host.exp (F := Ideal) z) (constant (F := Ideal) S_ .f32 0x00000000#32) reducesTo_S100000x32_S100000_d1 h_S_ := by
  simp only [s1a, s1b, s1c, s2a, s2b, s3, s4, s5, s6, s7, s8, s9, s10a, s10b, s10c, s10d, s10e, seg, ops, List.drop_zero, List.drop_succ_cons, List.take_succ_cons, List.take_zero]
  after_results
  rw [h_z] <;> rfl

/-- … and the shifted rows less the logarithms of those sums. -/
theorem s10e_v113 (U : Valuation τ sig (Elt Ideal)) (z : FVec Ideal S100000x32 .f32) (s : FVec Ideal S100000 .f32)
    (h_z : U (Proc.devRef .tc main_call2_v5) = z) (h_s : U (Proc.devRef .tc main_call2_v7) = s) :
    after s10e U (Proc.devRef .tc main_v113)
      = subf z (broadcastInDim S100000x32 ![0, 1] bcast_S100000x1_S100000x32_0_1 (Host.log (F := Ideal) (broadcastInDim S100000x1 ![0] bcast_S100000_S100000x1_0 s))) := by
  simp only [s1a, s1b, s1c, s2a, s2b, s3, s4, s5, s6, s7, s8, s9, s10a, s10b, s10c, s10d, s10e, seg, ops, List.drop_zero, List.drop_succ_cons, List.take_succ_cons, List.take_zero]
  after_results
  rw [h_z, h_s] <;> rfl

/-! ## The stretches composed from the launch contents -/

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)

/-- The buffer contents at each boundary between stretches, from the launch contents. -/
def X0 : Valuation τ sig (Elt Ideal) := launchContents m c
def X1 : Valuation τ sig (Elt Ideal) := after s1a (X0 m c)
def X2 : Valuation τ sig (Elt Ideal) := after s1b (X1 m c)
def X3 : Valuation τ sig (Elt Ideal) := after s1c (X2 m c)
def X4 : Valuation τ sig (Elt Ideal) := after s2a (X3 m c)
def X5 : Valuation τ sig (Elt Ideal) := after s2b (X4 m c)
def X6 : Valuation τ sig (Elt Ideal) := after s3 (X5 m c)
def X7 : Valuation τ sig (Elt Ideal) := after s4 (X6 m c)
def X8 : Valuation τ sig (Elt Ideal) := after s5 (X7 m c)
def X9 : Valuation τ sig (Elt Ideal) := after s6 (X8 m c)
def X10 : Valuation τ sig (Elt Ideal) := after s7 (X9 m c)
def X11 : Valuation τ sig (Elt Ideal) := after s8 (X10 m c)
def X12 : Valuation τ sig (Elt Ideal) := after s9 (X11 m c)
def X13 : Valuation τ sig (Elt Ideal) := after s10a (X12 m c)
def X14 : Valuation τ sig (Elt Ideal) := after s10b (X13 m c)
def X15 : Valuation τ sig (Elt Ideal) := after s10c (X14 m c)
def X16 : Valuation τ sig (Elt Ideal) := after s10d (X15 m c)
def X17 : Valuation τ sig (Elt Ideal) := after s10e (X16 m c)

/-- The whole fold is the last boundary's contents. -/
theorem fold_eq : after (ops (F := Ideal)) (launchContents m c) = X17 m c := by
  rw [ops_split]
  simp only [after_append]
  rfl

theorem x0_arg11 : X0 m c (Proc.devRef .tc main_arg11) = A11 := rfl
theorem x1_v3 : X1 m c (Proc.devRef .tc main_v3) = Spec.rows A11 := s1a_v3 (X0 m c) _ (x0_arg11 m c)
theorem x1_v6 : X1 m c (Proc.devRef .tc main_v6) = Spec.cols A11 := s1a_v6 (X0 m c) _ (x0_arg11 m c)
theorem x1_v12 : X1 m c (Proc.devRef .tc main_v12) = cmpf .ogt (Spec.deg A11) (broadcastInDim S100000 ![] bcast_S_S100000 (constant (F := Ideal) S_ .f32 0x00000000#32)) := s1a_v12 (X0 m c) _ (x0_arg11 m c)
theorem x1_v13 : X1 m c (Proc.devRef .tc main_v13) = Spec.rsq A11 := s1a_v13 (X0 m c) _ (x0_arg11 m c)
theorem x1_cst2 : X1 m c (Proc.devRef .tc main_cst_2) = constant (F := Ideal) S_ .f32 0x00000000#32 := s1a_cst2 (X0 m c)
theorem x2_v14 : X2 m c (Proc.devRef .tc main_v14) = Spec.dinv A11 := s1b_v14 (X1 m c) _ _ _ (x1_v12 m c) (x1_v13 m c) (x1_cst2 m c)
theorem x2_v3 : X2 m c (Proc.devRef .tc main_v3) = Spec.rows A11 :=
  calc X2 m c (Proc.devRef .tc main_v3)
    _ = X1 m c (Proc.devRef .tc main_v3) := s1b_keeps (X1 m c) main_v3 (by decide)
    _ = Spec.rows A11 := x1_v3 m c

theorem x2_v6 : X2 m c (Proc.devRef .tc main_v6) = Spec.cols A11 :=
  calc X2 m c (Proc.devRef .tc main_v6)
    _ = X1 m c (Proc.devRef .tc main_v6) := s1b_keeps (X1 m c) main_v6 (by decide)
    _ = Spec.cols A11 := x1_v6 m c

theorem x3_v29 : X3 m c (Proc.devRef .tc main_v29) = Spec.norm A11 := s1c_v29 (X2 m c) _ _ _ (x2_v14 m c) (x2_v3 m c) (x2_v6 m c)
theorem x3_arg0 : X3 m c (Proc.devRef .tc main_arg0) = A0 :=
  calc X3 m c (Proc.devRef .tc main_arg0)
    _ = X2 m c (Proc.devRef .tc main_arg0) := s1c_keeps (X2 m c) main_arg0 (by decide)
    _ = X1 m c (Proc.devRef .tc main_arg0) := s1b_keeps (X1 m c) main_arg0 (by decide)
    _ = X0 m c (Proc.devRef .tc main_arg0) := s1a_keeps (X0 m c) main_arg0 (by decide)
    _ = A0 := rfl

theorem x3_arg1 : X3 m c (Proc.devRef .tc main_arg1) = A1 :=
  calc X3 m c (Proc.devRef .tc main_arg1)
    _ = X2 m c (Proc.devRef .tc main_arg1) := s1c_keeps (X2 m c) main_arg1 (by decide)
    _ = X1 m c (Proc.devRef .tc main_arg1) := s1b_keeps (X1 m c) main_arg1 (by decide)
    _ = X0 m c (Proc.devRef .tc main_arg1) := s1a_keeps (X0 m c) main_arg1 (by decide)
    _ = A1 := rfl

theorem x3_arg2 : X3 m c (Proc.devRef .tc main_arg2) = A2 :=
  calc X3 m c (Proc.devRef .tc main_arg2)
    _ = X2 m c (Proc.devRef .tc main_arg2) := s1c_keeps (X2 m c) main_arg2 (by decide)
    _ = X1 m c (Proc.devRef .tc main_arg2) := s1b_keeps (X1 m c) main_arg2 (by decide)
    _ = X0 m c (Proc.devRef .tc main_arg2) := s1a_keeps (X0 m c) main_arg2 (by decide)
    _ = A2 := rfl

/-- The first dense layer. -/
theorem x5_v35 : X5 m c (Proc.devRef .tc main_v35) = Spec.h1 A0 A1 A2 :=
  (s2b_v35 (X4 m c) _ (s2a_v34 (X3 m c) _ _ _ (x3_arg0 m c) (x3_arg1 m c) (x3_arg2 m c))).trans (Net.host_affineRelu _ rfl (by decide) _ _ _ _ _)
theorem x5_arg5 : X5 m c (Proc.devRef .tc main_arg5) = A5 :=
  calc X5 m c (Proc.devRef .tc main_arg5)
    _ = X4 m c (Proc.devRef .tc main_arg5) := s2b_keeps (X4 m c) main_arg5 (by decide)
    _ = X3 m c (Proc.devRef .tc main_arg5) := s2a_keeps (X3 m c) main_arg5 (by decide)
    _ = X2 m c (Proc.devRef .tc main_arg5) := s1c_keeps (X2 m c) main_arg5 (by decide)
    _ = X1 m c (Proc.devRef .tc main_arg5) := s1b_keeps (X1 m c) main_arg5 (by decide)
    _ = X0 m c (Proc.devRef .tc main_arg5) := s1a_keeps (X0 m c) main_arg5 (by decide)
    _ = A5 := rfl

theorem x5_arg6 : X5 m c (Proc.devRef .tc main_arg6) = A6 :=
  calc X5 m c (Proc.devRef .tc main_arg6)
    _ = X4 m c (Proc.devRef .tc main_arg6) := s2b_keeps (X4 m c) main_arg6 (by decide)
    _ = X3 m c (Proc.devRef .tc main_arg6) := s2a_keeps (X3 m c) main_arg6 (by decide)
    _ = X2 m c (Proc.devRef .tc main_arg6) := s1c_keeps (X2 m c) main_arg6 (by decide)
    _ = X1 m c (Proc.devRef .tc main_arg6) := s1b_keeps (X1 m c) main_arg6 (by decide)
    _ = X0 m c (Proc.devRef .tc main_arg6) := s1a_keeps (X0 m c) main_arg6 (by decide)
    _ = A6 := rfl

theorem x6_v46 : X6 m c (Proc.devRef .tc main_v46) = Spec.antisym128 A5 := s3_v46 (X5 m c) _ (x5_arg5 m c)
/-- The first feature map. -/
theorem x6_v48 : X6 m c (Proc.devRef .tc main_v48) = Spec.xw1 A0 A1 A2 A6 :=
  (s3_v48 (X5 m c) _ _ (x5_v35 m c) (x5_arg6 m c)).trans (Net.host_product _ rfl _ _)
theorem x6_v3 : X6 m c (Proc.devRef .tc main_v3) = Spec.rows A11 :=
  calc X6 m c (Proc.devRef .tc main_v3)
    _ = X5 m c (Proc.devRef .tc main_v3) := s3_keeps (X5 m c) main_v3 (by decide)
    _ = X4 m c (Proc.devRef .tc main_v3) := s2b_keeps (X4 m c) main_v3 (by decide)
    _ = X3 m c (Proc.devRef .tc main_v3) := s2a_keeps (X3 m c) main_v3 (by decide)
    _ = X2 m c (Proc.devRef .tc main_v3) := s1c_keeps (X2 m c) main_v3 (by decide)
    _ = Spec.rows A11 := x2_v3 m c

theorem x6_v6 : X6 m c (Proc.devRef .tc main_v6) = Spec.cols A11 :=
  calc X6 m c (Proc.devRef .tc main_v6)
    _ = X5 m c (Proc.devRef .tc main_v6) := s3_keeps (X5 m c) main_v6 (by decide)
    _ = X4 m c (Proc.devRef .tc main_v6) := s2b_keeps (X4 m c) main_v6 (by decide)
    _ = X3 m c (Proc.devRef .tc main_v6) := s2a_keeps (X3 m c) main_v6 (by decide)
    _ = X2 m c (Proc.devRef .tc main_v6) := s1c_keeps (X2 m c) main_v6 (by decide)
    _ = Spec.cols A11 := x2_v6 m c

theorem x6_v29 : X6 m c (Proc.devRef .tc main_v29) = Spec.norm A11 :=
  calc X6 m c (Proc.devRef .tc main_v29)
    _ = X5 m c (Proc.devRef .tc main_v29) := s3_keeps (X5 m c) main_v29 (by decide)
    _ = X4 m c (Proc.devRef .tc main_v29) := s2b_keeps (X4 m c) main_v29 (by decide)
    _ = X3 m c (Proc.devRef .tc main_v29) := s2a_keeps (X3 m c) main_v29 (by decide)
    _ = Spec.norm A11 := x3_v29 m c

theorem x7_v61 : X7 m c (Proc.devRef .tc main_v61) = Spec.agg128 (Spec.xw1 A0 A1 A2 A6) A11 := s4_v61 (X6 m c) _ _ _ _ (x6_v48 m c) (x6_v29 m c) (x6_v3 m c) (x6_v6 m c)
theorem x7_v35 : X7 m c (Proc.devRef .tc main_v35) = Spec.h1 A0 A1 A2 :=
  calc X7 m c (Proc.devRef .tc main_v35)
    _ = X6 m c (Proc.devRef .tc main_v35) := s4_keeps (X6 m c) main_v35 (by decide)
    _ = X5 m c (Proc.devRef .tc main_v35) := s3_keeps (X5 m c) main_v35 (by decide)
    _ = Spec.h1 A0 A1 A2 := x5_v35 m c

theorem x7_v46 : X7 m c (Proc.devRef .tc main_v46) = Spec.antisym128 A5 :=
  calc X7 m c (Proc.devRef .tc main_v46)
    _ = X6 m c (Proc.devRef .tc main_v46) := s4_keeps (X6 m c) main_v46 (by decide)
    _ = Spec.antisym128 A5 := x6_v46 m c

theorem x7_arg7 : X7 m c (Proc.devRef .tc main_arg7) = A7 :=
  calc X7 m c (Proc.devRef .tc main_arg7)
    _ = X6 m c (Proc.devRef .tc main_arg7) := s4_keeps (X6 m c) main_arg7 (by decide)
    _ = X5 m c (Proc.devRef .tc main_arg7) := s3_keeps (X5 m c) main_arg7 (by decide)
    _ = X4 m c (Proc.devRef .tc main_arg7) := s2b_keeps (X4 m c) main_arg7 (by decide)
    _ = X3 m c (Proc.devRef .tc main_arg7) := s2a_keeps (X3 m c) main_arg7 (by decide)
    _ = X2 m c (Proc.devRef .tc main_arg7) := s1c_keeps (X2 m c) main_arg7 (by decide)
    _ = X1 m c (Proc.devRef .tc main_arg7) := s1b_keeps (X1 m c) main_arg7 (by decide)
    _ = X0 m c (Proc.devRef .tc main_arg7) := s1a_keeps (X0 m c) main_arg7 (by decide)
    _ = A7 := rfl

/-- The first convolution. -/
theorem x8_v71 : X8 m c (Proc.devRef .tc main_v71) = Spec.h2 A0 A1 A2 A5 A6 A7 A11 :=
  (s5_v71 (X7 m c) _ _ _ _ (x7_v35 m c) (x7_v46 m c) (x7_v61 m c) (x7_arg7 m c)).trans (Net.host_combine _ rfl (by decide) _ _ _ _ _ _)
theorem x8_arg3 : X8 m c (Proc.devRef .tc main_arg3) = A3 :=
  calc X8 m c (Proc.devRef .tc main_arg3)
    _ = X7 m c (Proc.devRef .tc main_arg3) := s5_keeps (X7 m c) main_arg3 (by decide)
    _ = X6 m c (Proc.devRef .tc main_arg3) := s4_keeps (X6 m c) main_arg3 (by decide)
    _ = X5 m c (Proc.devRef .tc main_arg3) := s3_keeps (X5 m c) main_arg3 (by decide)
    _ = X4 m c (Proc.devRef .tc main_arg3) := s2b_keeps (X4 m c) main_arg3 (by decide)
    _ = X3 m c (Proc.devRef .tc main_arg3) := s2a_keeps (X3 m c) main_arg3 (by decide)
    _ = X2 m c (Proc.devRef .tc main_arg3) := s1c_keeps (X2 m c) main_arg3 (by decide)
    _ = X1 m c (Proc.devRef .tc main_arg3) := s1b_keeps (X1 m c) main_arg3 (by decide)
    _ = X0 m c (Proc.devRef .tc main_arg3) := s1a_keeps (X0 m c) main_arg3 (by decide)
    _ = A3 := rfl

theorem x8_arg4 : X8 m c (Proc.devRef .tc main_arg4) = A4 :=
  calc X8 m c (Proc.devRef .tc main_arg4)
    _ = X7 m c (Proc.devRef .tc main_arg4) := s5_keeps (X7 m c) main_arg4 (by decide)
    _ = X6 m c (Proc.devRef .tc main_arg4) := s4_keeps (X6 m c) main_arg4 (by decide)
    _ = X5 m c (Proc.devRef .tc main_arg4) := s3_keeps (X5 m c) main_arg4 (by decide)
    _ = X4 m c (Proc.devRef .tc main_arg4) := s2b_keeps (X4 m c) main_arg4 (by decide)
    _ = X3 m c (Proc.devRef .tc main_arg4) := s2a_keeps (X3 m c) main_arg4 (by decide)
    _ = X2 m c (Proc.devRef .tc main_arg4) := s1c_keeps (X2 m c) main_arg4 (by decide)
    _ = X1 m c (Proc.devRef .tc main_arg4) := s1b_keeps (X1 m c) main_arg4 (by decide)
    _ = X0 m c (Proc.devRef .tc main_arg4) := s1a_keeps (X0 m c) main_arg4 (by decide)
    _ = A4 := rfl

/-- The second dense layer. -/
theorem x9_v76 : X9 m c (Proc.devRef .tc main_v76) = Spec.h3 A0 A1 A2 A3 A4 A5 A6 A7 A11 :=
  (s6_v76 (X8 m c) _ _ _ (x8_v71 m c) (x8_arg3 m c) (x8_arg4 m c)).trans (Net.host_affine _ rfl (by decide) _ _ _ _)
theorem x9_arg8 : X9 m c (Proc.devRef .tc main_arg8) = A8 :=
  calc X9 m c (Proc.devRef .tc main_arg8)
    _ = X8 m c (Proc.devRef .tc main_arg8) := s6_keeps (X8 m c) main_arg8 (by decide)
    _ = X7 m c (Proc.devRef .tc main_arg8) := s5_keeps (X7 m c) main_arg8 (by decide)
    _ = X6 m c (Proc.devRef .tc main_arg8) := s4_keeps (X6 m c) main_arg8 (by decide)
    _ = X5 m c (Proc.devRef .tc main_arg8) := s3_keeps (X5 m c) main_arg8 (by decide)
    _ = X4 m c (Proc.devRef .tc main_arg8) := s2b_keeps (X4 m c) main_arg8 (by decide)
    _ = X3 m c (Proc.devRef .tc main_arg8) := s2a_keeps (X3 m c) main_arg8 (by decide)
    _ = X2 m c (Proc.devRef .tc main_arg8) := s1c_keeps (X2 m c) main_arg8 (by decide)
    _ = X1 m c (Proc.devRef .tc main_arg8) := s1b_keeps (X1 m c) main_arg8 (by decide)
    _ = X0 m c (Proc.devRef .tc main_arg8) := s1a_keeps (X0 m c) main_arg8 (by decide)
    _ = A8 := rfl

theorem x9_arg9 : X9 m c (Proc.devRef .tc main_arg9) = A9 :=
  calc X9 m c (Proc.devRef .tc main_arg9)
    _ = X8 m c (Proc.devRef .tc main_arg9) := s6_keeps (X8 m c) main_arg9 (by decide)
    _ = X7 m c (Proc.devRef .tc main_arg9) := s5_keeps (X7 m c) main_arg9 (by decide)
    _ = X6 m c (Proc.devRef .tc main_arg9) := s4_keeps (X6 m c) main_arg9 (by decide)
    _ = X5 m c (Proc.devRef .tc main_arg9) := s3_keeps (X5 m c) main_arg9 (by decide)
    _ = X4 m c (Proc.devRef .tc main_arg9) := s2b_keeps (X4 m c) main_arg9 (by decide)
    _ = X3 m c (Proc.devRef .tc main_arg9) := s2a_keeps (X3 m c) main_arg9 (by decide)
    _ = X2 m c (Proc.devRef .tc main_arg9) := s1c_keeps (X2 m c) main_arg9 (by decide)
    _ = X1 m c (Proc.devRef .tc main_arg9) := s1b_keeps (X1 m c) main_arg9 (by decide)
    _ = X0 m c (Proc.devRef .tc main_arg9) := s1a_keeps (X0 m c) main_arg9 (by decide)
    _ = A9 := rfl

theorem x10_v87 : X10 m c (Proc.devRef .tc main_v87) = Spec.antisym32 A8 := s7_v87 (X9 m c) _ (x9_arg8 m c)
/-- The second feature map. -/
theorem x10_v89 : X10 m c (Proc.devRef .tc main_v89) = Spec.xw2 A0 A1 A2 A3 A4 A5 A6 A7 A9 A11 :=
  (s7_v89 (X9 m c) _ _ (x9_v76 m c) (x9_arg9 m c)).trans (Net.host_product _ rfl _ _)
theorem x10_v3 : X10 m c (Proc.devRef .tc main_v3) = Spec.rows A11 :=
  calc X10 m c (Proc.devRef .tc main_v3)
    _ = X9 m c (Proc.devRef .tc main_v3) := s7_keeps (X9 m c) main_v3 (by decide)
    _ = X8 m c (Proc.devRef .tc main_v3) := s6_keeps (X8 m c) main_v3 (by decide)
    _ = X7 m c (Proc.devRef .tc main_v3) := s5_keeps (X7 m c) main_v3 (by decide)
    _ = X6 m c (Proc.devRef .tc main_v3) := s4_keeps (X6 m c) main_v3 (by decide)
    _ = Spec.rows A11 := x6_v3 m c

theorem x10_v6 : X10 m c (Proc.devRef .tc main_v6) = Spec.cols A11 :=
  calc X10 m c (Proc.devRef .tc main_v6)
    _ = X9 m c (Proc.devRef .tc main_v6) := s7_keeps (X9 m c) main_v6 (by decide)
    _ = X8 m c (Proc.devRef .tc main_v6) := s6_keeps (X8 m c) main_v6 (by decide)
    _ = X7 m c (Proc.devRef .tc main_v6) := s5_keeps (X7 m c) main_v6 (by decide)
    _ = X6 m c (Proc.devRef .tc main_v6) := s4_keeps (X6 m c) main_v6 (by decide)
    _ = Spec.cols A11 := x6_v6 m c

theorem x10_v29 : X10 m c (Proc.devRef .tc main_v29) = Spec.norm A11 :=
  calc X10 m c (Proc.devRef .tc main_v29)
    _ = X9 m c (Proc.devRef .tc main_v29) := s7_keeps (X9 m c) main_v29 (by decide)
    _ = X8 m c (Proc.devRef .tc main_v29) := s6_keeps (X8 m c) main_v29 (by decide)
    _ = X7 m c (Proc.devRef .tc main_v29) := s5_keeps (X7 m c) main_v29 (by decide)
    _ = X6 m c (Proc.devRef .tc main_v29) := s4_keeps (X6 m c) main_v29 (by decide)
    _ = Spec.norm A11 := x6_v29 m c

theorem x10_v76 : X10 m c (Proc.devRef .tc main_v76) = Spec.h3 A0 A1 A2 A3 A4 A5 A6 A7 A11 :=
  calc X10 m c (Proc.devRef .tc main_v76)
    _ = X9 m c (Proc.devRef .tc main_v76) := s7_keeps (X9 m c) main_v76 (by decide)
    _ = Spec.h3 A0 A1 A2 A3 A4 A5 A6 A7 A11 := x9_v76 m c

theorem x11_v102 : X11 m c (Proc.devRef .tc main_v102) = Spec.agg32 (Spec.xw2 A0 A1 A2 A3 A4 A5 A6 A7 A9 A11) A11 := s8_v102 (X10 m c) _ _ _ _ (x10_v89 m c) (x10_v29 m c) (x10_v3 m c) (x10_v6 m c)
theorem x11_v76 : X11 m c (Proc.devRef .tc main_v76) = Spec.h3 A0 A1 A2 A3 A4 A5 A6 A7 A11 :=
  calc X11 m c (Proc.devRef .tc main_v76)
    _ = X10 m c (Proc.devRef .tc main_v76) := s8_keeps (X10 m c) main_v76 (by decide)
    _ = Spec.h3 A0 A1 A2 A3 A4 A5 A6 A7 A11 := x10_v76 m c

theorem x11_v87 : X11 m c (Proc.devRef .tc main_v87) = Spec.antisym32 A8 :=
  calc X11 m c (Proc.devRef .tc main_v87)
    _ = X10 m c (Proc.devRef .tc main_v87) := s8_keeps (X10 m c) main_v87 (by decide)
    _ = Spec.antisym32 A8 := x10_v87 m c

theorem x11_arg10 : X11 m c (Proc.devRef .tc main_arg10) = A10 :=
  calc X11 m c (Proc.devRef .tc main_arg10)
    _ = X10 m c (Proc.devRef .tc main_arg10) := s8_keeps (X10 m c) main_arg10 (by decide)
    _ = X9 m c (Proc.devRef .tc main_arg10) := s7_keeps (X9 m c) main_arg10 (by decide)
    _ = X8 m c (Proc.devRef .tc main_arg10) := s6_keeps (X8 m c) main_arg10 (by decide)
    _ = X7 m c (Proc.devRef .tc main_arg10) := s5_keeps (X7 m c) main_arg10 (by decide)
    _ = X6 m c (Proc.devRef .tc main_arg10) := s4_keeps (X6 m c) main_arg10 (by decide)
    _ = X5 m c (Proc.devRef .tc main_arg10) := s3_keeps (X5 m c) main_arg10 (by decide)
    _ = X4 m c (Proc.devRef .tc main_arg10) := s2b_keeps (X4 m c) main_arg10 (by decide)
    _ = X3 m c (Proc.devRef .tc main_arg10) := s2a_keeps (X3 m c) main_arg10 (by decide)
    _ = X2 m c (Proc.devRef .tc main_arg10) := s1c_keeps (X2 m c) main_arg10 (by decide)
    _ = X1 m c (Proc.devRef .tc main_arg10) := s1b_keeps (X1 m c) main_arg10 (by decide)
    _ = X0 m c (Proc.devRef .tc main_arg10) := s1a_keeps (X0 m c) main_arg10 (by decide)
    _ = A10 := rfl

/-- The second convolution. -/
theorem x12_v112 : X12 m c (Proc.devRef .tc main_v112) = Spec.h4 A0 A1 A2 A3 A4 A5 A6 A7 A8 A9 A10 A11 :=
  (s9_v112 (X11 m c) _ _ _ _ (x11_v76 m c) (x11_v87 m c) (x11_v102 m c) (x11_arg10 m c)).trans (Net.host_combine _ rfl (by decide) _ _ _ _ _ _)
theorem x14_v112 : X14 m c (Proc.devRef .tc main_v112) = Spec.h4 A0 A1 A2 A3 A4 A5 A6 A7 A8 A9 A10 A11 :=
  calc X14 m c (Proc.devRef .tc main_v112)
    _ = X13 m c (Proc.devRef .tc main_v112) := s10b_keeps (X13 m c) main_v112 (by decide)
    _ = X12 m c (Proc.devRef .tc main_v112) := s10a_keeps (X12 m c) main_v112 (by decide)
    _ = Spec.h4 A0 A1 A2 A3 A4 A5 A6 A7 A8 A9 A10 A11 := x12_v112 m c

theorem x13_rowmax : X13 m c (Proc.devRef .tc main_call2_v0) = (Host.reduce FloatOps.maximumf (Spec.h4 A0 A1 A2 A3 A4 A5 A6 A7 A8 A9 A10 A11) (constant (F := Ideal) S_ .f32 0xFF800000#32) reducesTo_S100000x32_S100000_d1 h_S_) := s10a_rowmax (X12 m c) _ (x12_v112 m c)
theorem x14_max : X14 m c (Proc.devRef .tc main_call2_v2) = (maximumf (broadcastInDim S100000 ![] bcast_S_S100000 (constant (F := Ideal) S_ .f32 0xFF800000#32)) (Host.reduce FloatOps.maximumf (Spec.h4 A0 A1 A2 A3 A4 A5 A6 A7 A8 A9 A10 A11) (constant (F := Ideal) S_ .f32 0xFF800000#32) reducesTo_S100000x32_S100000_d1 h_S_)) := s10b_max (X13 m c) _ (x13_rowmax m c)
theorem x15_shift : X15 m c (Proc.devRef .tc main_call2_v5) = (subf (Spec.h4 A0 A1 A2 A3 A4 A5 A6 A7 A8 A9 A10 A11) (broadcastInDim S100000x32 ![0, 1] bcast_S100000x1_S100000x32_0_1 (broadcastInDim S100000x1 ![0] bcast_S100000_S100000x1_0 (maximumf (broadcastInDim S100000 ![] bcast_S_S100000 (constant (F := Ideal) S_ .f32 0xFF800000#32)) (Host.reduce FloatOps.maximumf (Spec.h4 A0 A1 A2 A3 A4 A5 A6 A7 A8 A9 A10 A11) (constant (F := Ideal) S_ .f32 0xFF800000#32) reducesTo_S100000x32_S100000_d1 h_S_))))) := s10c_shift (X14 m c) _ _ (x14_v112 m c) (x14_max m c)
theorem x16_sum : X16 m c (Proc.devRef .tc main_call2_v7) = (Host.reduceAdd (F := Ideal) (Host.exp (F := Ideal) (subf (Spec.h4 A0 A1 A2 A3 A4 A5 A6 A7 A8 A9 A10 A11) (broadcastInDim S100000x32 ![0, 1] bcast_S100000x1_S100000x32_0_1 (broadcastInDim S100000x1 ![0] bcast_S100000_S100000x1_0 (maximumf (broadcastInDim S100000 ![] bcast_S_S100000 (constant (F := Ideal) S_ .f32 0xFF800000#32)) (Host.reduce FloatOps.maximumf (Spec.h4 A0 A1 A2 A3 A4 A5 A6 A7 A8 A9 A10 A11) (constant (F := Ideal) S_ .f32 0xFF800000#32) reducesTo_S100000x32_S100000_d1 h_S_)))))) (constant (F := Ideal) S_ .f32 0x00000000#32) reducesTo_S100000x32_S100000_d1 h_S_) := s10d_sum (X15 m c) _ (x15_shift m c)
theorem x16_shift : X16 m c (Proc.devRef .tc main_call2_v5) = (subf (Spec.h4 A0 A1 A2 A3 A4 A5 A6 A7 A8 A9 A10 A11) (broadcastInDim S100000x32 ![0, 1] bcast_S100000x1_S100000x32_0_1 (broadcastInDim S100000x1 ![0] bcast_S100000_S100000x1_0 (maximumf (broadcastInDim S100000 ![] bcast_S_S100000 (constant (F := Ideal) S_ .f32 0xFF800000#32)) (Host.reduce FloatOps.maximumf (Spec.h4 A0 A1 A2 A3 A4 A5 A6 A7 A8 A9 A10 A11) (constant (F := Ideal) S_ .f32 0xFF800000#32) reducesTo_S100000x32_S100000_d1 h_S_))))) :=
  calc X16 m c (Proc.devRef .tc main_call2_v5)
    _ = X15 m c (Proc.devRef .tc main_call2_v5) := s10d_keeps (X15 m c) main_call2_v5 (by decide)
    _ = (subf (Spec.h4 A0 A1 A2 A3 A4 A5 A6 A7 A8 A9 A10 A11) (broadcastInDim S100000x32 ![0, 1] bcast_S100000x1_S100000x32_0_1 (broadcastInDim S100000x1 ![0] bcast_S100000_S100000x1_0 (maximumf (broadcastInDim S100000 ![] bcast_S_S100000 (constant (F := Ideal) S_ .f32 0xFF800000#32)) (Host.reduce FloatOps.maximumf (Spec.h4 A0 A1 A2 A3 A4 A5 A6 A7 A8 A9 A10 A11) (constant (F := Ideal) S_ .f32 0xFF800000#32) reducesTo_S100000x32_S100000_d1 h_S_))))) := x15_shift m c

/-- The result buffer holds the network's output. -/
theorem x17_v113 : X17 m c (Proc.devRef .tc main_v113) = Spec.out A0 A1 A2 A3 A4 A5 A6 A7 A8 A9 A10 A11 :=
  (s10e_v113 (X16 m c) _ _ (x16_shift m c) (x16_sum m c)).trans (Net.host_logSoftmax _ _ _ _ _ _)

/-- The reference program's fold at its result buffer is the network's output of the arguments. -/
theorem result : after (ops (F := Ideal)) (launchContents m c) (Proc.devRef .tc main_v113) = Spec.out A0 A1 A2 A3 A4 A5 A6 A7 A8 A9 A10 A11 := by
  rw [fold_eq]
  exact x17_v113 m c

end Cert.ReferenceIdeal.Fold

end
-- ==== Proof.KernelRun.lean ====
/-
  The kernel program's run with its result named: every weakly fair execution of the seven regions and the host
  operations between them terminates, nothing faulting, with the arguments unchanged and the result buffer at what
  the last boundary's contents hold there — the fold of every host stretch and every region's write-backs over the
  launch memory.
-/
import proofs.«138381_j4320737100478_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments, the last thread state read against the final state at the result buffer too. -/
theorem run_result : θ_run defs (onTc (τ := τ) (main (F := F))) ⟨m, fun _ => 0, ρ⟩ (fun r => ∀ c : Dev nD,
      r.2.mem ((c.tc : Thread nD τ).loc main_v98) = W15 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v98 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Gen

end
-- ==== Proof.Layer0.lean ====
/-
  Region 0: the first dense layer. Each of the 20 grid points loads rows 5000·t … 5000·t + 4999 of x, the whole
  256×128 weight matrix (the transposed lin1_w) and the 1×128 bias row, and stores max (x_block · W + b) 0 into the
  same rows of the output. A row of the result reads that row of x only, so the output array after the region is
  max (x · W + b) 0 of the whole arrays: block t of that array is what point t writes back, and the blocks tile the
  100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg0.N) : t.val < 20 := by have h := t.isLt; have e : cfg0.N = 20 := N_0; omega

/-- The body's stored value at row p, lane q of the block: the sum over the contraction of the loaded X block's row p
    against the loaded W's column q, plus the loaded row's lane q, clamped below at the float zero. -/
theorem payload_apply (x0 : Vec Ideal S5000x256 .f32) (x1 : Vec Ideal S256x128 .f32) (x2 : Vec Ideal S1x128 .f32)
    (p : Fin 5000) (q : Fin 128) :
    k0_pay1 x0 x1 x2 (ix2 p q) = max ((∑ c : Fin 256, x0 (ix2 p c) * x1 (ix2 c q)) + x2 (ix2 0 q)) (Ideal.ofBits .f32 0x00000000#32) := by
  show max (FloatOps.matmul dot_S5000x256_S256x128_S5000x128_1_0_0_1_n_n none (truncf .bf16 x0 bitsLt_bf16_f32)
        (truncf .bf16 (shapeCast S256x128 x1 shapeCasts_S256x128_S256x128) bitsLt_bf16_f32) (constant (F := Ideal) S5000x128 .f32 0x00000000#32) (ix2 p q)
      + broadcastTo S5000x128 (shapeCast S1x128 x2 shapeCasts_S1x128_S1x128) broadcasts_S1x128_S5000x128 (ix2 p q)) (Ideal.ofBits .f32 0x00000000#32) = _
  rw [PlainDot.matmul_zero_apply dot_S5000x256_S256x128_S5000x128_1_0_0_1_n_n rfl none _ _ p q, RowVector.broadcastTo_row (by decide)]
  simp only [shapeCast_self]
  rfl

/-- The printed index maps over the 20 grid points: the X window and the output window move down the rows with
    the point, the weight and the row windows stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's X block is row 5000·t + p of the X array. -/
theorem x_block (c : Dev nD) (t : Fin cfg0.N) (p : Fin 5000) (l : Fin 256) (hp : 5000 * t.val + p.val < 100000) :
    (iblk0 V c 0 t : Vec Ideal S5000x256 .f32) (ix2 p l)
      = (V c main_arg0 : S100000x256.Idx → EReal) (ix2 ⟨5000 * t.val + p.val, hp⟩ l) := by
  obtain ⟨e0, e1, -⟩ := index_maps t
  show (V c main_arg0 : S100000x256.Idx → EReal) (((cfg0.win 0).blk t).view.emb (ix2 p l)) = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 256 + 1 * l.val = l.val; rw [e1]; omega

/-- Every point's weight block is the whole weight array. -/
theorem w_block (c : Dev nD) (t : Fin cfg0.N) (l : Fin 256) (q : Fin 128) :
    (iblk0 V c 1 t : Vec Ideal S256x128 .f32) (ix2 l q) = (V c main_v30 : S256x128.Idx → EReal) (ix2 l q) := by
  obtain ⟨-, -, e2, e3, -⟩ := index_maps t
  show (V c main_v30 : S256x128.Idx → EReal) (((cfg0.win 1).blk t).view.emb (ix2 l q)) = _
  refine congrArg _ (funext fun a => Fin.ext ?_)
  match a with
  | ⟨0, _⟩ => show win0_1.index t (0 : Fin 2) * 256 + 1 * l.val = l.val; rw [e2]; omega
  | ⟨1, _⟩ => show win0_1.index t (1 : Fin 2) * 128 + 1 * q.val = q.val; rw [e3]; omega

/-- Every point's row block is the whole 1×128 row. -/
theorem b_block (c : Dev nD) (t : Fin cfg0.N) (q : Fin 128) :
    (iblk0 V c 2 t : Vec Ideal S1x128 .f32) (ix2 0 q) = (V c main_v31 : S1x128.Idx → EReal) (ix2 0 q) := by
  obtain ⟨-, -, -, -, e4, e5, -⟩ := index_maps t
  show (V c main_v31 : S1x128.Idx → EReal) (((cfg0.win 2).blk t).view.emb (ix2 0 q)) = _
  refine congrArg _ (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- Row p, lane q of point t's output block sits at row 5000·t + p, lane q of the output array. -/
theorem out_emb (t : Fin cfg0.N) (p : Fin 5000) (q : Fin 128) (hp : 5000 * t.val + p.val < 100000) :
    ((cfg0.win 3).blk t).view.emb (ix2 p q) = (ix2 ⟨5000 * t.val + p.val, hp⟩ q : S100000x128.Idx) := by
  obtain ⟨-, -, -, -, -, -, e6, e7⟩ := index_maps t
  refine funext fun a => Fin.ext ?_
  match a with
  | ⟨0, _⟩ => show win0_3.index t (0 : Fin 2) * 5000 + 1 * p.val = 5000 * t.val + p.val; rw [e6]; omega
  | ⟨1, _⟩ => show win0_3.index t (1 : Fin 2) * 128 + 1 * q.val = q.val; rw [e7]; omega

/-- What point t writes back is block t of the layer of the arrays the region finds. -/
theorem flushed_eq (c : Dev nD) (t : Fin cfg0.N) :
    (dat0 V c).flushed 3 t = ((cfg0.win 3).blk t).view.read (Elt Ideal)
      (Net.affineRelu (V c main_arg0 : S100000x256.Idx → EReal) (V c main_v30 : S256x128.Idx → EReal) (V c main_v31 : S1x128.Idx → EReal)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets,
    View.ld_unit_zero (S := S1x128) zero_offsets]
  funext j
  obtain ⟨p, q, rfl⟩ : ∃ (p : Fin 5000) (q : Fin 128), j = ix2 p q := ⟨j 0, j 1, eq_ix2 j⟩
  have hp : 5000 * t.val + p.val < 100000 := by have := points t; have := p.isLt; omega
  show k0_pay1 (iblk0 V c 0 t) (iblk0 V c 1 t) (iblk0 V c 2 t) (ix2 p q)
    = Net.affineRelu (V c main_arg0 : S100000x256.Idx → EReal) (V c main_v30 : S256x128.Idx → EReal) (V c main_v31 : S1x128.Idx → EReal)
        (((cfg0.win 3).blk t).view.emb (ix2 p q))
  rw [out_emb t p q hp, Net.affineRelu_apply]
  refine (payload_apply _ _ _ p q).trans ?_
  rw [b_block V c t q]
  refine congrArg (fun z => max (z + _) _) (Finset.sum_congr rfl fun l _ => ?_)
  rw [x_block V c t p l hp, w_block V c t l q]

/-- An index of the output array is in point t's block iff each coordinate is in the block's range on its axis. -/
theorem mem_block (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_block]
  obtain ⟨-, -, -, -, -, -, e6, e7⟩ := index_maps ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The output array after the region: the layer of the arrays the region finds. -/
theorem final (c : Dev nD) :
    (dat0 V c).arrAt 3 cfg0.N
      = Net.affineRelu (V c main_arg0 : S100000x256.Idx → EReal) (V c main_v30 : S256x128.Idx → EReal) (V c main_v31 : S1x128.Idx → EReal) :=
  (dat0 V c).arrAt_eq_of_cover 3 _ (fun t _ => flushed_eq V c t) cover

end Cert.KernelIdeal.Layer0

end
-- ==== Proof.StageA.lean ====
/-
  The kernel program up to its first region's exit. The host operations before the first region compute the edge
  lists with their self-loops, the symmetric normalisation of every edge, the transposed first weight matrix and the
  first bias as a 1×128 row — the network's own operations on the same argument; the first region then leaves
  max (x · lin1_wᵀ + lin1_b) 0: a vector laid out as a 1×N row by a reshape or by a broadcast along the lanes is
  one array.
-/
import proofs.«138381_j4320737100478_1_alg».proof.Proof.Gen.KernelIdeal.Frame
import proofs.«138381_j4320737100478_1_alg».proof.Proof.Spec
import proofs.«138381_j4320737100478_1_alg».proof.Proof.Layer0
import proofs.«138381_j4320737100478_1_alg».proof.Proof.HostLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)

/-- A length-128 vector reshaped to a 1×128 row is its broadcast along the lanes. -/
theorem row128 (x : (S128 : Shape).Idx → EReal) :
    shapeCast S1x128 x shapeCasts_S128_S1x128 = Cert.ReferenceIdeal.Spec.rowOf128 x :=
  RowOfVector.shapeCast_eq_broadcastInDim (n := 128) (by decide) _ _ _

/-- A length-32 vector reshaped to a 1×32 row is its broadcast along the lanes. -/
theorem row32 (x : (S32 : Shape).Idx → EReal) :
    shapeCast S1x32 x shapeCasts_S32_S1x32 = Cert.ReferenceIdeal.Spec.rowOf32 x :=
  RowOfVector.shapeCast_eq_broadcastInDim (n := 32) (by decide) _ _ _

theorem w3_arg0 : W3 m ρ c (Proc.devRef .tc main_arg0) = A0 :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A0 := rfl

/-- The source list with its self-loops. -/
theorem w3_v3 : W3 m ρ c (Proc.devRef .tc main_v3) = Cert.ReferenceIdeal.Spec.rows A11 := by
  dsimp only [W3, W2, W1, W0, hostOps0, hostOps0_1, hostOps0_2]
  after_results <;> rfl

/-- The target list with its self-loops. -/
theorem w3_v6 : W3 m ρ c (Proc.devRef .tc main_v6) = Cert.ReferenceIdeal.Spec.cols A11 := by
  dsimp only [W3, W2, W1, W0, hostOps0, hostOps0_1, hostOps0_2]
  after_results <;> rfl

/-- The outlined where over any contents: a select between its two operands and the broadcast scalar. -/
theorem where_result (U : Valuation τ sig (Elt Ideal)) :
    StableHlo.after hostOps0_1 U (Proc.devRef .tc main_v14)
      = select (U (Proc.devRef .tc main_v12)) (U (Proc.devRef .tc main_v13))
          (broadcastInDim S100000 ![] bcast_S_S100000 (U (Proc.devRef .tc main_cst_2))) := by
  dsimp only [hostOps0_1]
  after_results <;> rfl

/-- Which nodes have a positive degree. -/
theorem w1_v12 : W1 m ρ c (Proc.devRef .tc main_v12)
    = cmpf .ogt (Cert.ReferenceIdeal.Spec.deg A11) (broadcastInDim S100000 ![] bcast_S_S100000 (constant (F := Ideal) S_ .f32 0x00000000#32)) := by
  dsimp only [W1, W0, hostOps0]
  after_results <;> rfl

/-- The inverse square root of every degree. -/
theorem w1_v13 : W1 m ρ c (Proc.devRef .tc main_v13) = Cert.ReferenceIdeal.Spec.rsq A11 := by
  dsimp only [W1, W0, hostOps0]
  after_results <;> rfl

/-- The scalar zero the where falls back to. -/
theorem w1_cst2 : W1 m ρ c (Proc.devRef .tc main_cst_2) = constant (F := Ideal) S_ .f32 0x00000000#32 := by
  dsimp only [W1, W0, hostOps0]
  after_results <;> rfl

/-- rsqrt of the degree where it is positive, else zero. -/
theorem w2_v14 : W2 m ρ c (Proc.devRef .tc main_v14) = Cert.ReferenceIdeal.Spec.dinv A11 := by
  refine (where_result (W1 m ρ c)).trans ?_
  rw [w1_v12 m ρ c, w1_v13 m ρ c, w1_cst2 m ρ c]
  rfl

theorem w2_v3 : W2 m ρ c (Proc.devRef .tc main_v3) = Cert.ReferenceIdeal.Spec.rows A11 := by
  dsimp only [W2, W1, W0, hostOps0, hostOps0_1]
  after_results <;> rfl

theorem w2_v6 : W2 m ρ c (Proc.devRef .tc main_v6) = Cert.ReferenceIdeal.Spec.cols A11 := by
  dsimp only [W2, W1, W0, hostOps0, hostOps0_1]
  after_results <;> rfl

/-- The edge weights from the per-node value and the two index lists: read at the wrapped lists, multiplied. -/
theorem norm_result (U : Valuation τ sig (Elt Ideal)) (d : FVec Ideal S100000 .f32) (r : (⟨S1700000, .i32⟩ : BufTy).Contents (Elt Ideal)) (cl : (⟨S1700000, .i32⟩ : BufTy).Contents (Elt Ideal))
    (h_d : U (Proc.devRef .tc main_v14) = d) (h_r : U (Proc.devRef .tc main_v3) = r) (h_cl : U (Proc.devRef .tc main_v6) = cl) :
    StableHlo.after hostOps0_2 U (Proc.devRef .tc main_v29)
      = Cert.ReferenceIdeal.Spec.normOf d r cl := by
  dsimp only [hostOps0_2]
  after_results_simp
  rw [h_d, h_r, h_cl]
  rfl

/-- Every edge's weight. -/
theorem w3_v29 : W3 m ρ c (Proc.devRef .tc main_v29) = Cert.ReferenceIdeal.Spec.norm A11 :=
  norm_result (W2 m ρ c) _ _ _ (w2_v14 m ρ c) (w2_v3 m ρ c) (w2_v6 m ρ c)

/-- The transposed first weight matrix. -/
theorem w3_v30 : W3 m ρ c (Proc.devRef .tc main_v30) = transpose S256x128 [1, 0] A1 transposes_S128x256_S256x128_1_0 := by
  dsimp only [W3, W2, W1, W0, hostOps0, hostOps0_1, hostOps0_2]
  after_results <;> rfl

/-- The first bias as a row. -/
theorem w3_v31 : W3 m ρ c (Proc.devRef .tc main_v31) = Cert.ReferenceIdeal.Spec.rowOf128 A2 := by
  refine Eq.trans ?_ (row128 A2)
  dsimp only [W3, W2, W1, W0, hostOps0, hostOps0_1, hostOps0_2]
  after_results <;> rfl

/-- Region 0 leaves the first dense layer. -/
theorem w4_v32 : W4 m ρ c (Proc.devRef .tc main_v32) = Cert.ReferenceIdeal.Spec.h1 A0 A1 A2 := by
  refine (W4_arr m ρ c 3).trans ?_
  rw [Layer0.final (V3 m ρ) c, show V3 m ρ c main_arg0 = A0 from w3_arg0 m ρ c,
    show V3 m ρ c main_v30 = _ from w3_v30 m ρ c, show V3 m ρ c main_v31 = _ from w3_v31 m ρ c]
  rfl

end Cert.KernelIdeal.Stages

end
-- ==== Proof.Layer1.lean ====
/-
  Region 1: the first convolution's feature map. Each of the 20 grid points loads rows 5000·t … 5000·t + 4999 of the input, the whole
  128×128 weight matrix (the transposed phi1_w) and a 1×128 row, and stores input_block · W + row into the same rows of
  the output. A row of the result reads that row of the input only, so the output array after the region is
  X · W + row of the whole arrays: block t of that array is what point t writes back, and the blocks tile the
  100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg1.N) : t.val < 20 := by have h := t.isLt; have e : cfg1.N = 20 := N_1; omega

/-- The body's stored value at row p, lane q of the block: the sum over the contraction of the loaded X block's row p
    against the loaded W's column q, plus the loaded row's lane q. -/
theorem payload_apply (x0 : Vec Ideal S5000x128 .f32) (x1 : Vec Ideal S128x128 .f32) (x2 : Vec Ideal S1x128 .f32)
    (p : Fin 5000) (q : Fin 128) :
    k1_pay1 x0 x1 x2 (ix2 p q) = (∑ c : Fin 128, x0 (ix2 p c) * x1 (ix2 c q)) + x2 (ix2 0 q) := by
  show FloatOps.matmul dot_S5000x128_S128x128_S5000x128_1_0_0_1_n_n none (truncf .bf16 (shapeCast S5000x128 x0 shapeCasts_S5000x128_S5000x128) bitsLt_bf16_f32)
        (truncf .bf16 (shapeCast S128x128 x1 shapeCasts_S128x128_S128x128) bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  rw [PlainDot.matmul_zero_apply dot_S5000x128_S128x128_S5000x128_1_0_0_1_n_n rfl none _ _ p q, RowVector.broadcastTo_row (by decide)]
  simp only [shapeCast_self]
  rfl

/-- The printed index maps over the 20 grid points: the X window and the output window move down the rows with
    the point, the weight and the row windows stay. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's X block is row 5000·t + p of the X array. -/
theorem x_block (c : Dev nD) (t : Fin cfg1.N) (p : Fin 5000) (l : Fin 128) (hp : 5000 * t.val + p.val < 100000) :
    (iblk1 V c 0 t : Vec Ideal S5000x128 .f32) (ix2 p l)
      = (V c main_v32 : S100000x128.Idx → EReal) (ix2 ⟨5000 * t.val + p.val, hp⟩ l) := by
  obtain ⟨e0, e1, -⟩ := index_maps t
  show (V c main_v32 : S100000x128.Idx → EReal) (((cfg1.win 0).blk t).view.emb (ix2 p l)) = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * l.val = l.val; rw [e1]; omega

/-- Every point's weight block is the whole weight array. -/
theorem w_block (c : Dev nD) (t : Fin cfg1.N) (l : Fin 128) (q : Fin 128) :
    (iblk1 V c 1 t : Vec Ideal S128x128 .f32) (ix2 l q) = (V c main_v45 : S128x128.Idx → EReal) (ix2 l q) := by
  obtain ⟨-, -, e2, e3, -⟩ := index_maps t
  show (V c main_v45 : S128x128.Idx → EReal) (((cfg1.win 1).blk t).view.emb (ix2 l q)) = _
  refine congrArg _ (funext fun a => Fin.ext ?_)
  match a with
  | ⟨0, _⟩ => show win1_1.index t (0 : Fin 2) * 128 + 1 * l.val = l.val; rw [e2]; omega
  | ⟨1, _⟩ => show win1_1.index t (1 : Fin 2) * 128 + 1 * q.val = q.val; rw [e3]; omega

/-- Every point's row block is the whole 1×128 row. -/
theorem b_block (c : Dev nD) (t : Fin cfg1.N) (q : Fin 128) :
    (iblk1 V c 2 t : Vec Ideal S1x128 .f32) (ix2 0 q) = (V c main_v46 : S1x128.Idx → EReal) (ix2 0 q) := by
  obtain ⟨-, -, -, -, e4, e5, -⟩ := index_maps t
  show (V c main_v46 : S1x128.Idx → EReal) (((cfg1.win 2).blk t).view.emb (ix2 0 q)) = _
  refine congrArg _ (funext fun a => Fin.ext ?_)
  match a with
  | ⟨0, _⟩ => show win1_2.index t (0 : Fin 2) * 1 + 1 * 0 = 0; rw [e4]
  | ⟨1, _⟩ => show win1_2.index t (1 : Fin 2) * 128 + 1 * q.val = q.val; rw [e5]; omega

/-- Row p, lane q of point t's output block sits at row 5000·t + p, lane q of the output array. -/
theorem out_emb (t : Fin cfg1.N) (p : Fin 5000) (q : Fin 128) (hp : 5000 * t.val + p.val < 100000) :
    ((cfg1.win 3).blk t).view.emb (ix2 p q) = (ix2 ⟨5000 * t.val + p.val, hp⟩ q : S100000x128.Idx) := by
  obtain ⟨-, -, -, -, -, -, e6, e7⟩ := index_maps t
  refine funext fun a => Fin.ext ?_
  match a with
  | ⟨0, _⟩ => show win1_3.index t (0 : Fin 2) * 5000 + 1 * p.val = 5000 * t.val + p.val; rw [e6]; omega
  | ⟨1, _⟩ => show win1_3.index t (1 : Fin 2) * 128 + 1 * q.val = q.val; rw [e7]; omega

/-- What point t writes back is block t of the layer of the arrays the region finds. -/
theorem flushed_eq (c : Dev nD) (t : Fin cfg1.N) :
    (dat1 V c).flushed 3 t = ((cfg1.win 3).blk t).view.read (Elt Ideal)
      (Net.affine (V c main_v32 : S100000x128.Idx → EReal) (V c main_v45 : S128x128.Idx → EReal) (V c main_v46 : S1x128.Idx → EReal)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have hp : 5000 * t.val + p.val < 100000 := by have := points t; have := p.isLt; omega
  show k1_pay1 (iblk1 V c 0 t) (iblk1 V c 1 t) (iblk1 V c 2 t) (ix2 p q)
    = Net.affine (V c main_v32 : S100000x128.Idx → EReal) (V c main_v45 : S128x128.Idx → EReal) (V c main_v46 : S1x128.Idx → EReal)
        (((cfg1.win 3).blk t).view.emb (ix2 p q))
  rw [out_emb t p q hp, Net.affine_apply]
  refine (payload_apply _ _ _ p q).trans ?_
  rw [b_block V c t q]
  refine congrArg (fun z => z + _) (Finset.sum_congr rfl fun l _ => ?_)
  rw [x_block V c t p l hp, w_block V c t l q]

/-- An index of the output array is in point t's block iff each coordinate is in the block's range on its axis. -/
theorem mem_block (t : Fin cfg1.N) (i : S100000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_block]
  obtain ⟨-, -, -, -, -, -, e6, e7⟩ := index_maps ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- The output array after the region: the layer of the arrays the region finds. -/
theorem final (c : Dev nD) :
    (dat1 V c).arrAt 3 cfg1.N
      = Net.affine (V c main_v32 : S100000x128.Idx → EReal) (V c main_v45 : S128x128.Idx → EReal) (V c main_v46 : S1x128.Idx → EReal) :=
  (dat1 V c).arrAt_eq_of_cover 3 _ (fun t _ => flushed_eq V c t) cover

end Cert.KernelIdeal.Layer1

end
-- ==== Proof.Layer2.lean ====
/-
  Region 2: the combine step of an antisymmetric convolution. Each of the 20 grid points loads rows
  5000·t … 5000·t + 4999 of the features X and of the aggregated messages G, the whole 128×128 matrix A and a
  1×128 row b, and stores X_block + ε · tanh ((X_block · A + G_block) + b) into the same rows of the output. A row
  of the result reads that row of X and of G only, so the output array after the region is the combine step of
  the whole arrays: block t of that array is what point t writes back, and the blocks tile the 100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg2.N) : t.val < 20 := by have h := t.isLt; have e : cfg2.N = 20 := N_2; omega

/-- The body's stored value at row p, lane q of the block: the X block's entry plus ε times the tanh of the sum over
    the contraction of the X block's row p against A's column q, plus the aggregate block's entry, plus the row's lane q. -/
theorem payload_apply (x0 : Vec Ideal S5000x128 .f32) (xA : Vec Ideal S128x128 .f32) (xG : Vec Ideal S5000x128 .f32) (xb : Vec Ideal S1x128 .f32)
    (p : Fin 5000) (q : Fin 128) :
    k2_pay1 x0 xA xG xb (ix2 p q)
      = x0 (ix2 p q) + Ideal.ofBits .f32 0x3DCCCCCD#32
          * Ideal.tanh (((∑ c : Fin 128, x0 (ix2 p c) * xA (ix2 c q)) + xG (ix2 p q)) + xb (ix2 0 q)) := by
  show shapeCast S5000x128 x0 shapeCasts_S5000x128_S5000x128 (ix2 p q) + Ideal.ofBits .f32 0x3DCCCCCD#32
      * Ideal.tanh ((FloatOps.matmul dot_S5000x128_S128x128_S5000x128_1_0_0_1_n_n none
            (truncf .bf16 (shapeCast S5000x128 x0 shapeCasts_S5000x128_S5000x128) bitsLt_bf16_f32)
            (truncf .bf16 (shapeCast S128x128 xA shapeCasts_S128x128_S128x128) bitsLt_bf16_f32)
            (constant (F := Ideal) S5000x128 .f32 0x00000000#32) (ix2 p q)
          + shapeCast S5000x128 xG shapeCasts_S5000x128_S5000x128 (ix2 p q))
        + broadcastTo S5000x128 (shapeCast S1x128 xb shapeCasts_S1x128_S1x128) broadcasts_S1x128_S5000x128 (ix2 p q)) = _
  rw [PlainDot.matmul_zero_apply dot_S5000x128_S128x128_S5000x128_1_0_0_1_n_n rfl none _ _ p q, RowVector.broadcastTo_row (by decide)]
  simp only [shapeCast_self]
  rfl

/-- The printed index maps over the 20 grid points: the X, the aggregate and the output windows move down the rows
    with the point, the square matrix and the row windows stay. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's X block is row 5000·t + p of the X array. -/
theorem x_block (c : Dev nD) (t : Fin cfg2.N) (p : Fin 5000) (l : Fin 128) (hp : 5000 * t.val + p.val < 100000) :
    (iblk2 V c 0 t : Vec Ideal S5000x128 .f32) (ix2 p l)
      = (V c main_v32 : S100000x128.Idx → EReal) (ix2 ⟨5000 * t.val + p.val, hp⟩ l) := by
  obtain ⟨e0, e1, -⟩ := index_maps t
  show (V c main_v32 : S100000x128.Idx → EReal) (((cfg2.win 0).blk t).view.emb (ix2 p l)) = _
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * l.val = l.val; rw [e1]; omega

/-- Row p of point t's aggregate block is row 5000·t + p of the aggregate array. -/
theorem g_block (c : Dev nD) (t : Fin cfg2.N) (p : Fin 5000) (l : Fin 128) (hp : 5000 * t.val + p.val < 100000) :
    (iblk2 V c 1 t : Vec Ideal S5000x128 .f32) (ix2 p l)
      = (V c main_v60 : S100000x128.Idx → EReal) (ix2 ⟨5000 * t.val + p.val, hp⟩ l) := by
  obtain ⟨-, -, e2, e3, -⟩ := index_maps t
  show (V c main_v60 : S100000x128.Idx → EReal) (((cfg2.win 1).blk t).view.emb (ix2 p l)) = _
  refine congrArg _ (funext fun a => Fin.ext ?_)
  match a with
  | ⟨0, _⟩ => show win2_1.index t (0 : Fin 2) * 5000 + 1 * p.val = 5000 * t.val + p.val; rw [e2]; omega
  | ⟨1, _⟩ => show win2_1.index t (1 : Fin 2) * 128 + 1 * l.val = l.val; rw [e3]; omega

/-- Every point's square-matrix block is the whole matrix. -/
theorem a_block (c : Dev nD) (t : Fin cfg2.N) (l : Fin 128) (q : Fin 128) :
    (iblk2 V c 2 t : Vec Ideal S128x128 .f32) (ix2 l q) = (V c main_v61 : S128x128.Idx → EReal) (ix2 l q) := by
  obtain ⟨-, -, -, -, e4, e5, -⟩ := index_maps t
  show (V c main_v61 : S128x128.Idx → EReal) (((cfg2.win 2).blk t).view.emb (ix2 l q)) = _
  refine congrArg _ (funext fun a => Fin.ext ?_)
  match a with
  | ⟨0, _⟩ => show win2_2.index t (0 : Fin 2) * 128 + 1 * l.val = l.val; rw [e4]; omega
  | ⟨1, _⟩ => show win2_2.index t (1 : Fin 2) * 128 + 1 * q.val = q.val; rw [e5]; omega

/-- Every point's row block is the whole 1×128 row. -/
theorem b_block (c : Dev nD) (t : Fin cfg2.N) (q : Fin 128) :
    (iblk2 V c 3 t : Vec Ideal S1x128 .f32) (ix2 0 q) = (V c main_v62 : S1x128.Idx → EReal) (ix2 0 q) := by
  obtain ⟨-, -, -, -, -, -, e6, e7, -⟩ := index_maps t
  show (V c main_v62 : S1x128.Idx → EReal) (((cfg2.win 3).blk t).view.emb (ix2 0 q)) = _
  refine congrArg _ (funext fun a => Fin.ext ?_)
  match a with
  | ⟨0, _⟩ => show win2_3.index t (0 : Fin 2) * 1 + 1 * 0 = 0; rw [e6]
  | ⟨1, _⟩ => show win2_3.index t (1 : Fin 2) * 128 + 1 * q.val = q.val; rw [e7]; omega

/-- Row p, lane q of point t's output block sits at row 5000·t + p, lane q of the output array. -/
theorem out_emb (t : Fin cfg2.N) (p : Fin 5000) (q : Fin 128) (hp : 5000 * t.val + p.val < 100000) :
    ((cfg2.win 4).blk t).view.emb (ix2 p q) = (ix2 ⟨5000 * t.val + p.val, hp⟩ q : S100000x128.Idx) := by
  obtain ⟨-, -, -, -, -, -, -, -, e8, e9⟩ := index_maps t
  refine funext fun a => Fin.ext ?_
  match a with
  | ⟨0, _⟩ => show win2_4.index t (0 : Fin 2) * 5000 + 1 * p.val = 5000 * t.val + p.val; rw [e8]; omega
  | ⟨1, _⟩ => show win2_4.index t (1 : Fin 2) * 128 + 1 * q.val = q.val; rw [e9]; omega

/-- What point t writes back is block t of the combine step of the arrays the region finds. -/
theorem flushed_eq (c : Dev nD) (t : Fin cfg2.N) :
    (dat2 V c).flushed 4 t = ((cfg2.win 4).blk t).view.read (Elt Ideal)
      (Net.combine (V c main_v32 : S100000x128.Idx → EReal) (V c main_v60 : S100000x128.Idx → EReal) (V c main_v61 : S128x128.Idx → EReal)
        (V c main_v62 : S1x128.Idx → EReal)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have hp : 5000 * t.val + p.val < 100000 := by have := points t; have := p.isLt; omega
  show k2_pay1 (iblk2 V c 0 t) (iblk2 V c 2 t) (iblk2 V c 1 t) (iblk2 V c 3 t) (ix2 p q)
    = Net.combine (V c main_v32 : S100000x128.Idx → EReal) (V c main_v60 : S100000x128.Idx → EReal) (V c main_v61 : S128x128.Idx → EReal)
        (V c main_v62 : S1x128.Idx → EReal) (((cfg2.win 4).blk t).view.emb (ix2 p q))
  rw [out_emb t p q hp, Net.combine_apply]
  refine (payload_apply _ _ _ _ p q).trans ?_
  rw [b_block V c t q, x_block V c t p q hp, g_block V c t p q hp]
  refine congrArg (fun z => _ + _ * Ideal.tanh ((z + _) + _)) (Finset.sum_congr rfl fun l _ => ?_)
  rw [x_block V c t p l hp, a_block V c t l q]

/-- An index of the output array is in point t's block iff each coordinate is in the block's range on its axis. -/
theorem mem_block (t : Fin cfg2.N) (i : S100000x128.Idx) :
    i ∈ ((cfg2.win 4).blk t).view.set
      ↔ ∀ a : Fin 2, win2_4.index t a * S5000x128.size a ≤ (i a).val ∧ (i a).val < win2_4.index t a * S5000x128.size a + S5000x128.size a := by
  show i ∈ ((View.whole main_v63).slice (win2_4.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_4 _, ?_⟩
  rw [mem_block]
  obtain ⟨-, -, -, -, -, -, -, -, e8, e9⟩ := index_maps ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e8]; show (i 0).val / 5000 * 5000 ≤ (i 0).val ∧ (i 0).val < (i 0).val / 5000 * 5000 + 5000; omega
  | ⟨1, _⟩ =>
    show win2_4.index _ (1 : Fin 2) * 128 ≤ (i 1).val ∧ (i 1).val < win2_4.index _ (1 : Fin 2) * 128 + 128
    rw [e9]; omega

/-- The output array after the region: the combine step of the arrays the region finds. -/
theorem final (c : Dev nD) :
    (dat2 V c).arrAt 4 cfg2.N
      = Net.combine (V c main_v32 : S100000x128.Idx → EReal) (V c main_v60 : S100000x128.Idx → EReal) (V c main_v61 : S128x128.Idx → EReal)
          (V c main_v62 : S1x128.Idx → EReal) :=
  (dat2 V c).arrAt_eq_of_cover 4 _ (fun t _ => flushed_eq V c t) cover

end Cert.KernelIdeal.Layer2

end
-- ==== Proof.StageB.lean ====
/-
  The kernel program from its first region's exit to its third's: the antisymmetric weight of the first
  convolution and the transposed phi1_w (host operations on the arguments), the feature map h · phi1_wᵀ (region 1: an
  affine layer whose row is float zeros is the product), the messages gathered by source, scaled by the edge's weight
  and scatter-added by target (the network's own host operations, applied to the arrays found so far), and the
  combine step (region 2).
-/
import proofs.«138381_j4320737100478_1_alg».proof.Proof.Gen.KernelIdeal.Frame
import proofs.«138381_j4320737100478_1_alg».proof.Proof.Spec
import proofs.«138381_j4320737100478_1_alg».proof.Proof.StageA
import proofs.«138381_j4320737100478_1_alg».proof.Proof.Layer1
import proofs.«138381_j4320737100478_1_alg».proof.Proof.Layer2
import proofs.«138381_j4320737100478_1_alg».proof.Proof.HostLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)

theorem w4_arg5 : W4 m ρ c (Proc.devRef .tc main_arg5) = A5 :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A5 := rfl

theorem w4_arg6 : W4 m ρ c (Proc.devRef .tc main_arg6) = A6 :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A6 := rfl

theorem w6_arg7 : W6 m ρ c (Proc.devRef .tc main_arg7) = A7 :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A7 := rfl

theorem w5_v32 : W5 m ρ c (Proc.devRef .tc main_v32) = Cert.ReferenceIdeal.Spec.h1 A0 A1 A2 :=
  calc W5 m ρ c (Proc.devRef .tc main_v32)
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.h1 A0 A1 A2 := w4_v32 m ρ c

/-- The antisymmetric weight of the first convolution. -/
theorem w5_v43 : W5 m ρ c (Proc.devRef .tc main_v43) = Cert.ReferenceIdeal.Spec.antisym128 A5 := by
  dsimp only [W5, hostOps1]
  after_results
  rw [w4_arg5 m ρ c] <;> rfl

/-- The transposed phi1_w. -/
theorem w5_v45 : W5 m ρ c (Proc.devRef .tc main_v45) = transpose S128x128 [1, 0] A6 transposes_S128x128_S128x128_1_0 := by
  dsimp only [W5, hostOps1]
  after_results
  rw [w4_arg6 m ρ c] <;> rfl

/-- The row of float zeros the feature map's layer adds. -/
theorem w5_v46 : W5 m ρ c (Proc.devRef .tc main_v46) = shapeCast S1x128 (broadcastInDim S128 ![] bcast_S_S128 (constant (F := Ideal) S_ .f32 0x00000000#32)) shapeCasts_S128_S1x128 := by
  dsimp only [W5, hostOps1]
  after_results <;> rfl

/-- Region 1 leaves the first feature map. -/
theorem w6_v47 : W6 m ρ c (Proc.devRef .tc main_v47) = Cert.ReferenceIdeal.Spec.xw1 A0 A1 A2 A6 := by
  refine (W6_arr m ρ c 3).trans ?_
  rw [Layer1.final (V5 m ρ) c, show V5 m ρ c main_v32 = _ from w5_v32 m ρ c,
    show V5 m ρ c main_v45 = _ from w5_v45 m ρ c, show V5 m ρ c main_v46 = _ from w5_v46 m ρ c]
  refine (Net.affine_zero_row _ _ _ (fun q => Net.zero_row _ _ q)).trans ?_
  rfl

theorem w6_v3 : W6 m ρ c (Proc.devRef .tc main_v3) = Cert.ReferenceIdeal.Spec.rows A11 :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = Cert.ReferenceIdeal.Spec.rows A11 := w3_v3 m ρ c

theorem w6_v6 : W6 m ρ c (Proc.devRef .tc main_v6) = Cert.ReferenceIdeal.Spec.cols A11 :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = Cert.ReferenceIdeal.Spec.cols A11 := w3_v6 m ρ c

theorem w6_v29 : W6 m ρ c (Proc.devRef .tc main_v29) = Cert.ReferenceIdeal.Spec.norm A11 :=
  calc W6 m ρ c (Proc.devRef .tc main_v29)
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)
    _ = Cert.ReferenceIdeal.Spec.norm A11 := w3_v29 m ρ c

theorem w6_v43 : W6 m ρ c (Proc.devRef .tc main_v43) = Cert.ReferenceIdeal.Spec.antisym128 A5 :=
  calc W6 m ρ c (Proc.devRef .tc main_v43)
    _ = W5 m ρ c (Proc.devRef .tc main_v43) := W6_of_ne m ρ c main_v43 (by decide)
    _ = Cert.ReferenceIdeal.Spec.antisym128 A5 := w5_v43 m ρ c

theorem w7_v32 : W7 m ρ c (Proc.devRef .tc main_v32) = Cert.ReferenceIdeal.Spec.h1 A0 A1 A2 :=
  calc W7 m ρ c (Proc.devRef .tc main_v32)
    _ = W6 m ρ c (Proc.devRef .tc main_v32) := StableHlo.after_of_forall_not_mem (b := Proc.devRef .tc main_v32) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v32) := (W6_arr m ρ c 0).trans (((dat1 (V5 m ρ) c).arrAt_in 0 rfl _).trans (A_eq1 (V5 m ρ) c 0))
    _ = Cert.ReferenceIdeal.Spec.h1 A0 A1 A2 := w5_v32 m ρ c

/-- The first convolution's messages, scatter-added by target. -/
theorem w7_v60 : W7 m ρ c (Proc.devRef .tc main_v60) = Cert.ReferenceIdeal.Spec.agg128 (Cert.ReferenceIdeal.Spec.xw1 A0 A1 A2 A6) A11 := by
  dsimp only [W7, hostOps2]
  after_results_simp
  rw [w6_v47 m ρ c, w6_v29 m ρ c, w6_v3 m ρ c, w6_v6 m ρ c] <;> rfl

/-- The transposed antisymmetric weight. -/
theorem w7_v61 : W7 m ρ c (Proc.devRef .tc main_v61) = transpose S128x128 [1, 0] (Cert.ReferenceIdeal.Spec.antisym128 A5) transposes_S128x128_S128x128_1_0 := by
  dsimp only [W7, hostOps2]
  after_results
  rw [w6_v43 m ρ c] <;> rfl

/-- The first convolution's bias as a row. -/
theorem w7_v62 : W7 m ρ c (Proc.devRef .tc main_v62) = Cert.ReferenceIdeal.Spec.rowOf128 A7 := by
  refine Eq.trans ?_ (row128 A7)
  dsimp only [W7, hostOps2]
  after_results
  rw [w6_arg7 m ρ c] <;> rfl

/-- Region 2 leaves the first convolution. -/
theorem w8_v63 : W8 m ρ c (Proc.devRef .tc main_v63) = Cert.ReferenceIdeal.Spec.h2 A0 A1 A2 A5 A6 A7 A11 := by
  refine (W8_arr m ρ c 4).trans ?_
  rw [Layer2.final (V7 m ρ) c, show V7 m ρ c main_v32 = _ from w7_v32 m ρ c,
    show V7 m ρ c main_v60 = _ from w7_v60 m ρ c, show V7 m ρ c main_v61 = _ from w7_v61 m ρ c,
    show V7 m ρ c main_v62 = _ from w7_v62 m ρ c] <;> rfl

end Cert.KernelIdeal.Stages

end
-- ==== Proof.Layer3.lean ====
/-
  Region 3: the second dense layer. Each of the 20 grid points loads rows 5000·t … 5000·t + 4999 of the input, the whole
  128×32 weight matrix (the transposed lin2_w) and a 1×32 row, and stores input_block · W + row into the same rows of
  the output. A row of the result reads that row of the input only, so the output array after the region is
  X · W + row of the whole arrays: block t of that array is what point t writes back, and the blocks tile the
  100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg3.N) : t.val < 20 := by have h := t.isLt; have e : cfg3.N = 20 := N_3; omega

/-- The body's stored value at row p, lane q of the block: the sum over the contraction of the loaded X block's row p
    against the loaded W's column q, plus the loaded row's lane q. -/
theorem payload_apply (x0 : Vec Ideal S5000x128 .f32) (x1 : Vec Ideal S128x32 .f32) (x2 : Vec Ideal S1x32 .f32)
    (p : Fin 5000) (q : Fin 32) :
    k3_pay1 x0 x1 x2 (ix2 p q) = (∑ c : Fin 128, x0 (ix2 p c) * x1 (ix2 c q)) + x2 (ix2 0 q) := by
  show FloatOps.matmul dot_S5000x128_S128x32_S5000x32_1_0_0_1_n_n none (truncf .bf16 (shapeCast S5000x128 x0 shapeCasts_S5000x128_S5000x128) bitsLt_bf16_f32)
        (truncf .bf16 (shapeCast S128x32 x1 shapeCasts_S128x32_S128x32) bitsLt_bf16_f32) (constant (F := Ideal) S5000x32 .f32 0x00000000#32) (ix2 p q)
      + broadcastTo S5000x32 (shapeCast S1x32 x2 shapeCasts_S1x32_S1x32) broadcasts_S1x32_S5000x32 (ix2 p q) = _
  rw [PlainDot.matmul_zero_apply dot_S5000x128_S128x32_S5000x32_1_0_0_1_n_n rfl none _ _ p q, RowVector.broadcastTo_row (by decide)]
  simp only [shapeCast_self]
  rfl

/-- The printed index maps over the 20 grid points: the X window and the output window move down the rows with
    the point, the weight and the row windows stay. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's X block is row 5000·t + p of the X array. -/
theorem x_block (c : Dev nD) (t : Fin cfg3.N) (p : Fin 5000) (l : Fin 128) (hp : 5000 * t.val + p.val < 100000) :
    (iblk3 V c 0 t : Vec Ideal S5000x128 .f32) (ix2 p l)
      = (V c main_v63 : S100000x128.Idx → EReal) (ix2 ⟨5000 * t.val + p.val, hp⟩ l) := by
  obtain ⟨e0, e1, -⟩ := index_maps t
  show (V c main_v63 : S100000x128.Idx → EReal) (((cfg3.win 0).blk t).view.emb (ix2 p l)) = _
  refine congrArg _ (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * l.val = l.val; rw [e1]; omega

/-- Every point's weight block is the whole weight array. -/
theorem w_block (c : Dev nD) (t : Fin cfg3.N) (l : Fin 128) (q : Fin 32) :
    (iblk3 V c 1 t : Vec Ideal S128x32 .f32) (ix2 l q) = (V c main_v64 : S128x32.Idx → EReal) (ix2 l q) := by
  obtain ⟨-, -, e2, e3, -⟩ := index_maps t
  show (V c main_v64 : S128x32.Idx → EReal) (((cfg3.win 1).blk t).view.emb (ix2 l q)) = _
  refine congrArg _ (funext fun a => Fin.ext ?_)
  match a with
  | ⟨0, _⟩ => show win3_1.index t (0 : Fin 2) * 128 + 1 * l.val = l.val; rw [e2]; omega
  | ⟨1, _⟩ => show win3_1.index t (1 : Fin 2) * 32 + 1 * q.val = q.val; rw [e3]; omega

/-- Every point's row block is the whole 1×32 row. -/
theorem b_block (c : Dev nD) (t : Fin cfg3.N) (q : Fin 32) :
    (iblk3 V c 2 t : Vec Ideal S1x32 .f32) (ix2 0 q) = (V c main_v65 : S1x32.Idx → EReal) (ix2 0 q) := by
  obtain ⟨-, -, -, -, e4, e5, -⟩ := index_maps t
  show (V c main_v65 : S1x32.Idx → EReal) (((cfg3.win 2).blk t).view.emb (ix2 0 q)) = _
  refine congrArg _ (funext fun a => Fin.ext ?_)
  match a with
  | ⟨0, _⟩ => show win3_2.index t (0 : Fin 2) * 1 + 1 * 0 = 0; rw [e4]
  | ⟨1, _⟩ => show win3_2.index t (1 : Fin 2) * 32 + 1 * q.val = q.val; rw [e5]; omega

/-- Row p, lane q of point t's output block sits at row 5000·t + p, lane q of the output array. -/
theorem out_emb (t : Fin cfg3.N) (p : Fin 5000) (q : Fin 32) (hp : 5000 * t.val + p.val < 100000) :
    ((cfg3.win 3).blk t).view.emb (ix2 p q) = (ix2 ⟨5000 * t.val + p.val, hp⟩ q : S100000x32.Idx) := by
  obtain ⟨-, -, -, -, -, -, e6, e7⟩ := index_maps t
  refine funext fun a => Fin.ext ?_
  match a with
  | ⟨0, _⟩ => show win3_3.index t (0 : Fin 2) * 5000 + 1 * p.val = 5000 * t.val + p.val; rw [e6]; omega
  | ⟨1, _⟩ => show win3_3.index t (1 : Fin 2) * 32 + 1 * q.val = q.val; rw [e7]; omega

/-- What point t writes back is block t of the layer of the arrays the region finds. -/
theorem flushed_eq (c : Dev nD) (t : Fin cfg3.N) :
    (dat3 V c).flushed 3 t = ((cfg3.win 3).blk t).view.read (Elt Ideal)
      (Net.affine (V c main_v63 : S100000x128.Idx → EReal) (V c main_v64 : S128x32.Idx → EReal) (V c main_v65 : S1x32.Idx → EReal)) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S128x32) zero_offsets,
    View.ld_unit_zero (S := S1x32) zero_offsets]
  funext j
  obtain ⟨p, q, rfl⟩ : ∃ (p : Fin 5000) (q : Fin 32), j = ix2 p q := ⟨j 0, j 1, eq_ix2 j⟩
  have hp : 5000 * t.val + p.val < 100000 := by have := points t; have := p.isLt; omega
  show k3_pay1 (iblk3 V c 0 t) (iblk3 V c 1 t) (iblk3 V c 2 t) (ix2 p q)
    = Net.affine (V c main_v63 : S100000x128.Idx → EReal) (V c main_v64 : S128x32.Idx → EReal) (V c main_v65 : S1x32.Idx → EReal)
        (((cfg3.win 3).blk t).view.emb (ix2 p q))
  rw [out_emb t p q hp, Net.affine_apply]
  refine (payload_apply _ _ _ p q).trans ?_
  rw [b_block V c t q]
  refine congrArg (fun z => z + _) (Finset.sum_congr rfl fun l _ => ?_)
  rw [x_block V c t p l hp, w_block V c t l q]

/-- An index of the output array is in point t's block iff each coordinate is in the block's range on its axis. -/
theorem mem_block (t : Fin cfg3.N) (i : S100000x32.Idx) :
    i ∈ ((cfg3.win 3).blk t).view.set
      ↔ ∀ a : Fin 2, win3_3.index t a * S5000x32.size a ≤ (i a).val ∧ (i a).val < win3_3.index t a * S5000x32.size a + S5000x32.size a := by
  show i ∈ ((View.whole main_v66).slice (win3_3.rect t)).set ↔ _
  rw [View.set_slice_whole, Rect.mem_set_unit]
  exact Iff.rfl

/-- The 20 blocks of 5000 rows tile the 100000 rows: row r is in the block of point r / 5000. -/
theorem cover (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 20 := N_3
  refine ⟨⟨(i 0).val / 5000, by rw [hN]; omega⟩, flush3_3 _, ?_⟩
  rw [mem_block]
  obtain ⟨-, -, -, -, -, -, e6, e7⟩ := index_maps ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 32 ≤ (i 1).val ∧ (i 1).val < win3_3.index _ (1 : Fin 2) * 32 + 32
    rw [e7]; omega

/-- The output array after the region: the layer of the arrays the region finds. -/
theorem final (c : Dev nD) :
    (dat3 V c).arrAt 3 cfg3.N
      = Net.affine (V c main_v63 : S100000x128.Idx → EReal) (V c main_v64 : S128x32.Idx → EReal) (V c main_v65 : S1x32.Idx → EReal) :=
  (dat3 V c).arrAt_eq_of_cover 3 _ (fun t _ => flushed_eq V c t) cover

end Cert.KernelIdeal.Layer3

end
-- ==== Proof.Layer4.lean ====
/-
  Region 4: the second convolution's feature map. Each of the 20 grid points loads rows 5000·t … 5000·t + 4999 of the input, the whole
  32×32 weight matrix (the transposed phi2_w) and a 1×32 row, and stores input_block · W + row into the same rows of
  the output. A row of the result reads that row of the input only, so the output array after the region is
  X · W + row of the whole arrays: block t of that array is what point t writes back, and the blocks tile the
  100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg4.N) : t.val < 20 := by have h := t.isLt; have e : cfg4.N = 20 := N_4; omega

/-- The body's stored value at row p, lane q of the block: the sum over the contraction of the loaded X block's row p
    against the loaded W's column q, plus the loaded row's lane q. -/
theorem payload_apply (x0 : Vec Ideal S5000x32 .f32) (x1 : Vec Ideal S32x32 .f32) (x2 : Vec Ideal S1x32 .f32)
    (p : Fin 5000) (q : Fin 32) :
    k4_pay1 x0 x1 x2 (ix2 p q) = (∑ c : Fin 32, x0 (ix2 p c) * x1 (ix2 c q)) + x2 (ix2 0 q) := by
  show FloatOps.matmul dot_S5000x32_S32x32_S5000x32_1_0_0_1_n_n none (truncf .bf16 (shapeCast S5000x32 x0 shapeCasts_S5000x32_S5000x32) bitsLt_bf16_f32)
        (truncf .bf16 (shapeCast S32x32 x1 shapeCasts_S32x32_S32x32) bitsLt_bf16_f32) (constant (F := Ideal) S5000x32 .f32 0x00000000#32) (ix2 p q)
      + broadcastTo S5000x32 (shapeCast S1x32 x2 shapeCasts_S1x32_S1x32) broadcasts_S1x32_S5000x32 (ix2 p q) = _
  rw [PlainDot.matmul_zero_apply dot_S5000x32_S32x32_S5000x32_1_0_0_1_n_n rfl none _ _ p q, RowVector.broadcastTo_row (by decide)]
  simp only [shapeCast_self]
  rfl

/-- The printed index maps over the 20 grid points: the X window and the output window move down the rows with
    the point, the weight and the row windows stay. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's X block is row 5000·t + p of the X array. -/
theorem x_block (c : Dev nD) (t : Fin cfg4.N) (p : Fin 5000) (l : Fin 32) (hp : 5000 * t.val + p.val < 100000) :
    (iblk4 V c 0 t : Vec Ideal S5000x32 .f32) (ix2 p l)
      = (V c main_v66 : S100000x32.Idx → EReal) (ix2 ⟨5000 * t.val + p.val, hp⟩ l) := by
  obtain ⟨e0, e1, -⟩ := index_maps t
  show (V c main_v66 : S100000x32.Idx → EReal) (((cfg4.win 0).blk t).view.emb (ix2 p l)) = _
  refine congrArg _ (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 32 + 1 * l.val = l.val; rw [e1]; omega

/-- Every point's weight block is the whole weight array. -/
theorem w_block (c : Dev nD) (t : Fin cfg4.N) (l : Fin 32) (q : Fin 32) :
    (iblk4 V c 1 t : Vec Ideal S32x32 .f32) (ix2 l q) = (V c main_v79 : S32x32.Idx → EReal) (ix2 l q) := by
  obtain ⟨-, -, e2, e3, -⟩ := index_maps t
  show (V c main_v79 : S32x32.Idx → EReal) (((cfg4.win 1).blk t).view.emb (ix2 l q)) = _
  refine congrArg _ (funext fun a => Fin.ext ?_)
  match a with
  | ⟨0, _⟩ => show win4_1.index t (0 : Fin 2) * 32 + 1 * l.val = l.val; rw [e2]; omega
  | ⟨1, _⟩ => show win4_1.index t (1 : Fin 2) * 32 + 1 * q.val = q.val; rw [e3]; omega

/-- Every point's row block is the whole 1×32 row. -/
theorem b_block (c : Dev nD) (t : Fin cfg4.N) (q : Fin 32) :
    (iblk4 V c 2 t : Vec Ideal S1x32 .f32) (ix2 0 q) = (V c main_v80 : S1x32.Idx → EReal) (ix2 0 q) := by
  obtain ⟨-, -, -, -, e4, e5, -⟩ := index_maps t
  show (V c main_v80 : S1x32.Idx → EReal) (((cfg4.win 2).blk t).view.emb (ix2 0 q)) = _
  refine congrArg _ (funext fun a => Fin.ext ?_)
  match a with
  | ⟨0, _⟩ => show win4_2.index t (0 : Fin 2) * 1 + 1 * 0 = 0; rw [e4]
  | ⟨1, _⟩ => show win4_2.index t (1 : Fin 2) * 32 + 1 * q.val = q.val; rw [e5]; omega

/-- Row p, lane q of point t's output block sits at row 5000·t + p, lane q of the output array. -/
theorem out_emb (t : Fin cfg4.N) (p : Fin 5000) (q : Fin 32) (hp : 5000 * t.val + p.val < 100000) :
    ((cfg4.win 3).blk t).view.emb (ix2 p q) = (ix2 ⟨5000 * t.val + p.val, hp⟩ q : S100000x32.Idx) := by
  obtain ⟨-, -, -, -, -, -, e6, e7⟩ := index_maps t
  refine funext fun a => Fin.ext ?_
  match a with
  | ⟨0, _⟩ => show win4_3.index t (0 : Fin 2) * 5000 + 1 * p.val = 5000 * t.val + p.val; rw [e6]; omega
  | ⟨1, _⟩ => show win4_3.index t (1 : Fin 2) * 32 + 1 * q.val = q.val; rw [e7]; omega

/-- What point t writes back is block t of the layer of the arrays the region finds. -/
theorem flushed_eq (c : Dev nD) (t : Fin cfg4.N) :
    (dat4 V c).flushed 3 t = ((cfg4.win 3).blk t).view.read (Elt Ideal)
      (Net.affine (V c main_v66 : S100000x32.Idx → EReal) (V c main_v79 : S32x32.Idx → EReal) (V c main_v80 : S1x32.Idx → EReal)) := by
  show (cfg4.win 3).cut (grid4.coords t) ((dat4 V c).after 3 t) = _
  rw [after4_3]
  unfold out4_3
  rw [View.canon_unit_zero zero_offsets]
  simp only [View.ld_unit_zero (S := S5000x32) zero_offsets, View.ld_unit_zero (S := S32x32) zero_offsets,
    View.ld_unit_zero (S := S1x32) zero_offsets]
  funext j
  obtain ⟨p, q, rfl⟩ : ∃ (p : Fin 5000) (q : Fin 32), j = ix2 p q := ⟨j 0, j 1, eq_ix2 j⟩
  have hp : 5000 * t.val + p.val < 100000 := by have := points t; have := p.isLt; omega
  show k4_pay1 (iblk4 V c 0 t) (iblk4 V c 1 t) (iblk4 V c 2 t) (ix2 p q)
    = Net.affine (V c main_v66 : S100000x32.Idx → EReal) (V c main_v79 : S32x32.Idx → EReal) (V c main_v80 : S1x32.Idx → EReal)
        (((cfg4.win 3).blk t).view.emb (ix2 p q))
  rw [out_emb t p q hp, Net.affine_apply]
  refine (payload_apply _ _ _ p q).trans ?_
  rw [b_block V c t q]
  refine congrArg (fun z => z + _) (Finset.sum_congr rfl fun l _ => ?_)
  rw [x_block V c t p l hp, w_block V c t l q]

/-- An index of the output array is in point t's block iff each coordinate is in the block's range on its axis. -/
theorem mem_block (t : Fin cfg4.N) (i : S100000x32.Idx) :
    i ∈ ((cfg4.win 3).blk t).view.set
      ↔ ∀ a : Fin 2, win4_3.index t a * S5000x32.size a ≤ (i a).val ∧ (i a).val < win4_3.index t a * S5000x32.size a + S5000x32.size a := by
  show i ∈ ((View.whole main_v81).slice (win4_3.rect t)).set ↔ _
  rw [View.set_slice_whole, Rect.mem_set_unit]
  exact Iff.rfl

/-- The 20 blocks of 5000 rows tile the 100000 rows: row r is in the block of point r / 5000. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 20 := N_4
  refine ⟨⟨(i 0).val / 5000, by rw [hN]; omega⟩, flush4_3 _, ?_⟩
  rw [mem_block]
  obtain ⟨-, -, -, -, -, -, e6, e7⟩ := index_maps ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e6]; show (i 0).val / 5000 * 5000 ≤ (i 0).val ∧ (i 0).val < (i 0).val / 5000 * 5000 + 5000; omega
  | ⟨1, _⟩ =>
    show win4_3.index _ (1 : Fin 2) * 32 ≤ (i 1).val ∧ (i 1).val < win4_3.index _ (1 : Fin 2) * 32 + 32
    rw [e7]; omega

/-- The output array after the region: the layer of the arrays the region finds. -/
theorem final (c : Dev nD) :
    (dat4 V c).arrAt 3 cfg4.N
      = Net.affine (V c main_v66 : S100000x32.Idx → EReal) (V c main_v79 : S32x32.Idx → EReal) (V c main_v80 : S1x32.Idx → EReal) :=
  (dat4 V c).arrAt_eq_of_cover 3 _ (fun t _ => flushed_eq V c t) cover

end Cert.KernelIdeal.Layer4

end
-- ==== Proof.StageC.lean ====
/-
  The kernel program from its third region's exit to its fifth's: the second dense layer h · lin2_wᵀ + lin2_b
  (region 3), the antisymmetric weight of the second convolution and the transposed phi2_w (host operations on the
  arguments), and the second feature map (region 4: an affine layer whose row is float zeros is the product). The
  edge lists and the edge weights computed before the first region reach this point untouched: no host operation
  and no region writes them.
-/
import proofs.«138381_j4320737100478_1_alg».proof.Proof.Gen.KernelIdeal.Frame
import proofs.«138381_j4320737100478_1_alg».proof.Proof.Spec
import proofs.«138381_j4320737100478_1_alg».proof.Proof.StageB
import proofs.«138381_j4320737100478_1_alg».proof.Proof.Layer3
import proofs.«138381_j4320737100478_1_alg».proof.Proof.Layer4
import proofs.«138381_j4320737100478_1_alg».proof.Proof.HostLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)

theorem w8_arg3 : W8 m ρ c (Proc.devRef .tc main_arg3) = A3 :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A3 := rfl

theorem w8_arg4 : W8 m ρ c (Proc.devRef .tc main_arg4) = A4 :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A4 := rfl

theorem w10_arg8 : W10 m ρ c (Proc.devRef .tc main_arg8) = A8 :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A8 := rfl

theorem w10_arg9 : W10 m ρ c (Proc.devRef .tc main_arg9) = A9 :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A9 := rfl

theorem w12_arg10 : W12 m ρ c (Proc.devRef .tc main_arg10) = A10 :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A10 := rfl

theorem w9_v63 : W9 m ρ c (Proc.devRef .tc main_v63) = Cert.ReferenceIdeal.Spec.h2 A0 A1 A2 A5 A6 A7 A11 :=
  calc W9 m ρ c (Proc.devRef .tc main_v63)
    _ = W8 m ρ c (Proc.devRef .tc main_v63) := StableHlo.after_of_forall_not_mem (b := Proc.devRef .tc main_v63) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.h2 A0 A1 A2 A5 A6 A7 A11 := w8_v63 m ρ c

/-- The transposed lin2_w. -/
theorem w9_v64 : W9 m ρ c (Proc.devRef .tc main_v64) = transpose S128x32 [1, 0] A3 transposes_S32x128_S128x32_1_0 := by
  dsimp only [W9, hostOps3]
  after_results
  rw [w8_arg3 m ρ c] <;> rfl

/-- lin2_b as a row. -/
theorem w9_v65 : W9 m ρ c (Proc.devRef .tc main_v65) = Cert.ReferenceIdeal.Spec.rowOf32 A4 := by
  refine Eq.trans ?_ (row32 A4)
  dsimp only [W9, hostOps3]
  after_results
  rw [w8_arg4 m ρ c] <;> rfl

/-- Region 3 leaves the second dense layer. -/
theorem w10_v66 : W10 m ρ c (Proc.devRef .tc main_v66) = Cert.ReferenceIdeal.Spec.h3 A0 A1 A2 A3 A4 A5 A6 A7 A11 := by
  refine (W10_arr m ρ c 3).trans ?_
  rw [Layer3.final (V9 m ρ) c, show V9 m ρ c main_v63 = _ from w9_v63 m ρ c,
    show V9 m ρ c main_v64 = _ from w9_v64 m ρ c, show V9 m ρ c main_v65 = _ from w9_v65 m ρ c] <;> rfl

theorem w11_v66 : W11 m ρ c (Proc.devRef .tc main_v66) = Cert.ReferenceIdeal.Spec.h3 A0 A1 A2 A3 A4 A5 A6 A7 A11 :=
  calc W11 m ρ c (Proc.devRef .tc main_v66)
    _ = W10 m ρ c (Proc.devRef .tc main_v66) := StableHlo.after_of_forall_not_mem (b := Proc.devRef .tc main_v66) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.h3 A0 A1 A2 A3 A4 A5 A6 A7 A11 := w10_v66 m ρ c

/-- The antisymmetric weight of the second convolution. -/
theorem w11_v77 : W11 m ρ c (Proc.devRef .tc main_v77) = Cert.ReferenceIdeal.Spec.antisym32 A8 := by
  dsimp only [W11, hostOps4]
  after_results
  rw [w10_arg8 m ρ c] <;> rfl

/-- The transposed phi2_w. -/
theorem w11_v79 : W11 m ρ c (Proc.devRef .tc main_v79) = transpose S32x32 [1, 0] A9 transposes_S32x32_S32x32_1_0 := by
  dsimp only [W11, hostOps4]
  after_results
  rw [w10_arg9 m ρ c] <;> rfl

/-- The row of float zeros the feature map's layer adds. -/
theorem w11_v80 : W11 m ρ c (Proc.devRef .tc main_v80) = shapeCast S1x32 (broadcastInDim S32 ![] bcast_S_S32 (constant (F := Ideal) S_ .f32 0x00000000#32)) shapeCasts_S32_S1x32 := by
  dsimp only [W11, hostOps4]
  after_results <;> rfl

/-- Region 4 leaves the second feature map. -/
theorem w12_v81 : W12 m ρ c (Proc.devRef .tc main_v81) = Cert.ReferenceIdeal.Spec.xw2 A0 A1 A2 A3 A4 A5 A6 A7 A9 A11 := by
  refine (W12_arr m ρ c 3).trans ?_
  rw [Layer4.final (V11 m ρ) c, show V11 m ρ c main_v66 = _ from w11_v66 m ρ c,
    show V11 m ρ c main_v79 = _ from w11_v79 m ρ c, show V11 m ρ c main_v80 = _ from w11_v80 m ρ c]
  refine (Net.affine_zero_row _ _ _ (fun q => Net.zero_row _ _ q)).trans ?_
  rfl

theorem w12_v3 : W12 m ρ c (Proc.devRef .tc main_v3) = Cert.ReferenceIdeal.Spec.rows A11 :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.rows A11 := w6_v3 m ρ c

theorem w12_v6 : W12 m ρ c (Proc.devRef .tc main_v6) = Cert.ReferenceIdeal.Spec.cols A11 :=
  calc W12 m ρ c (Proc.devRef .tc main_v6)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.cols A11 := w6_v6 m ρ c

theorem w12_v29 : W12 m ρ c (Proc.devRef .tc main_v29) = Cert.ReferenceIdeal.Spec.norm A11 :=
  calc W12 m ρ c (Proc.devRef .tc main_v29)
    _ = W11 m ρ c (Proc.devRef .tc main_v29) := W12_of_ne m ρ c main_v29 (by decide)
    _ = W10 m ρ c (Proc.devRef .tc main_v29) := StableHlo.after_of_forall_not_mem (b := Proc.devRef .tc main_v29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v29) := W10_of_ne m ρ c main_v29 (by decide)
    _ = W8 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.norm A11 := w6_v29 m ρ c

theorem w12_v77 : W12 m ρ c (Proc.devRef .tc main_v77) = Cert.ReferenceIdeal.Spec.antisym32 A8 :=
  calc W12 m ρ c (Proc.devRef .tc main_v77)
    _ = W11 m ρ c (Proc.devRef .tc main_v77) := W12_of_ne m ρ c main_v77 (by decide)
    _ = Cert.ReferenceIdeal.Spec.antisym32 A8 := w11_v77 m ρ c

theorem w12_v66 : W12 m ρ c (Proc.devRef .tc main_v66) = Cert.ReferenceIdeal.Spec.h3 A0 A1 A2 A3 A4 A5 A6 A7 A11 :=
  calc W12 m ρ c (Proc.devRef .tc main_v66)
    _ = W11 m ρ c (Proc.devRef .tc main_v66) := (W12_arr m ρ c 0).trans (((dat4 (V11 m ρ) c).arrAt_in 0 rfl _).trans (A_eq4 (V11 m ρ) c 0))
    _ = Cert.ReferenceIdeal.Spec.h3 A0 A1 A2 A3 A4 A5 A6 A7 A11 := w11_v66 m ρ c

end Cert.KernelIdeal.Stages

end
-- ==== Proof.Layer5.lean ====
/-
  Region 5: the combine step of an antisymmetric convolution. Each of the 20 grid points loads rows
  5000·t … 5000·t + 4999 of the features X and of the aggregated messages G, the whole 32×32 matrix A and a
  1×32 row b, and stores X_block + ε · tanh ((X_block · A + G_block) + b) into the same rows of the output. A row
  of the result reads that row of X and of G only, so the output array after the region is the combine step of
  the whole arrays: block t of that array is what point t writes back, and the blocks tile the 100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg5.N) : t.val < 20 := by have h := t.isLt; have e : cfg5.N = 20 := N_5; omega

/-- The body's stored value at row p, lane q of the block: the X block's entry plus ε times the tanh of the sum over
    the contraction of the X block's row p against A's column q, plus the aggregate block's entry, plus the row's lane q. -/
theorem payload_apply (x0 : Vec Ideal S5000x32 .f32) (xA : Vec Ideal S32x32 .f32) (xG : Vec Ideal S5000x32 .f32) (xb : Vec Ideal S1x32 .f32)
    (p : Fin 5000) (q : Fin 32) :
    k5_pay1 x0 xA xG xb (ix2 p q)
      = x0 (ix2 p q) + Ideal.ofBits .f32 0x3DCCCCCD#32
          * Ideal.tanh (((∑ c : Fin 32, x0 (ix2 p c) * xA (ix2 c q)) + xG (ix2 p q)) + xb (ix2 0 q)) := by
  show shapeCast S5000x32 x0 shapeCasts_S5000x32_S5000x32 (ix2 p q) + Ideal.ofBits .f32 0x3DCCCCCD#32
      * Ideal.tanh ((FloatOps.matmul dot_S5000x32_S32x32_S5000x32_1_0_0_1_n_n none
            (truncf .bf16 (shapeCast S5000x32 x0 shapeCasts_S5000x32_S5000x32) bitsLt_bf16_f32)
            (truncf .bf16 (shapeCast S32x32 xA shapeCasts_S32x32_S32x32) bitsLt_bf16_f32)
            (constant (F := Ideal) S5000x32 .f32 0x00000000#32) (ix2 p q)
          + shapeCast S5000x32 xG shapeCasts_S5000x32_S5000x32 (ix2 p q))
        + broadcastTo S5000x32 (shapeCast S1x32 xb shapeCasts_S1x32_S1x32) broadcasts_S1x32_S5000x32 (ix2 p q)) = _
  rw [PlainDot.matmul_zero_apply dot_S5000x32_S32x32_S5000x32_1_0_0_1_n_n rfl none _ _ p q, RowVector.broadcastTo_row (by decide)]
  simp only [shapeCast_self]
  rfl

/-- The printed index maps over the 20 grid points: the X, the aggregate and the output windows move down the rows
    with the point, the square matrix and the row windows stay. -/
theorem index_maps : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's X block is row 5000·t + p of the X array. -/
theorem x_block (c : Dev nD) (t : Fin cfg5.N) (p : Fin 5000) (l : Fin 32) (hp : 5000 * t.val + p.val < 100000) :
    (iblk5 V c 0 t : Vec Ideal S5000x32 .f32) (ix2 p l)
      = (V c main_v66 : S100000x32.Idx → EReal) (ix2 ⟨5000 * t.val + p.val, hp⟩ l) := by
  obtain ⟨e0, e1, -⟩ := index_maps t
  show (V c main_v66 : S100000x32.Idx → EReal) (((cfg5.win 0).blk t).view.emb (ix2 p l)) = _
  refine congrArg _ (funext fun a => Fin.ext ?_)
  match a with
  | ⟨0, _⟩ => show win5_0.index t (0 : Fin 2) * 5000 + 1 * p.val = 5000 * t.val + p.val; rw [e0]; omega
  | ⟨1, _⟩ => show win5_0.index t (1 : Fin 2) * 32 + 1 * l.val = l.val; rw [e1]; omega

/-- Row p of point t's aggregate block is row 5000·t + p of the aggregate array. -/
theorem g_block (c : Dev nD) (t : Fin cfg5.N) (p : Fin 5000) (l : Fin 32) (hp : 5000 * t.val + p.val < 100000) :
    (iblk5 V c 1 t : Vec Ideal S5000x32 .f32) (ix2 p l)
      = (V c main_v94 : S100000x32.Idx → EReal) (ix2 ⟨5000 * t.val + p.val, hp⟩ l) := by
  obtain ⟨-, -, e2, e3, -⟩ := index_maps t
  show (V c main_v94 : S100000x32.Idx → EReal) (((cfg5.win 1).blk t).view.emb (ix2 p l)) = _
  refine congrArg _ (funext fun a => Fin.ext ?_)
  match a with
  | ⟨0, _⟩ => show win5_1.index t (0 : Fin 2) * 5000 + 1 * p.val = 5000 * t.val + p.val; rw [e2]; omega
  | ⟨1, _⟩ => show win5_1.index t (1 : Fin 2) * 32 + 1 * l.val = l.val; rw [e3]; omega

/-- Every point's square-matrix block is the whole matrix. -/
theorem a_block (c : Dev nD) (t : Fin cfg5.N) (l : Fin 32) (q : Fin 32) :
    (iblk5 V c 2 t : Vec Ideal S32x32 .f32) (ix2 l q) = (V c main_v95 : S32x32.Idx → EReal) (ix2 l q) := by
  obtain ⟨-, -, -, -, e4, e5, -⟩ := index_maps t
  show (V c main_v95 : S32x32.Idx → EReal) (((cfg5.win 2).blk t).view.emb (ix2 l q)) = _
  refine congrArg _ (funext fun a => Fin.ext ?_)
  match a with
  | ⟨0, _⟩ => show win5_2.index t (0 : Fin 2) * 32 + 1 * l.val = l.val; rw [e4]; omega
  | ⟨1, _⟩ => show win5_2.index t (1 : Fin 2) * 32 + 1 * q.val = q.val; rw [e5]; omega

/-- Every point's row block is the whole 1×32 row. -/
theorem b_block (c : Dev nD) (t : Fin cfg5.N) (q : Fin 32) :
    (iblk5 V c 3 t : Vec Ideal S1x32 .f32) (ix2 0 q) = (V c main_v96 : S1x32.Idx → EReal) (ix2 0 q) := by
  obtain ⟨-, -, -, -, -, -, e6, e7, -⟩ := index_maps t
  show (V c main_v96 : S1x32.Idx → EReal) (((cfg5.win 3).blk t).view.emb (ix2 0 q)) = _
  refine congrArg _ (funext fun a => Fin.ext ?_)
  match a with
  | ⟨0, _⟩ => show win5_3.index t (0 : Fin 2) * 1 + 1 * 0 = 0; rw [e6]
  | ⟨1, _⟩ => show win5_3.index t (1 : Fin 2) * 32 + 1 * q.val = q.val; rw [e7]; omega

/-- Row p, lane q of point t's output block sits at row 5000·t + p, lane q of the output array. -/
theorem out_emb (t : Fin cfg5.N) (p : Fin 5000) (q : Fin 32) (hp : 5000 * t.val + p.val < 100000) :
    ((cfg5.win 4).blk t).view.emb (ix2 p q) = (ix2 ⟨5000 * t.val + p.val, hp⟩ q : S100000x32.Idx) := by
  obtain ⟨-, -, -, -, -, -, -, -, e8, e9⟩ := index_maps t
  refine funext fun a => Fin.ext ?_
  match a with
  | ⟨0, _⟩ => show win5_4.index t (0 : Fin 2) * 5000 + 1 * p.val = 5000 * t.val + p.val; rw [e8]; omega
  | ⟨1, _⟩ => show win5_4.index t (1 : Fin 2) * 32 + 1 * q.val = q.val; rw [e9]; omega

/-- What point t writes back is block t of the combine step of the arrays the region finds. -/
theorem flushed_eq (c : Dev nD) (t : Fin cfg5.N) :
    (dat5 V c).flushed 4 t = ((cfg5.win 4).blk t).view.read (Elt Ideal)
      (Net.combine (V c main_v66 : S100000x32.Idx → EReal) (V c main_v94 : S100000x32.Idx → EReal) (V c main_v95 : S32x32.Idx → EReal)
        (V c main_v96 : S1x32.Idx → EReal)) := by
  show (cfg5.win 4).cut (grid5.coords t) ((dat5 V c).after 4 t) = _
  rw [after5_4]
  unfold out5_4
  rw [View.canon_unit_zero zero_offsets]
  simp only [View.ld_unit_zero (S := S5000x32) zero_offsets, View.ld_unit_zero (S := S32x32) zero_offsets,
    View.ld_unit_zero (S := S1x32) zero_offsets]
  funext j
  obtain ⟨p, q, rfl⟩ : ∃ (p : Fin 5000) (q : Fin 32), j = ix2 p q := ⟨j 0, j 1, eq_ix2 j⟩
  have hp : 5000 * t.val + p.val < 100000 := by have := points t; have := p.isLt; omega
  show k5_pay1 (iblk5 V c 0 t) (iblk5 V c 2 t) (iblk5 V c 1 t) (iblk5 V c 3 t) (ix2 p q)
    = Net.combine (V c main_v66 : S100000x32.Idx → EReal) (V c main_v94 : S100000x32.Idx → EReal) (V c main_v95 : S32x32.Idx → EReal)
        (V c main_v96 : S1x32.Idx → EReal) (((cfg5.win 4).blk t).view.emb (ix2 p q))
  rw [out_emb t p q hp, Net.combine_apply]
  refine (payload_apply _ _ _ _ p q).trans ?_
  rw [b_block V c t q, x_block V c t p q hp, g_block V c t p q hp]
  refine congrArg (fun z => _ + _ * Ideal.tanh ((z + _) + _)) (Finset.sum_congr rfl fun l _ => ?_)
  rw [x_block V c t p l hp, a_block V c t l q]

/-- An index of the output array is in point t's block iff each coordinate is in the block's range on its axis. -/
theorem mem_block (t : Fin cfg5.N) (i : S100000x32.Idx) :
    i ∈ ((cfg5.win 4).blk t).view.set
      ↔ ∀ a : Fin 2, win5_4.index t a * S5000x32.size a ≤ (i a).val ∧ (i a).val < win5_4.index t a * S5000x32.size a + S5000x32.size a := by
  show i ∈ ((View.whole main_v97).slice (win5_4.rect t)).set ↔ _
  rw [View.set_slice_whole, Rect.mem_set_unit]
  exact Iff.rfl

/-- The 20 blocks of 5000 rows tile the 100000 rows: row r is in the block of point r / 5000. -/
theorem cover (i : S100000x32.Idx) : ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 20 := N_5
  refine ⟨⟨(i 0).val / 5000, by rw [hN]; omega⟩, flush5_4 _, ?_⟩
  rw [mem_block]
  obtain ⟨-, -, -, -, -, -, -, -, e8, e9⟩ := index_maps ⟨(i 0).val / 5000, by rw [hN]; omega⟩
  intro a
  match a with
  | ⟨0, _⟩ =>
    show win5_4.index _ (0 : Fin 2) * 5000 ≤ (i 0).val ∧ (i 0).val < win5_4.index _ (0 : Fin 2) * 5000 + 5000
    rw [e8]; show (i 0).val / 5000 * 5000 ≤ (i 0).val ∧ (i 0).val < (i 0).val / 5000 * 5000 + 5000; omega
  | ⟨1, _⟩ =>
    show win5_4.index _ (1 : Fin 2) * 32 ≤ (i 1).val ∧ (i 1).val < win5_4.index _ (1 : Fin 2) * 32 + 32
    rw [e9]; omega

/-- The output array after the region: the combine step of the arrays the region finds. -/
theorem final (c : Dev nD) :
    (dat5 V c).arrAt 4 cfg5.N
      = Net.combine (V c main_v66 : S100000x32.Idx → EReal) (V c main_v94 : S100000x32.Idx → EReal) (V c main_v95 : S32x32.Idx → EReal)
          (V c main_v96 : S1x32.Idx → EReal) :=
  (dat5 V c).arrAt_eq_of_cover 4 _ (fun t _ => flushed_eq V c t) cover

end Cert.KernelIdeal.Layer5

end
-- ==== Proof.Layer6.lean ====
/-
  Region 6: the log-softmax. Each of the 20 grid points loads rows 5000·t … 5000·t + 4999 of the 100000×32 input
  and stores, for every row, the entries minus the row's maximum minus the logarithm of the sum over the row of the
  exponentials of those differences. A row of the result reads that row of the input only, so the output array
  after the region is the log-softmax of every row of the whole array: block t of that array is what point t
  writes back, and the blocks tile the 100000 rows.
-/
import proofs.«138381_j4320737100478_1_alg».proof.Proof.Gen.KernelIdeal.Frame
import proofs.«138381_j4320737100478_1_alg».proof.Proof.Net
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem points (t : Fin cfg6.N) : t.val < 20 := by have h := t.isLt; have e : cfg6.N = 20 := N_6; omega

/-- The body's stored value at row p, lane q of the block: the log-softmax of the loaded block's row p, at q. -/
theorem payload_apply (x0 : Vec Ideal S5000x32 .f32) (p : Fin 5000) (q : Fin 32) :
    k6_pay1 x0 (ix2 p q) = Sage.lsmRow (DenseRows.row x0 p) q := by
  have h := congrFun (RowCalc.row_lsm (R := 5000) (N := 32) (shapeCast S5000x32 x0 shapeCasts_S5000x32_S5000x32)
    reduces_S5000x32_S5000 (.inl rfl) rfl rfl shapeCasts_S5000_S5000x1 broadcasts_S5000x1_S5000x32 p) q
  refine h.trans ?_
  rw [shapeCast_self]

/-- The printed index maps over the 20 grid points: both windows move down the rows with the point. -/
theorem index_maps : ∀ t : Fin cfg6.N,
    win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- Row p of point t's input block is row 5000·t + p of the input array. -/
theorem x_block (c : Dev nD) (t : Fin cfg6.N) (p : Fin 5000) (l : Fin 32) (hp : 5000 * t.val + p.val < 100000) :
    (iblk6 V c 0 t : Vec Ideal S5000x32 .f32) (ix2 p l)
      = (V c main_v97 : S100000x32.Idx → EReal) (ix2 ⟨5000 * t.val + p.val, hp⟩ l) := by
  obtain ⟨e0, e1, -⟩ := index_maps t
  show (V c main_v97 : S100000x32.Idx → EReal) (((cfg6.win 0).blk t).view.emb (ix2 p l)) = _
  refine congrArg _ (funext fun a => Fin.ext ?_)
  match a with
  | ⟨0, _⟩ => show win6_0.index t (0 : Fin 2) * 5000 + 1 * p.val = 5000 * t.val + p.val; rw [e0]; omega
  | ⟨1, _⟩ => show win6_0.index t (1 : Fin 2) * 32 + 1 * l.val = l.val; rw [e1]; omega

/-- Row p, lane q of point t's output block sits at row 5000·t + p, lane q of the output array. -/
theorem out_emb (t : Fin cfg6.N) (p : Fin 5000) (q : Fin 32) (hp : 5000 * t.val + p.val < 100000) :
    ((cfg6.win 1).blk t).view.emb (ix2 p q) = (ix2 ⟨5000 * t.val + p.val, hp⟩ q : S100000x32.Idx) := by
  obtain ⟨-, -, e2, e3⟩ := index_maps t
  refine funext fun a => Fin.ext ?_
  match a with
  | ⟨0, _⟩ => show win6_1.index t (0 : Fin 2) * 5000 + 1 * p.val = 5000 * t.val + p.val; rw [e2]; omega
  | ⟨1, _⟩ => show win6_1.index t (1 : Fin 2) * 32 + 1 * q.val = q.val; rw [e3]; omega

/-- What point t writes back is block t of the log-softmax of the array the region finds. -/
theorem flushed_eq (c : Dev nD) (t : Fin cfg6.N) :
    (dat6 V c).flushed 1 t = ((cfg6.win 1).blk t).view.read (Elt Ideal)
      (Net.logSoftmax (V c main_v97 : S100000x32.Idx → EReal)) := by
  show (cfg6.win 1).cut (grid6.coords t) ((dat6 V c).after 1 t) = _
  rw [after6_1]
  unfold out6_1
  rw [View.canon_unit_zero zero_offsets]
  simp only [View.ld_unit_zero (S := S5000x32) zero_offsets]
  funext j
  obtain ⟨p, q, rfl⟩ : ∃ (p : Fin 5000) (q : Fin 32), j = ix2 p q := ⟨j 0, j 1, eq_ix2 j⟩
  have hp : 5000 * t.val + p.val < 100000 := by have := points t; have := p.isLt; omega
  show k6_pay1 (iblk6 V c 0 t) (ix2 p q)
    = Net.logSoftmax (V c main_v97 : S100000x32.Idx → EReal) (((cfg6.win 1).blk t).view.emb (ix2 p q))
  rw [out_emb t p q hp, Net.logSoftmax_apply]
  refine (payload_apply _ p q).trans ?_
  refine congrArg (fun r => Sage.lsmRow r q) (funext fun l => ?_)
  exact x_block V c t p l hp

/-- An index of the output array is in point t's block iff each coordinate is in the block's range on its axis. -/
theorem mem_block (t : Fin cfg6.N) (i : S100000x32.Idx) :
    i ∈ ((cfg6.win 1).blk t).view.set
      ↔ ∀ a : Fin 2, win6_1.index t a * S5000x32.size a ≤ (i a).val ∧ (i a).val < win6_1.index t a * S5000x32.size a + S5000x32.size a := by
  show i ∈ ((View.whole main_v98).slice (win6_1.rect t)).set ↔ _
  rw [View.set_slice_whole, Rect.mem_set_unit]
  exact Iff.rfl

/-- The 20 blocks of 5000 rows tile the 100000 rows: row r is in the block of point r / 5000. -/
theorem cover (i : S100000x32.Idx) : ∃ t : Fin cfg6.N, (cfg6.win 1).flush t = true ∧ i ∈ ((cfg6.win 1).blk t).view.set := by
  have hi0 : (i 0).val < 100000 := (i 0).isLt
  have hi1 : (i 1).val < 32 := (i 1).isLt
  have hN : cfg6.N = 20 := N_6
  refine ⟨⟨(i 0).val / 5000, by rw [hN]; omega⟩, flush6_1 _, ?_⟩
  rw [mem_block]
  obtain ⟨-, -, e2, e3⟩ := index_maps ⟨(i 0).val / 5000, by rw [hN]; omega⟩
  intro a
  match a with
  | ⟨0, _⟩ =>
    show win6_1.index _ (0 : Fin 2) * 5000 ≤ (i 0).val ∧ (i 0).val < win6_1.index _ (0 : Fin 2) * 5000 + 5000
    rw [e2]; show (i 0).val / 5000 * 5000 ≤ (i 0).val ∧ (i 0).val < (i 0).val / 5000 * 5000 + 5000; omega
  | ⟨1, _⟩ =>
    show win6_1.index _ (1 : Fin 2) * 32 ≤ (i 1).val ∧ (i 1).val < win6_1.index _ (1 : Fin 2) * 32 + 32
    rw [e3]; omega

/-- The output array after the region: the log-softmax of every row of the array the region finds. -/
theorem final (c : Dev nD) :
    (dat6 V c).arrAt 1 cfg6.N = Net.logSoftmax (V c main_v97 : S100000x32.Idx → EReal) :=
  (dat6 V c).arrAt_eq_of_cover 1 _ (fun t _ => flushed_eq V c t) cover

end Cert.KernelIdeal.Layer6

end
-- ==== Proof.StageD.lean ====
/-
  The kernel program from its fifth region's exit to its return: the second convolution's messages gathered by
  source, scaled by the edge's weight and scatter-added by target (the network's own host operations, applied to the
  arrays found so far), the combine step (region 5) and the log-softmax of every row (region 6): the kernel's result
  array is the network's output.
-/
import proofs.«138381_j4320737100478_1_alg».proof.Proof.Gen.KernelIdeal.Frame
import proofs.«138381_j4320737100478_1_alg».proof.Proof.Spec
import proofs.«138381_j4320737100478_1_alg».proof.Proof.StageC
import proofs.«138381_j4320737100478_1_alg».proof.Proof.Layer5
import proofs.«138381_j4320737100478_1_alg».proof.Proof.Layer6
import proofs.«138381_j4320737100478_1_alg».proof.Proof.HostLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)

theorem w13_v66 : W13 m ρ c (Proc.devRef .tc main_v66) = Cert.ReferenceIdeal.Spec.h3 A0 A1 A2 A3 A4 A5 A6 A7 A11 :=
  calc W13 m ρ c (Proc.devRef .tc main_v66)
    _ = W12 m ρ c (Proc.devRef .tc main_v66) := StableHlo.after_of_forall_not_mem (b := Proc.devRef .tc main_v66) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.Spec.h3 A0 A1 A2 A3 A4 A5 A6 A7 A11 := w12_v66 m ρ c

/-- The second convolution's messages, scatter-added by target. -/
theorem w13_v94 : W13 m ρ c (Proc.devRef .tc main_v94) = Cert.ReferenceIdeal.Spec.agg32 (Cert.ReferenceIdeal.Spec.xw2 A0 A1 A2 A3 A4 A5 A6 A7 A9 A11) A11 := by
  dsimp only [W13, hostOps5]
  after_results_simp
  rw [w12_v81 m ρ c, w12_v29 m ρ c, w12_v3 m ρ c, w12_v6 m ρ c] <;> rfl

/-- The transposed antisymmetric weight. -/
theorem w13_v95 : W13 m ρ c (Proc.devRef .tc main_v95) = transpose S32x32 [1, 0] (Cert.ReferenceIdeal.Spec.antisym32 A8) transposes_S32x32_S32x32_1_0 := by
  dsimp only [W13, hostOps5]
  after_results
  rw [w12_v77 m ρ c] <;> rfl

/-- The second convolution's bias as a row. -/
theorem w13_v96 : W13 m ρ c (Proc.devRef .tc main_v96) = Cert.ReferenceIdeal.Spec.rowOf32 A10 := by
  refine Eq.trans ?_ (row32 A10)
  dsimp only [W13, hostOps5]
  after_results
  rw [w12_arg10 m ρ c] <;> rfl

/-- Region 5 leaves the second convolution. -/
theorem w14_v97 : W14 m ρ c (Proc.devRef .tc main_v97) = Cert.ReferenceIdeal.Spec.h4 A0 A1 A2 A3 A4 A5 A6 A7 A8 A9 A10 A11 := by
  refine (W14_arr m ρ c 4).trans ?_
  rw [Layer5.final (V13 m ρ) c, show V13 m ρ c main_v66 = _ from w13_v66 m ρ c,
    show V13 m ρ c main_v94 = _ from w13_v94 m ρ c, show V13 m ρ c main_v95 = _ from w13_v95 m ρ c,
    show V13 m ρ c main_v96 = _ from w13_v96 m ρ c] <;> rfl

/-- Region 6 leaves the network's output. -/
theorem w15_v98 : W15 m ρ c (Proc.devRef .tc main_v98) = Cert.ReferenceIdeal.Spec.out A0 A1 A2 A3 A4 A5 A6 A7 A8 A9 A10 A11 := by
  refine (W15_arr m ρ c 1).trans ?_
  rw [Layer6.final (V14 m ρ) c, show V14 m ρ c main_v97 = _ from w14_v97 m ρ c] <;> rfl

end Cert.KernelIdeal.Stages

end
-- ==== Proof.lean ====
/-
  The kernel and its reference compute one function over the extended reals.

  Both programs take node features x, two dense layers (lin1, lin2), two antisymmetric graph convolutions
  (W, phi_w, b each) and an edge list, and return the log-softmax of

      h1 = max (x · lin1_wᵀ + lin1_b) 0
      h2 = h1 + ε · tanh ((h1 · (W1 − W1ᵀ − γ·I)ᵀ + agg (h1 · phi1_wᵀ)) + b1)
      h3 = h2 · lin2_wᵀ + lin2_b
      h4 = h3 + ε · tanh ((h3 · (W2 − W2ᵀ − γ·I)ᵀ + agg (h3 · phi2_wᵀ)) + b2)

  where agg gathers the rows by each edge's source, scales them by the edge's symmetric normalisation and
  scatter-adds them by the edge's target (self-loops added). The reference does everything with host operations; the
  kernel does the dense parts — the layers, the feature maps X · phi_wᵀ, the combine steps, the log-softmax — in
  seven regions of 20 row blocks each and keeps the reference's own host operations for the edge lists, the
  normalisation, the gathers and the scatter-adds. At the ideal values a change of float format is the identity and
  a product on the matrix unit into the zero accumulator is the plain sum, so each region's output array is the
  corresponding layer of the whole arrays (Layer0 … Layer6), which is what the reference's host spelling of that
  layer is (HostLayers); the host operations in between are the same in both programs, applied to the same arrays
  (Spec names them; StageA … StageD read the kernel program boundary by boundary, RefFold the reference).
  No law of the extended reals beyond x + 0 = x is used, so the precondition is never opened. The ideal pass
  rewrote nothing (the ledger is empty), and the three frames are the generated ones.
-/
import proofs.«138381_j4320737100478_1_alg».proof.Defs
import proofs.«138381_j4320737100478_1_alg».proof.Proof.Gen.Kernel.Frame
import proofs.«138381_j4320737100478_1_alg».proof.Proof.Gen.KernelIdeal.Frame
import proofs.«138381_j4320737100478_1_alg».proof.Proof.RunP
import proofs.«138381_j4320737100478_1_alg».proof.Proof.RefFold
import proofs.«138381_j4320737100478_1_alg».proof.Proof.Gen.Pre_finite_inputs
import proofs.«138381_j4320737100478_1_alg».proof.Proof.KernelRun
import proofs.«138381_j4320737100478_1_alg».proof.Proof.StageD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the network's output of the arguments in their
    result buffers: the kernel by its regions and host stretches read boundary by boundary, the reference by its
    fold read stretch by stretch. -/
theorem algebraic : Cert.algebraic_KernelIdeal_ReferenceIdeal := by
  intro m ρ m' ρ' _ hagree
  refine ⟨fun c => Cert.ReferenceIdeal.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stages.w15_v98 m ρ c), (h c).2⟩)
      (Cert.KernelIdeal.Gen.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.Fold.result m' c, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
